-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S800000x128 : Shape := ⟨2, ![800000, 128]⟩
abbrev S5000x128 : Shape := ⟨2, ![5000, 128]⟩

abbrev nBuf : Space → Nat
  | .hbm => 103
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x1, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S1x128, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35_0 : Ref sig .tc := ⟨.hbm, 60, rfl⟩
abbrev main_v35_1 : Ref sig .tc := ⟨.hbm, 61, rfl⟩
abbrev main_v35_2 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58_0 : Ref sig .tc := ⟨.hbm, 91, rfl⟩
abbrev main_v58_1 : Ref sig .tc := ⟨.hbm, 92, rfl⟩
abbrev main_v58_2 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x1, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x1, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_cst_3 : Ref sig .tc := ⟨.hbm, 80, rfl⟩
abbrev main_call2_v12 : Ref sig .tc := ⟨.hbm, 81, rfl⟩
abbrev main_call2_cst_4 : Ref sig .tc := ⟨.hbm, 82, rfl⟩
abbrev main_call2_call0_v0 : Ref sig .tc := ⟨.hbm, 83, rfl⟩
abbrev main_call2_call0_v1 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_11 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_call3_cst : Ref sig .tc := ⟨.hbm, 102, rfl⟩
abbrev main_call3_v0 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_12 : Ref sig .tc := ⟨.hbm, 108, rfl⟩
abbrev main_v56 : Ref sig .tc := ⟨.hbm, 109, rfl⟩
abbrev main_v57 : Ref sig .tc := ⟨.hbm, 110, rfl⟩
abbrev main_c_13 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_14 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_15 : Ref sig .tc := ⟨.hbm, 128, rfl⟩
abbrev main_v73 : Ref sig .tc := ⟨.hbm, 129, rfl⟩
abbrev main_cst_16 : Ref sig .tc := ⟨.hbm, 130, rfl⟩
abbrev main_v74 : Ref sig .tc := ⟨.hbm, 131, rfl⟩
abbrev main_v75 : Ref sig .tc := ⟨.hbm, 132, rfl⟩
abbrev main_c_17 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_cst_1 : Ref sig .tc := ⟨.hbm, 144, rfl⟩
abbrev main_call4_v8 : Ref sig .tc := ⟨.hbm, 145, rfl⟩
abbrev main_call4_cst_2 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_cst_3 : Ref sig .tc := ⟨.hbm, 150, rfl⟩
abbrev main_call4_v12 : Ref sig .tc := ⟨.hbm, 151, rfl⟩
abbrev main_call4_cst_4 : Ref sig .tc := ⟨.hbm, 152, rfl⟩
abbrev main_call4_call0_v0 : Ref sig .tc := ⟨.hbm, 153, rfl⟩
abbrev main_call4_call0_v1 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_18 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_call5_cst : Ref sig .tc := ⟨.hbm, 173, rfl⟩
abbrev main_call5_v0 : Ref sig .tc := ⟨.hbm, 174, rfl⟩
abbrev main_v93 : Ref sig .tc := ⟨.hbm, 175, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.LibRowScatterAdd.lean ====
/-
  A ROW SCATTER-ADD read at an index.

  Adding rows `upd : [P, C]` into a table `x : [N, C]` at a column of integers `idx : [P, 1]` (one start index per
  update row) is StableHLO's scatter with an `add` body, update window axis 1, inserted window axis 0,
  scatter-dims-to-operand-dims map [0] and the index vector on axis 1. Update entry `(e, q')` lands on the table's
  entry `(t, q')`, where `t` is the start index `idx[e, 0]` read as a SIGNED integer and NOT clamped: when `t` is not
  in `[0, N)` the whole update row is dropped. Hence the result at `(n, q)` is the table's entry plus the sum, over the
  update rows `e` whose start index is exactly `n`, of `upd[e, q]`. The set of those rows depends on the indices and on
  `n` only — not on the column `q`, and not on the width `C`.
-/
import Idealize.ShloMosaic.PureOps.Ideal
import Idealize.ShloMosaic.Lib.ValueIdx

noncomputable section

namespace Cert.RowScatter

open Idealize.ShloMosaic Idealize.ShloMosaic.ValueIdx

/-- The update rows that land on row `n` of an `N`-row table: those whose start index, the 32-bit word read SIGNED
    and not clamped, is `n`. It does not depend on the table's width. -/
def landing (N : Nat) {P : Nat} (idx : (⟨2, ![P, 1]⟩ : Shape).Idx → BitVec 32) (n : Fin N) : Finset (Fin P) :=
  Finset.univ.filter fun e => (idx (ix2 e 0)).toInt = (n : ℤ)

/-- Membership in `landing`: the start index of update row `e`, read signed, is `n`. -/
theorem mem_landing {N P : Nat} (idx : (⟨2, ![P, 1]⟩ : Shape).Idx → BitVec 32) (n : Fin N) (e : Fin P) :
    e ∈ landing N idx n ↔ (idx (ix2 e 0)).toInt = (n : ℤ) := by
  simp [landing]

/-- The dimension numbers of a row scatter of `[P, C]` updates into an `[N, C]` table by `[P, 1]` start indices; their
    conditions `wf` are decided on a program's literal shapes. -/
abbrev rowDims (N P C : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section
variable {N P C : Nat} (wf : ScatterDims.WF ⟨2, ![N, C]⟩ ⟨2, ![P, 1]⟩ ⟨2, ![P, C]⟩ [1] [0] [0] 1)

/-- On the row axis the window of update entry `(e, q')` starts at the start index `idx[e, 0]`, read signed. -/
theorem start_row (idx : IVec ⟨2, ![P, 1]⟩ 32) (e : Fin P) (q' : Fin C) :
    (rowDims N P C wf).start (ix2 e q') idx 0 = (idx (ix2 e 0)).toInt := by
  unfold ScatterDims.start
  rw [dif_pos (show (0 : Fin 2) ∈ (rowDims N P C wf).scatterDimsToOperandDims from List.mem_singleton.mpr rfl)]
  have hsi : (rowDims N P C wf).siIdx (ix2 e q')
      ⟨List.idxOf (0 : Fin 2) (rowDims N P C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start-index map does not name, the window starts at zero. -/
theorem start_col (idx : IVec ⟨2, ![P, 1]⟩ 32) (e : Fin P) (q' : Fin C) :
    (rowDims N P C wf).start (ix2 e q') idx 1 = 0 := by
  unfold ScatterDims.start
  have h10 : ¬ (1 : Fin 2) ∈ [(0 : Fin 2)] := fun h =>
    absurd (congrArg Fin.val (List.mem_singleton.mp h)) Nat.one_ne_zero
  rw [dif_neg (show ¬ (1 : Fin 2) ∈ (rowDims N P C wf).scatterDimsToOperandDims from h10)]

/-- The row axis is an inserted window axis: the window coordinate on it is zero. -/
theorem window_row (e : Fin P) (q' : Fin C) : (rowDims N P C wf).window (ix2 e q') 0 = 0 := by
  unfold ScatterDims.window
  have h0 : ¬ (0 : Fin 2) ∈ (rowDims N P C wf).sKept := by
    intro h
    have := (List.mem_filter.mp h).2
    simp at this
  rw [dif_neg h0]

/-- On the column axis the window coordinate of update entry `(e, q')` is its column `q'`. -/
theorem window_col (e : Fin P) (q' : Fin C) : (rowDims N P C wf).window (ix2 e q') 1 = q'.val := by
  unfold ScatterDims.window
  have h1 : (1 : Fin 2) ∈ (rowDims N P C wf).sKept := by
    refine List.mem_filter.mpr ⟨List.mem_finRange _, ?_⟩
    simp
  rw [dif_pos h1]
  rfl

/-- WHERE AN UPDATE ENTRY LANDS: update entry `(e, q')` lands on table entry `(n, q)` exactly when the start index of
    row `e`, read signed, is `n`, and the columns agree. -/
theorem resultIdx?_eq_some_iff (idx : IVec ⟨2, ![P, 1]⟩ 32) (e : Fin P) (q' : Fin C) (n : Fin N) (q : Fin C) :
    (rowDims N P C wf).resultIdx? (ix2 e q') idx = some (ix2 n q) ↔ (idx (ix2 e 0)).toInt = (n : ℤ) ∧ q' = q := by
  have hs0 := start_row wf idx e q'
  have hs1 := start_col wf idx e q'
  have hw0 := window_row wf e q'
  have hw1 := window_col wf e q'
  unfold ScatterDims.resultIdx?
  constructor
  · intro h
    split at h
    · rename_i hall
      have hfun := Option.some.inj h
      have e0 := congrArg Fin.val (congrFun hfun 0)
      have e1 := congrArg Fin.val (congrFun hfun 1)
      have a0 := hall 0
      simp only [hs0, hw0] at e0 a0
      simp only [hs1, hw1] at e1
      refine ⟨?_, Fin.ext ?_⟩
      · have : ((ix2 n q : (⟨2, ![N, C]⟩ : Shape).Idx) 0).val = n.val := rfl
        rw [this] at e0
        omega
      · have : ((ix2 n q : (⟨2, ![N, C]⟩ : Shape).Idx) 1).val = q.val := rfl
        rw [this] at e1
        omega
    · cases h
  · rintro ⟨ht, rfl⟩
    have hall : ∀ a : Fin 2, 0 ≤ (rowDims N P C wf).start (ix2 e q') idx a + ((rowDims N P C wf).window (ix2 e q') a : ℤ) ∧
        (rowDims N P C wf).start (ix2 e q') idx a + ((rowDims N P C wf).window (ix2 e q') a : ℤ)
          < ((⟨2, ![N, C]⟩ : Shape).size a : ℤ) := by
      intro a
      match a with
      | ⟨0, _⟩ =>
        show 0 ≤ (rowDims N P C wf).start (ix2 e q') idx 0 + ((rowDims N P C wf).window (ix2 e q') 0 : ℤ) ∧
          (rowDims N P C wf).start (ix2 e q') idx 0 + ((rowDims N P C wf).window (ix2 e q') 0 : ℤ) < (N : ℤ)
        rw [hs0, hw0, ht]
        have := n.isLt
        omega
      | ⟨1, _⟩ =>
        show 0 ≤ (rowDims N P C wf).start (ix2 e q') idx 1 + ((rowDims N P C wf).window (ix2 e q') 1 : ℤ) ∧
          (rowDims N P C wf).start (ix2 e q') idx 1 + ((rowDims N P C wf).window (ix2 e q') 1 : ℤ) < (C : ℤ)
        rw [hs1, hw1]
        have := q'.isLt
        omega
    rw [dif_pos hall]
    congr 1
    funext a
    refine Fin.ext ?_
    match a with
    | ⟨0, _⟩ =>
      show ((rowDims N P C wf).start (ix2 e q') idx 0 + ((rowDims N P C wf).window (ix2 e q') 0 : ℤ)).toNat = n.val
      rw [hs0, hw0, ht]
      omega
    | ⟨1, _⟩ =>
      show ((rowDims N P C wf).start (ix2 e q') idx 1 + ((rowDims N P C wf).window (ix2 e q') 1 : ℤ)).toNat = q'.val
      rw [hs1, hw1]
      omega

/-- THE ROW SCATTER-ADD READ AT `(n, q)`: the table's entry plus column `q` of every update row that lands on row
    `n`. -/
theorem scatterAdd_rows_apply (x : (⟨2, ![N, C]⟩ : Shape).Idx → EReal) (idx : IVec ⟨2, ![P, 1]⟩ 32)
    (upd : (⟨2, ![P, C]⟩ : Shape).Idx → EReal) (n : Fin N) (q : Fin C) :
    Ideal.hostScatterAdd (rowDims N P C wf) x idx upd (ix2 n q)
      = x (ix2 n q) + ∑ e ∈ landing N idx n, upd (ix2 e q) := by
  unfold Ideal.hostScatterAdd
  congr 1
  refine Finset.sum_nbij' (fun j => j 0) (fun e => ix2 e q) ?_ ?_ ?_ ?_ ?_
  · intro j hj
    rw [Finset.mem_filter] at hj
    have h := hj.2
    rw [eq_ix2 j] at h
    exact (mem_landing idx n (j 0)).mpr ((resultIdx?_eq_some_iff wf idx (j 0) (j 1) n q).mp h).1
  · intro e he
    rw [Finset.mem_filter]
    exact ⟨Finset.mem_univ _, (resultIdx?_eq_some_iff wf idx e q n q).mpr ⟨(mem_landing idx n e).mp he, rfl⟩⟩
  · intro j hj
    rw [Finset.mem_filter] at hj
    have h := hj.2
    rw [eq_ix2 j] at h
    have hq := ((resultIdx?_eq_some_iff wf idx (j 0) (j 1) n q).mp h).2
    rw [← hq]
    exact (eq_ix2 j).symm
  · intro e _
    rfl
  · intro j hj
    rw [Finset.mem_filter] at hj
    have h := hj.2
    rw [eq_ix2 j] at h
    have hq := ((resultIdx?_eq_some_iff wf idx (j 0) (j 1) n q).mp h).2
    rw [← hq]
    exact congrArg upd (eq_ix2 j)

/-- The program's form of the same reading: `Host.scatterAdd` at the extended reals is the exact accumulating
    scatter, so it reads at `(n, q)` as the table's entry plus column `q` of every update row landing on row `n`. -/
theorem host_scatterAdd_rows_apply {φ : FTy} (x : FVec Ideal ⟨2, ![N, C]⟩ φ) (idx : IVec ⟨2, ![P, 1]⟩ 32)
    (upd : FVec Ideal ⟨2, ![P, C]⟩ φ) (n : Fin N) (q : Fin C) :
    Host.scatterAdd (F := Ideal) (rowDims N P C wf) x idx upd (ix2 n q)
      = x (ix2 n q) + ∑ e ∈ landing N idx n, upd (ix2 e q) :=
  scatterAdd_rows_apply wf x idx upd n q

end

end Cert.RowScatter

end
-- ==== Proof.Spec.lean ====
/-
  The mathematics both programs compute, index by index, over the extended reals: a two-layer graph
  convolution. Per layer: every node's row is scaled by its out-degree factor, summed over the edges
  into each node from the edge's source row, scaled by the in-degree factor, sent through a linear map
  with a bias, normalised per column by that column's mean and variance over the nodes, scaled and
  shifted, a residual added, and clamped at zero. This file imports no program: it is the common
  specification the kernel's program and the reference are each proved to compute.
-/
import Idealize.ShloMosaic.PureOps.Ideal
import Idealize.ShloMosaic.Lib.ValueIdx
import proofs.«180731_j65910568124789_1_alg».proof.Proof.LibRowGather
import proofs.«180731_j65910568124789_1_alg».proof.Proof.LibRowScatterAdd

noncomputable section

namespace Cert.Gcn

open Idealize.ShloMosaic Idealize.ShloMosaic.ValueIdx

/-- node features, one row of 128 per node -/
abbrev SN : Shape := ⟨2, ![50000, 128]⟩
/-- a weight matrix -/
abbrev SW : Shape := ⟨2, ![128, 128]⟩
/-- one row of 128 -/
abbrev SR : Shape := ⟨2, ![1, 128]⟩
/-- a vector of 128 -/
abbrev SV : Shape := ⟨1, ![128]⟩
/-- one number per node -/
abbrev SD : Shape := ⟨1, ![50000]⟩
/-- one word per edge -/
abbrev SE : Shape := ⟨1, ![800000]⟩
/-- the edge words as a column of start indices -/
abbrev SE1 : Shape := ⟨2, ![800000, 1]⟩

/-- the stabiliser added to a variance (the binary32 word both programs print) -/
abbrev eps : EReal := Ideal.ofBits .f32 0x3727C5AC#32
/-- the number of nodes as both programs print it (50000.0) -/
abbrev nF : EReal := Ideal.ofBits .f32 0x47435000#32
abbrev one : EReal := Ideal.ofBits .f32 0x3F800000#32
abbrev zero : EReal := Ideal.ofBits .f32 0x00000000#32
abbrev negHalf : EReal := Ideal.ofBits .f32 0xBF000000#32

/-- an edge list as a column of start indices -/
def col (v : SE.Idx → BitVec 32) : SE1.Idx → BitVec 32 := fun j => v (ix1 (j 0))

/-- a negative node word is counted from the end: `v < 0 ? v + 50000 : v`, word by word -/
def wrap (v : SE.Idx → BitVec 32) : SE.Idx → BitVec 32 :=
  select (cmpi .slt v (broadcast SE 0#32)) (addi v (broadcast SE 50000#32)) v

/-- how many edge words name node `n` (a word outside the node range names none): ones summed onto zero -/
def deg (v : SE.Idx → BitVec 32) : SD.Idx → EReal :=
  fun i => zero + ∑ _e ∈ Cert.RowScatter.landing 50000 (col v) (i 0), one

/-- `max(1, deg) ^ (-1/2)` -/
def dinv (v : SE.Idx → BitVec 32) : SD.Idx → EReal :=
  fun i => Ideal.pow (max one (deg v i)) negHalf

/-- the source row an edge reads (its word wrapped, read signed, clamped into the node range) -/
def srcRow (src : SE.Idx → BitVec 32) (e : Fin 800000) : Fin 50000 :=
  Cert.RowGather.rowOf 50000 (by norm_num) (col (wrap src)) e

/-- the neighbourhood sum: entry `(n, q)` is the sum, over the edges whose destination word is `n`, of the
    source row's entry `q` times the source's out-degree factor, all times `n`'s in-degree factor -/
def aggr (h : SN.Idx → EReal) (src dst : SE.Idx → BitVec 32) (dout din : SD.Idx → EReal) : SN.Idx → EReal :=
  fun i => (zero + ∑ e ∈ Cert.RowScatter.landing 50000 (col dst) (i 0),
      h (ix2 (srcRow src e) (i 1)) * dout (ix1 (srcRow src e))) * din (ix1 (i 0))

/-- a vector of 128 as one row -/
def row (v : SV.Idx → EReal) : SR.Idx → EReal := fun j => v (ix1 (j 1))

/-- the linear map with its bias: `(m · W)(p, q) + b(0, q)` -/
def lin (m : SN.Idx → EReal) (W : SW.Idx → EReal) (b : SR.Idx → EReal) : SN.Idx → EReal :=
  fun i => (∑ d : Fin 128, m (ix2 (i 0) d) * W (ix2 d (i 1))) + b (ix2 0 (i 1))

/-- the column sums over all nodes, as a row -/
def colSum (h : SN.Idx → EReal) : SR.Idx → EReal := fun j => ∑ p : Fin 50000, h (ix2 p (j 1))

/-- the column sums of squares over all nodes, as a row -/
def colSumSq (h : SN.Idx → EReal) : SR.Idx → EReal :=
  fun j => ∑ p : Fin 50000, h (ix2 p (j 1)) * h (ix2 p (j 1))

/-- the column means, as a row -/
def mean (h : SN.Idx → EReal) : SR.Idx → EReal := fun j => Ideal.div (colSum h j) nF

/-- the column variances in the form `E[h²] − E[h]²`, as a row -/
def var (h : SN.Idx → EReal) : SR.Idx → EReal :=
  fun j => Ideal.div (colSumSq h j) nF - mean h j * mean h j

/-- normalise by a column's mean and variance, scale, shift, add the residual, clamp at zero -/
def bn (h : SN.Idx → EReal) (mu v gamma beta : SR.Idx → EReal) (resid : SN.Idx → EReal) : SN.Idx → EReal :=
  fun i => max (gamma (ix2 0 (i 1)) * (h i - mu (ix2 0 (i 1))) * Ideal.rsqrt (v (ix2 0 (i 1)) + eps)
      + beta (ix2 0 (i 1)) + resid i) zero

/-- one layer after the aggregation -/
def layer (m : SN.Idx → EReal) (W : SW.Idx → EReal) (b gamma beta : SR.Idx → EReal) (resid : SN.Idx → EReal) :
    SN.Idx → EReal :=
  bn (lin m W b) (mean (lin m W b)) (var (lin m W b)) gamma beta resid

/-- THE NETWORK, in the form the kernel's program computes it -/
def net (x : SN.Idx → EReal) (src dst : SE.Idx → BitVec 32)
    (W1 : SW.Idx → EReal) (b1 g1 be1 : SV.Idx → EReal) (W2 : SW.Idx → EReal) (b2 g2 be2 : SV.Idx → EReal) :
    SN.Idx → EReal :=
  layer (aggr (layer (aggr x src dst (dinv src) (dinv dst)) W1 (row b1) (row g1) (row be1) (fun _ => zero))
      src dst (dinv src) (dinv dst)) W2 (row b2) (row g2) (row be2)
    (layer (aggr x src dst (dinv src) (dinv dst)) W1 (row b1) (row g1) (row be1) (fun _ => zero))

/-! ## The reference's arrangement of the same layer -/

/-- the column means, as a vector -/
def meanV (h : SN.Idx → EReal) : SV.Idx → EReal := fun k => Ideal.div (∑ p : Fin 50000, h (ix2 p (k 0))) nF

/-- the column variances in the form `E[(h − E[h])²]`, as a vector -/
def varV (h : SN.Idx → EReal) : SV.Idx → EReal :=
  fun k => Ideal.div (∑ p : Fin 50000, (h (ix2 p (k 0)) - meanV h k) * (h (ix2 p (k 0)) - meanV h k)) nF

/-- normalise, scale and shift (no residual, no clamp), over vectors -/
def bnPre (h : SN.Idx → EReal) (mu v gamma beta : SV.Idx → EReal) : SN.Idx → EReal :=
  fun i => gamma (ix1 (i 1)) * (h i - mu (ix1 (i 1))) * Ideal.rsqrt (v (ix1 (i 1)) + eps) + beta (ix1 (i 1))

/-- the reference's first layer after the aggregation: clamp of the normalised linear map -/
def refLayer1 (m : SN.Idx → EReal) (W : SW.Idx → EReal) (b gamma beta : SV.Idx → EReal) : SN.Idx → EReal :=
  fun i => max (bnPre (lin m W (row b)) (meanV (lin m W (row b))) (varV (lin m W (row b))) gamma beta i) zero

/-- the reference's second layer: the residual added before the clamp -/
def refLayer2 (m : SN.Idx → EReal) (W : SW.Idx → EReal) (b gamma beta : SV.Idx → EReal) (resid : SN.Idx → EReal) :
    SN.Idx → EReal :=
  fun i => max (bnPre (lin m W (row b)) (meanV (lin m W (row b))) (varV (lin m W (row b))) gamma beta i + resid i) zero

/-- THE NETWORK, in the form the reference computes it -/
def refNet (x : SN.Idx → EReal) (src dst : SE.Idx → BitVec 32)
    (W1 : SW.Idx → EReal) (b1 g1 be1 : SV.Idx → EReal) (W2 : SW.Idx → EReal) (b2 g2 be2 : SV.Idx → EReal) :
    SN.Idx → EReal :=
  refLayer2 (aggr (refLayer1 (aggr x src dst (dinv src) (dinv dst)) W1 b1 g1 be1) src dst (dinv src) (dinv dst))
    W2 b2 g2 be2 (refLayer1 (aggr x src dst (dinv src) (dinv dst)) W1 b1 g1 be1)

end Cert.Gcn

end
-- ==== Proof.Consts.lean ====
/-
  The float words both programs spell, as the extended reals they denote: the zero, the one, minus one half
  (the exponent of the degree factor), the number of nodes 50000 (the divisor of every mean), and the variance
  stabiliser, a positive real. Stated once, here, so that no other module opens the bit-level reading.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `-0.5` denotes the real `-1/2`. -/
theorem ofBits_negHalf : Ideal.ofBits .f32 0xBF000000#32 = ((-(1 / 2) : ℝ) : EReal) := by
  simp [Ideal.ofBits, Ideal.ieee, -EReal.coe_mul]; norm_num

/-- `50000.0` denotes the real `50000`. -/
theorem ofBits_50000 : Ideal.ofBits .f32 0x47435000#32 = ((50000 : ℝ) : EReal) := by
  simp [Ideal.ofBits, Ideal.ieee, -EReal.coe_mul]; norm_num

/-- The all-ones exponent with a zero fraction denotes `+∞`. -/
theorem ofBits_inf : Ideal.ofBits .f32 0x7F800000#32 = ⊤ := by
  simp [Ideal.ofBits, Ideal.ieee]

/-- The stabiliser word denotes a positive real. -/
theorem ofBits_eps_pos : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

end Cert.Consts

end
-- ==== Proof.Bridge.lean ====
/-
  The two arrangements of the network are one function on finite inputs.
  The reference normalises by the variance in the form E[(h − E h)²], the kernel in the form E[h²] − (E h)²;
  over the reals these agree because the divisor of every mean is the number of rows (50000), and over the
  extended reals the expansion of the square is only valid when every entry is finite. So the argument carries
  finiteness along: the degree factors are reals (a count, floored at one, to the power −1/2), an aggregation of
  reals is a real (a finite sum of products), a linear map of reals is a real, and a normalised entry is a real
  because a variance of reals is a nonnegative real and the stabiliser is positive, so the reciprocal square
  root is taken of a positive real.
-/
import Mathlib
import proofs.«180731_j65910568124789_1_alg».proof.Proof.Spec
import proofs.«180731_j65910568124789_1_alg».proof.Proof.Consts

noncomputable section

namespace Cert.Gcn

open Idealize.ShloMosaic Idealize.ShloMosaic.ValueIdx

/-! ## Finite entries -/

/-- an extended real that is a real -/
def R (x : EReal) : Prop := ∃ r : ℝ, x = (r : EReal)

/-- every entry of an array is a real -/
def IsRealArr {S : Shape} (a : S.Idx → EReal) : Prop := ∀ i, R (a i)

theorem R.coe (r : ℝ) : R (r : EReal) := ⟨r, rfl⟩

theorem R.add {x y : EReal} (hx : R x) (hy : R y) : R (x + y) := by
  obtain ⟨a, rfl⟩ := hx; obtain ⟨b, rfl⟩ := hy; exact ⟨a + b, (EReal.coe_add a b).symm⟩

theorem R.mul {x y : EReal} (hx : R x) (hy : R y) : R (x * y) := by
  obtain ⟨a, rfl⟩ := hx; obtain ⟨b, rfl⟩ := hy; exact ⟨a * b, (EReal.coe_mul a b).symm⟩

theorem R.sub {x y : EReal} (hx : R x) (hy : R y) : R (x - y) := by
  obtain ⟨a, rfl⟩ := hx; obtain ⟨b, rfl⟩ := hy; exact ⟨a - b, (EReal.coe_sub a b).symm⟩

theorem R.max {x y : EReal} (hx : R x) (hy : R y) : R (max x y) := by
  obtain ⟨a, rfl⟩ := hx; obtain ⟨b, rfl⟩ := hy; exact ⟨Max.max a b, (EReal.coe_strictMono.monotone.map_max (a := a) (b := b)).symm⟩

theorem R.sum {ι : Type*} (s : Finset ι) (f : ι → EReal) (h : ∀ i ∈ s, R (f i)) : R (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- the coercion of a finite real sum is the sum of the coercions -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The words -/

theorem zero_eq : zero = 0 := Cert.Consts.ofBits_zero
theorem R_zero : R zero := ⟨0, zero_eq.trans EReal.coe_zero.symm⟩
theorem R_one : R one := ⟨1, Cert.Consts.ofBits_one⟩
theorem R_negHalf : R negHalf := ⟨-(1 / 2), Cert.Consts.ofBits_negHalf⟩

/-- a quotient by the number of nodes is the product with its reciprocal -/
theorem div_nF (a : ℝ) : Ideal.div (a : EReal) nF = ((a * (1 / 50000) : ℝ) : EReal) := by
  show Ideal.div (a : EReal) (Ideal.ofBits .f32 0x47435000#32) = _
  rw [Cert.Consts.ofBits_50000, Ideal.div_coe (by norm_num : (50000 : ℝ) ≠ 0), EReal.coe_mul]

theorem R.div_nF {x : EReal} (hx : R x) : R (Ideal.div x nF) := by
  obtain ⟨a, rfl⟩ := hx; exact ⟨_, Cert.Gcn.div_nF a⟩

/-- the reciprocal square root of a positive real is a real -/
theorem R_rsqrt_pos {r : ℝ} (hr : 0 < r) : R (Ideal.rsqrt (r : EReal)) := by
  refine ⟨(Real.sqrt r)⁻¹, ?_⟩
  rw [Ideal.rsqrt_coe, if_neg (not_lt.mpr hr.le), if_neg hr.ne']

/-- a real to a real power is a real -/
theorem R.pow {x y : EReal} (hx : R x) (hy : R y) : R (Ideal.pow x y) := by
  obtain ⟨a, rfl⟩ := hx; obtain ⟨b, rfl⟩ := hy; exact ⟨Real.rpow a b, Ideal.pow_coe_coe a b⟩

/-! ## The stages keep entries finite -/

theorem deg_real (v : SE.Idx → BitVec 32) : IsRealArr (deg v) := fun _ =>
  R_zero.add (R.sum _ _ fun _ _ => R_one)

theorem dinv_real (v : SE.Idx → BitVec 32) : IsRealArr (dinv v) := fun i =>
  (R_one.max (deg_real v i)).pow R_negHalf

theorem aggr_real {h : SN.Idx → EReal} (src dst : SE.Idx → BitVec 32) {dout din : SD.Idx → EReal}
    (hh : IsRealArr h) (ho : IsRealArr dout) (hi : IsRealArr din) : IsRealArr (aggr h src dst dout din) := fun i =>
  (R_zero.add (R.sum _ _ fun e _ => (hh _).mul (ho _))).mul (hi _)

theorem row_real {v : SV.Idx → EReal} (hv : IsRealArr v) : IsRealArr (row v) := fun _ => hv _

theorem lin_real {m : SN.Idx → EReal} {W : SW.Idx → EReal} {b : SR.Idx → EReal}
    (hm : IsRealArr m) (hW : IsRealArr W) (hb : IsRealArr b) : IsRealArr (lin m W b) := fun _ =>
  (R.sum _ _ fun d _ => (hm _).mul (hW _)).add (hb _)

/-! ## The variance in its two forms -/

/-- over the reals, with the divisor the number of terms: E[g²] − (E g)² = E[(g − E g)²] -/
theorem real_var (g : Fin 50000 → ℝ) :
    (∑ p, g p * g p) * (1 / 50000) - (∑ p, g p) * (1 / 50000) * ((∑ p, g p) * (1 / 50000))
      = (∑ p, (g p - (∑ p, g p) * (1 / 50000)) * (g p - (∑ p, g p) * (1 / 50000))) * (1 / 50000) := by
  have h : ∀ p, (g p - (∑ p, g p) * (1 / 50000)) * (g p - (∑ p, g p) * (1 / 50000))
      = g p * g p - 2 * ((∑ p, g p) * (1 / 50000)) * g p
        + ((∑ p, g p) * (1 / 50000)) * ((∑ p, g p) * (1 / 50000)) := fun p => by ring
  simp only [h, Finset.sum_add_distrib, Finset.sum_sub_distrib, ← Finset.mul_sum, Finset.sum_const,
    Finset.card_univ, Fintype.card_fin, nsmul_eq_mul]
  push_cast
  ring

/-- a variance of reals, in the centred form, is a nonnegative real -/
theorem real_var_nonneg (g : Fin 50000 → ℝ) :
    0 ≤ (∑ p, (g p - (∑ p, g p) * (1 / 50000)) * (g p - (∑ p, g p) * (1 / 50000))) * (1 / 50000) :=
  mul_nonneg (Finset.sum_nonneg fun p _ => mul_self_nonneg _) (by norm_num)

/-- the column means as reals -/
theorem meanV_coe (f : SN.Idx → ℝ) (k : SV.Idx) :
    meanV (fun i => (f i : EReal)) k = (((∑ p : Fin 50000, f (ix2 p (k 0))) * (1 / 50000) : ℝ) : EReal) := by
  unfold meanV
  rw [← coe_sum, div_nF]

/-- the centred variance as a real -/
theorem varV_coe (f : SN.Idx → ℝ) (k : SV.Idx) :
    varV (fun i => (f i : EReal)) k
      = (((∑ p : Fin 50000, (f (ix2 p (k 0)) - (∑ p : Fin 50000, f (ix2 p (k 0))) * (1 / 50000))
            * (f (ix2 p (k 0)) - (∑ p : Fin 50000, f (ix2 p (k 0))) * (1 / 50000))) * (1 / 50000) : ℝ) : EReal) := by
  unfold varV
  rw [meanV_coe]
  simp only [← EReal.coe_sub, ← EReal.coe_mul, ← coe_sum]
  rw [div_nF]

/-- the kernel's variance is the reference's, on finite entries -/
theorem var_eq_varV {h : SN.Idx → EReal} (hh : IsRealArr h) (j : SR.Idx) : var h j = varV h (ix1 (j 1)) := by
  choose f hf using hh
  obtain rfl : h = fun i => (f i : EReal) := funext hf
  rw [varV_coe]
  unfold var mean colSum colSumSq
  simp only [← EReal.coe_mul, ← coe_sum]
  rw [div_nF, div_nF, ← EReal.coe_mul, ← EReal.coe_sub]
  exact congrArg _ (real_var fun p => f (ix2 p (j 1)))

/-- the kernel's mean is the reference's (no finiteness needed: it is the same quotient) -/
theorem mean_eq_meanV (h : SN.Idx → EReal) (j : SR.Idx) : mean h j = meanV h (ix1 (j 1)) := rfl

/-! ## One layer -/

/-- the kernel's layer is the reference's second-layer form, when the linear map's entries are finite -/
theorem layer_eq_refLayer2 {m : SN.Idx → EReal} {W : SW.Idx → EReal} {b : SV.Idx → EReal}
    (hl : IsRealArr (lin m W (row b))) (gamma beta : SV.Idx → EReal) (resid : SN.Idx → EReal) :
    layer m W (row b) (row gamma) (row beta) resid = refLayer2 m W b gamma beta resid := by
  funext i
  unfold layer bn refLayer2 bnPre
  rw [var_eq_varV hl, mean_eq_meanV]
  rfl

/-- with the zero residual it is the reference's first-layer form -/
theorem layer_eq_refLayer1 {m : SN.Idx → EReal} {W : SW.Idx → EReal} {b : SV.Idx → EReal}
    (hl : IsRealArr (lin m W (row b))) (gamma beta : SV.Idx → EReal) :
    layer m W (row b) (row gamma) (row beta) (fun _ => zero) = refLayer1 m W b gamma beta := by
  rw [layer_eq_refLayer2 hl]
  funext i
  unfold refLayer2 refLayer1
  rw [zero_eq, add_zero]

/-- a normalised, scaled, shifted entry of finite data is finite -/
theorem bnPre_real {h : SN.Idx → EReal} (hh : IsRealArr h) {gamma beta : SV.Idx → EReal}
    (hg : IsRealArr gamma) (hb : IsRealArr beta) : IsRealArr (bnPre h (meanV h) (varV h) gamma beta) := by
  intro i
  choose f hf using hh
  obtain rfl : h = fun i => (f i : EReal) := funext hf
  unfold bnPre
  refine (((hg _).mul ((R.coe _).sub ?_)).mul ?_).add (hb _)
  · rw [meanV_coe]; exact R.coe _
  · rw [varV_coe]
    obtain ⟨e, he, hee⟩ := Cert.Consts.ofBits_eps_pos
    show R (Ideal.rsqrt (_ + Ideal.ofBits .f32 0x3727C5AC#32))
    rw [hee, ← EReal.coe_add]
    exact R_rsqrt_pos (add_pos_of_nonneg_of_pos (real_var_nonneg _) he)

theorem refLayer1_real {m : SN.Idx → EReal} {W : SW.Idx → EReal} {b gamma beta : SV.Idx → EReal}
    (hl : IsRealArr (lin m W (row b))) (hg : IsRealArr gamma) (hb : IsRealArr beta) :
    IsRealArr (refLayer1 m W b gamma beta) := fun i =>
  (bnPre_real hl hg hb i).max R_zero

/-! ## The network -/

/-- THE BRIDGE: on finite float inputs the reference's arrangement and the kernel's are one function. The
    integer inputs are unconstrained: both arrangements read them through the same clamped gather and the same
    dropping scatter. -/
theorem refNet_eq_net (x : SN.Idx → EReal) (src dst : SE.Idx → BitVec 32)
    (W1 : SW.Idx → EReal) (b1 g1 be1 : SV.Idx → EReal) (W2 : SW.Idx → EReal) (b2 g2 be2 : SV.Idx → EReal)
    (hx : IsRealArr x) (hW1 : IsRealArr W1) (hb1 : IsRealArr b1) (hg1 : IsRealArr g1) (hbe1 : IsRealArr be1)
    (hW2 : IsRealArr W2) (hb2 : IsRealArr b2) :
    refNet x src dst W1 b1 g1 be1 W2 b2 g2 be2 = net x src dst W1 b1 g1 be1 W2 b2 g2 be2 := by
  have hm1 : IsRealArr (aggr x src dst (dinv src) (dinv dst)) := aggr_real src dst hx (dinv_real src) (dinv_real dst)
  have hl1 : IsRealArr (lin (aggr x src dst (dinv src) (dinv dst)) W1 (row b1)) := lin_real hm1 hW1 (row_real hb1)
  have hh1 : IsRealArr (refLayer1 (aggr x src dst (dinv src) (dinv dst)) W1 b1 g1 be1) := refLayer1_real hl1 hg1 hbe1
  have hm2 := aggr_real src dst hh1 (dinv_real src) (dinv_real dst)
  have hl2 := lin_real hm2 hW2 (row_real hb2)
  unfold refNet net
  rw [layer_eq_refLayer1 hl1, layer_eq_refLayer2 hl2]

end Cert.Gcn

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.PreReal.lean ====
/-
  The precondition says of every float input that all its entries are below +∞ in absolute value; read back,
  every such entry is a real number. The integer inputs are not constrained.
-/
import proofs.«180731_j65910568124789_1_alg».proof.Defs
import proofs.«180731_j65910568124789_1_alg».proof.Proof.Gen.Pre_finite_inputs
import Idealize.ShloMosaic.Lib.ReduceAll
import proofs.«180731_j65910568124789_1_alg».proof.Proof.Bridge
import proofs.«180731_j65910568124789_1_alg».proof.Proof.Consts
import proofs.«180731_j65910568124789_1_alg».proof.Proof.LibHostRead

noncomputable section

namespace Cert.PreReal

open Idealize.ShloMosaic Idealize.ShloMosaic.ValueIdx

instance : Subsingleton (⟨0, ![]⟩ : Shape).Idx := ⟨fun a b => funext fun d => d.elim0⟩

/-- an extended real whose absolute value is below +∞ is a real -/
theorem real_of_abs_lt_top {x : EReal} (h : max x (-x) < ⊤) : Cert.Gcn.R x := by
  have h1 : x ≠ ⊤ := fun e => by rw [e] at h; simp at h
  have h2 : x ≠ ⊥ := fun e => by rw [e] at h; simp at h
  exact ⟨x.toReal, (EReal.coe_toReal h1 h2).symm⟩

/-- `all(|a| < +∞)` holding says every entry of `a` is a real -/
theorem all_real {s : Shape} {axes : List (Fin s.rank)} (x : FVec Ideal s .f32)
    (w : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] w (constant (F := Ideal) ⟨0, ![]⟩ .f32 0x7F800000#32)))
        (constantI ⟨0, ![]⟩ 1 1#1) hr hu ix0 = 1#1) : Cert.Gcn.IsRealArr x := by
  intro i
  have hi := Host.reduce_andi_all _ _ hr hu ix0 e i
  rw [cmpf_apply, Cert.HostRead.scalar_bcast_apply] at hi
  change Ideal.cmp .olt (max (x i) (-(x i))) (Ideal.ofBits .f32 0x7F800000#32) = 1#1 at hi
  rw [Cert.Consts.ofBits_inf] at hi
  have hlt : max (x i) (-(x i)) < ⊤ := by
    by_contra hn
    simp [Ideal.cmp, hn] at hi
  exact real_of_abs_lt_top hlt

/-- THE PRECONDITION READ BACK: on every device each of the nine float inputs has real entries. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.IsRealArr (S := Cert.Gcn.SN) (m ((c.tc : Thread Cert.KernelIdeal.nD Cert.KernelIdeal.τ).loc Cert.KernelIdeal.main_arg0))
    ∧ Cert.Gcn.IsRealArr (S := Cert.Gcn.SW) (m ((c.tc : Thread Cert.KernelIdeal.nD Cert.KernelIdeal.τ).loc Cert.KernelIdeal.main_arg3))
    ∧ Cert.Gcn.IsRealArr (S := Cert.Gcn.SV) (m ((c.tc : Thread Cert.KernelIdeal.nD Cert.KernelIdeal.τ).loc Cert.KernelIdeal.main_arg4))
    ∧ Cert.Gcn.IsRealArr (S := Cert.Gcn.SV) (m ((c.tc : Thread Cert.KernelIdeal.nD Cert.KernelIdeal.τ).loc Cert.KernelIdeal.main_arg5))
    ∧ Cert.Gcn.IsRealArr (S := Cert.Gcn.SV) (m ((c.tc : Thread Cert.KernelIdeal.nD Cert.KernelIdeal.τ).loc Cert.KernelIdeal.main_arg6))
    ∧ Cert.Gcn.IsRealArr (S := Cert.Gcn.SW) (m ((c.tc : Thread Cert.KernelIdeal.nD Cert.KernelIdeal.τ).loc Cert.KernelIdeal.main_arg7))
    ∧ Cert.Gcn.IsRealArr (S := Cert.Gcn.SV) (m ((c.tc : Thread Cert.KernelIdeal.nD Cert.KernelIdeal.τ).loc Cert.KernelIdeal.main_arg8))
    ∧ Cert.Gcn.IsRealArr (S := Cert.Gcn.SV) (m ((c.tc : Thread Cert.KernelIdeal.nD Cert.KernelIdeal.τ).loc Cert.KernelIdeal.main_arg9))
    ∧ Cert.Gcn.IsRealArr (S := Cert.Gcn.SV) (m ((c.tc : Thread Cert.KernelIdeal.nD Cert.KernelIdeal.τ).loc Cert.KernelIdeal.main_arg10)) := by
  have h0 := congrFun (h c) ix0
  dsimp only [Cert.Pre_finite_inputs.fn, Cert.Pre_finite_inputs.fn_part1, Cert.Pre_finite_inputs.fn_part2] at h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨r0, r3⟩ := IntOp.andi_eq_one.1 h0
  exact ⟨all_real _ _ _ _ r0, all_real _ _ _ _ r3, all_real _ _ _ _ r4, all_real _ _ _ _ r5, all_real _ _ _ _ r6,
    all_real _ _ _ _ r7, all_real _ _ _ _ r8, all_real _ _ _ _ r9, all_real _ _ _ _ r10⟩

end Cert.PreReal

end
-- ==== Proof.KRun.lean ====
/-
  The kernel's idealized program, run from any memory with zero counters: every weakly fair execution on the
  TensorCores terminates without a fault, the result array ends at the last boundary's contents of the fold through
  the program's segments, and every argument array ends as launched.
-/
import proofs.«180731_j65910568124789_1_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with the result kept: the result array at the last boundary's contents, the arguments as launched. -/
theorem run_value : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v65) = Gen.W12 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v65 (by decide))),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KRun

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.KChainHost.lean ====
/-
  The host stretches of the kernel's program, read buffer by buffer over an arbitrary valuation of the buffers:
  what each stretch leaves in the buffers later segments read, as the composition of its operations applied to the
  contents it found. The five stretches before the first region leave the degree counts of both edge lists, their clamp at one
  (a function over typed references, whose transports are the identity), the power, the column and row
  reshapes, and the first neighbourhood sum; the
  stretch after each linear region leaves the column means, the variances and the zero residual; the stretch
  between the layers leaves the second neighbourhood sum. A buffer a stretch does not write keeps its contents.
-/
import proofs.«180731_j65910568124789_1_alg».proof.Proof.Gen.KernelIdeal.Launch
import Idealize.ShloMosaic.Lib.StableHlo.Run
import Idealize.ShloMosaic.PureOps.Ideal
import proofs.«180731_j65910568124789_1_alg».proof.Proof.LibTypedRead
import proofs.«180731_j65910568124789_1_alg».proof.Proof.LibTypedHEq

noncomputable section

namespace Cert.KernelIdeal.KChain

open Idealize.ShloMosaic Idealize.ShloMosaic.StableHlo Cert.KernelIdeal Cert.KernelIdeal.Gen

/-! ## The operations' compositions, named -/

/-- ones scattered onto zeros at the edge words (as a column of start indices) -/
def degOps (v : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 v)
    (broadcastInDim S800000 ![] bcast_S_S800000 (constant (F := Ideal) S_ .f32 0x3F800000#32))

/-- the count clamped below at one, to the power minus one half -/
def dinvOps (v : IVec S800000 32) : FVec Ideal S50000 .f32 :=
  Host.powf (maximumf (broadcastInDim S50000 ![] bcast_S_S50000 (id (constant (F := Ideal) S_ .f32 0x3F800000#32))) (degOps v))
    (broadcastInDim S50000 ![] bcast_S_S50000 (constant (F := Ideal) S_ .f32 0xBF000000#32))

/-- one number per node as a column -/
def colOps (d : FVec Ideal S50000 .f32) : FVec Ideal S50000x1 .f32 :=
  broadcastInDim S50000x1 ![0] bcast_S50000_S50000x1_0 d

/-- compare with the zero word, add the node count, select -/
def wrapOps (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- scale the rows by the source column, gather along the edges, scatter-add onto zeros at the destinations, scale
    by the destination column -/
def aggrOps (h : FVec Ideal S50000x128 .f32) (src dst : IVec S800000 32) (cout cin : FVec Ideal S50000x1 .f32) :
    FVec Ideal S50000x128 .f32 :=
  mulf (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128
        (mulf h (broadcastInDim S50000x128 ![0, 1] bcast_S50000x1_S50000x128_0_1 cout))
        (broadcastInDim S800000x1 ![0] bcast_S800000_S800000x1_0 (wrapOps src))))
    (broadcastInDim S50000x128 ![0, 1] bcast_S50000x1_S50000x128_0_1 cin)

/-- a vector of 128 reshaped to one row -/
def rowOps (v : FVec Ideal S128 .f32) : FVec Ideal S1x128 .f32 := shapeCast S1x128 v shapeCasts_S128_S1x128

/-- a row divided, entry by entry, by the node count -/
def meanOps (s : FVec Ideal S1x128 .f32) : FVec Ideal S1x128 .f32 :=
  Host.divf s (broadcastInDim S1x128 ![] bcast_S_S1x128 (constant (F := Ideal) S_ .f32 0x47435000#32))

/-- the mean of squares minus the squared mean -/
def varOps (s q : FVec Ideal S1x128 .f32) : FVec Ideal S1x128 .f32 :=
  subf (meanOps q) (mulf (meanOps s) (meanOps s))

/-- the zero residual -/
def zeroOps : FVec Ideal S50000x128 .f32 :=
  broadcastInDim S50000x128 ![] bcast_S_S50000x128 (constant (F := Ideal) S_ .f32 0x00000000#32)

/-- the clamp at one of a count: the maximum with the one broadcast -/
def clampOps (o : FVec Ideal S_ .f32) (d : FVec Ideal S50000 .f32) : FVec Ideal S50000 .f32 :=
  maximumf (broadcastInDim S50000 ![] bcast_S_S50000 (id o)) d

/-- the power minus one half, entry by entry -/
def powOps (d : FVec Ideal S50000 .f32) : FVec Ideal S50000 .f32 :=
  Host.powf d (broadcastInDim S50000 ![] bcast_S_S50000 (constant (F := Ideal) S_ .f32 0xBF000000#32))

/-- the float one as a scalar array -/
def oneOps : FVec Ideal S_ .f32 := constant (F := Ideal) S_ .f32 0x3F800000#32

theorem dinvOps_def (v : IVec S800000 32) : dinvOps v = powOps (clampOps oneOps (degOps v)) := rfl

variable (V : Valuation τ sig (Elt Ideal))

/-! ## What each stretch leaves in the buffers read later -/

theorem s0_v3 : (StableHlo.after (hostOps0 (F := Ideal)) V (Proc.devRef .tc main_v3) : FVec Ideal S50000 .f32)
    = degOps (V (Proc.devRef .tc main_arg1)) := by
  after_results; rfl

theorem s0_v6 : (StableHlo.after (hostOps0 (F := Ideal)) V (Proc.devRef .tc main_v6) : FVec Ideal S50000 .f32)
    = degOps (V (Proc.devRef .tc main_arg2)) := by
  after_results; rfl

theorem s0_cst2 : (StableHlo.after (hostOps0 (F := Ideal)) V (Proc.devRef .tc main_cst_2) : FVec Ideal S_ .f32)
    = oneOps := by
  after_results; rfl

theorem s1_v7 : (StableHlo.after (hostOps0_1 (F := Ideal)) V (Proc.devRef .tc main_v7) : FVec Ideal S50000 .f32)
    = clampOps (V (Proc.devRef .tc main_cst_2)) (V (Proc.devRef .tc main_v3)) := by
  after_results
  simp only [Cert.TypedRead.ofBuf_toBuf]
  exact eq_of_heq ((Cert.TypedRead.toBuf_heq _ _).trans (heq_of_eq (congrArg₂ maximumf
    (congrArg _ (congrArg id (eq_of_heq (Cert.TypedRead.ofBuf_heq _ _)))) (eq_of_heq (Cert.TypedRead.ofBuf_heq _ _)))))

theorem s2_v9 : (StableHlo.after (hostOps0_2 (F := Ideal)) V (Proc.devRef .tc main_v9) : FVec Ideal S50000 .f32)
    = powOps (V (Proc.devRef .tc main_v7)) := by
  after_results; rfl

theorem s2_cst4 : (StableHlo.after (hostOps0_2 (F := Ideal)) V (Proc.devRef .tc main_cst_4) : FVec Ideal S_ .f32)
    = oneOps := by
  after_results; rfl

theorem s3_v10 : (StableHlo.after (hostOps0_3 (F := Ideal)) V (Proc.devRef .tc main_v10) : FVec Ideal S50000 .f32)
    = clampOps (V (Proc.devRef .tc main_cst_4)) (V (Proc.devRef .tc main_v6)) := by
  after_results
  simp only [Cert.TypedRead.ofBuf_toBuf]
  exact eq_of_heq ((Cert.TypedRead.toBuf_heq _ _).trans (heq_of_eq (congrArg₂ maximumf
    (congrArg _ (congrArg id (eq_of_heq (Cert.TypedRead.ofBuf_heq _ _)))) (eq_of_heq (Cert.TypedRead.ofBuf_heq _ _)))))

theorem s4_v13 : (StableHlo.after (hostOps0_4 (F := Ideal)) V (Proc.devRef .tc main_v13) : FVec Ideal S50000x1 .f32)
    = colOps (V (Proc.devRef .tc main_v9)) := by
  after_results; rfl

theorem s4_v14 : (StableHlo.after (hostOps0_4 (F := Ideal)) V (Proc.devRef .tc main_v14) : FVec Ideal S50000x1 .f32)
    = colOps (powOps (V (Proc.devRef .tc main_v10))) := by
  after_results; rfl

theorem s4_v34 : (StableHlo.after (hostOps0_4 (F := Ideal)) V (Proc.devRef .tc main_v34) : FVec Ideal S50000x128 .f32)
    = aggrOps (V (Proc.devRef .tc main_arg0)) (V (Proc.devRef .tc main_arg1)) (V (Proc.devRef .tc main_arg2)) (colOps (V (Proc.devRef .tc main_v9))) (colOps (powOps (V (Proc.devRef .tc main_v10)))) := by
  after_results_simp; rfl

theorem s4_v15 : (StableHlo.after (hostOps0_4 (F := Ideal)) V (Proc.devRef .tc main_v15) : FVec Ideal S1x128 .f32)
    = rowOps (V (Proc.devRef .tc main_arg4)) := by
  after_results; rfl
theorem s4_v16 : (StableHlo.after (hostOps0_4 (F := Ideal)) V (Proc.devRef .tc main_v16) : FVec Ideal S1x128 .f32)
    = rowOps (V (Proc.devRef .tc main_arg5)) := by
  after_results; rfl
theorem s4_v17 : (StableHlo.after (hostOps0_4 (F := Ideal)) V (Proc.devRef .tc main_v17) : FVec Ideal S1x128 .f32)
    = rowOps (V (Proc.devRef .tc main_arg6)) := by
  after_results; rfl
theorem s4_v18 : (StableHlo.after (hostOps0_4 (F := Ideal)) V (Proc.devRef .tc main_v18) : FVec Ideal S1x128 .f32)
    = rowOps (V (Proc.devRef .tc main_arg8)) := by
  after_results; rfl
theorem s4_v19 : (StableHlo.after (hostOps0_4 (F := Ideal)) V (Proc.devRef .tc main_v19) : FVec Ideal S1x128 .f32)
    = rowOps (V (Proc.devRef .tc main_arg9)) := by
  after_results; rfl
theorem s4_v20 : (StableHlo.after (hostOps0_4 (F := Ideal)) V (Proc.devRef .tc main_v20) : FVec Ideal S1x128 .f32)
    = rowOps (V (Proc.devRef .tc main_arg10)) := by
  after_results; rfl

theorem h1_v37 : (StableHlo.after (hostOps1 (F := Ideal)) V (Proc.devRef .tc main_v37) : FVec Ideal S1x128 .f32)
    = meanOps (V (Proc.devRef .tc main_v35_1)) := by
  after_results; rfl

theorem h1_v41 : (StableHlo.after (hostOps1 (F := Ideal)) V (Proc.devRef .tc main_v41) : FVec Ideal S1x128 .f32)
    = varOps (V (Proc.devRef .tc main_v35_1)) (V (Proc.devRef .tc main_v35_2)) := by
  after_results; rfl

theorem h1_v42 : (StableHlo.after (hostOps1 (F := Ideal)) V (Proc.devRef .tc main_v42) : FVec Ideal S50000x128 .f32)
    = zeroOps := by
  after_results; rfl

theorem h2_v57 : (StableHlo.after (hostOps2 (F := Ideal)) V (Proc.devRef .tc main_v57) : FVec Ideal S50000x128 .f32)
    = aggrOps (V (Proc.devRef .tc main_v43)) (V (Proc.devRef .tc main_arg1)) (V (Proc.devRef .tc main_arg2)) (V (Proc.devRef .tc main_v13)) (V (Proc.devRef .tc main_v14)) := by
  after_results_simp; rfl

theorem h3_v60 : (StableHlo.after (hostOps3 (F := Ideal)) V (Proc.devRef .tc main_v60) : FVec Ideal S1x128 .f32)
    = meanOps (V (Proc.devRef .tc main_v58_1)) := by
  after_results; rfl

theorem h3_v64 : (StableHlo.after (hostOps3 (F := Ideal)) V (Proc.devRef .tc main_v64) : FVec Ideal S1x128 .f32)
    = varOps (V (Proc.devRef .tc main_v58_1)) (V (Proc.devRef .tc main_v58_2)) := by
  after_results; rfl

/-! ## The buffers each stretch writes; any other keeps its contents -/

/-- a written reference that is in the list is among the list's references -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

macro "writes_sub" : tactic =>
  `(tactic| (simp only [List.Forall, StableHlo.nullary_writes, StableHlo.unary_writes, StableHlo.binary_writes,
               StableHlo.ternary_writes, StableHlo.reshape_writes]
             repeat' apply And.intro
             all_goals exact sub_of_mem (by decide)))

/-- the references `hostOps0` writes -/
abbrev wr_hostOps0 : List (Ref sig .tc) := [main_cst, main_v0, main_cst_0, main_v1, main_v2, main_v3, main_cst_1, main_v4, main_v5, main_v6, main_cst_2]
theorem hostOps0_writes : (hostOps0 (F := Ideal)).Forall fun op => op.writes ⊆ (wr_hostOps0.map (Proc.devRef (τ := τ) .tc)).toFinset := by
  unfold hostOps0; writes_sub
/-- a reference `hostOps0` does not write keeps its contents -/
theorem keep_hostOps0 (r : Ref sig .tc) (hr : r ∉ wr_hostOps0) :
    StableHlo.after (hostOps0 (F := Ideal)) V (Proc.devRef .tc r) = V (Proc.devRef .tc r) :=
  StableHlo.after_of_writes_sub _ V hostOps0_writes hr

/-- the references `hostOps0_1` writes -/
abbrev wr_hostOps0_1 : List (Ref sig .tc) := [main_call0_v0, main_call0_v1, main_v7]
theorem hostOps0_1_writes : (hostOps0_1 (F := Ideal)).Forall fun op => op.writes ⊆ (wr_hostOps0_1.map (Proc.devRef (τ := τ) .tc)).toFinset := by
  unfold hostOps0_1; writes_sub
/-- a reference `hostOps0_1` does not write keeps its contents -/
theorem keep_hostOps0_1 (r : Ref sig .tc) (hr : r ∉ wr_hostOps0_1) :
    StableHlo.after (hostOps0_1 (F := Ideal)) V (Proc.devRef .tc r) = V (Proc.devRef .tc r) :=
  StableHlo.after_of_writes_sub _ V hostOps0_1_writes hr

/-- the references `hostOps0_2` writes -/
abbrev wr_hostOps0_2 : List (Ref sig .tc) := [main_cst_3, main_v8, main_v9, main_cst_4]
theorem hostOps0_2_writes : (hostOps0_2 (F := Ideal)).Forall fun op => op.writes ⊆ (wr_hostOps0_2.map (Proc.devRef (τ := τ) .tc)).toFinset := by
  unfold hostOps0_2; writes_sub
/-- a reference `hostOps0_2` does not write keeps its contents -/
theorem keep_hostOps0_2 (r : Ref sig .tc) (hr : r ∉ wr_hostOps0_2) :
    StableHlo.after (hostOps0_2 (F := Ideal)) V (Proc.devRef .tc r) = V (Proc.devRef .tc r) :=
  StableHlo.after_of_writes_sub _ V hostOps0_2_writes hr

/-- the references `hostOps0_3` writes -/
abbrev wr_hostOps0_3 : List (Ref sig .tc) := [main_call1_v0, main_call1_v1, main_v10]
theorem hostOps0_3_writes : (hostOps0_3 (F := Ideal)).Forall fun op => op.writes ⊆ (wr_hostOps0_3.map (Proc.devRef (τ := τ) .tc)).toFinset := by
  unfold hostOps0_3; writes_sub
/-- a reference `hostOps0_3` does not write keeps its contents -/
theorem keep_hostOps0_3 (r : Ref sig .tc) (hr : r ∉ wr_hostOps0_3) :
    StableHlo.after (hostOps0_3 (F := Ideal)) V (Proc.devRef .tc r) = V (Proc.devRef .tc r) :=
  StableHlo.after_of_writes_sub _ V hostOps0_3_writes hr

/-- the references `hostOps0_4` writes -/
abbrev wr_hostOps0_4 : List (Ref sig .tc) := [main_cst_5, main_v11, main_v12, main_v13, main_v14, main_v15, main_v16, main_v17, main_v18, main_v19, main_v20, main_v21, main_v22, main_c, main_v23, main_v24, main_c_6, main_v25, main_v26, main_v27, main_v28, main_v29, main_cst_7, main_v30, main_v31, main_v32, main_v33, main_v34]
theorem hostOps0_4_writes : (hostOps0_4 (F := Ideal)).Forall fun op => op.writes ⊆ (wr_hostOps0_4.map (Proc.devRef (τ := τ) .tc)).toFinset := by
  unfold hostOps0_4; writes_sub
/-- a reference `hostOps0_4` does not write keeps its contents -/
theorem keep_hostOps0_4 (r : Ref sig .tc) (hr : r ∉ wr_hostOps0_4) :
    StableHlo.after (hostOps0_4 (F := Ideal)) V (Proc.devRef .tc r) = V (Proc.devRef .tc r) :=
  StableHlo.after_of_writes_sub _ V hostOps0_4_writes hr

/-- the references `hostOps1` writes -/
abbrev wr_hostOps1 : List (Ref sig .tc) := [main_cst_8, main_v36, main_v37, main_cst_9, main_v38, main_v39, main_v40, main_v41, main_cst_10, main_v42]
theorem hostOps1_writes : (hostOps1 (F := Ideal)).Forall fun op => op.writes ⊆ (wr_hostOps1.map (Proc.devRef (τ := τ) .tc)).toFinset := by
  unfold hostOps1; writes_sub
/-- a reference `hostOps1` does not write keeps its contents -/
theorem keep_hostOps1 (r : Ref sig .tc) (hr : r ∉ wr_hostOps1) :
    StableHlo.after (hostOps1 (F := Ideal)) V (Proc.devRef .tc r) = V (Proc.devRef .tc r) :=
  StableHlo.after_of_writes_sub _ V hostOps1_writes hr

/-- the references `hostOps2` writes -/
abbrev wr_hostOps2 : List (Ref sig .tc) := [main_v44, main_v45, main_c_11, main_v46, main_v47, main_c_12, main_v48, main_v49, main_v50, main_v51, main_v52, main_cst_13, main_v53, main_v54, main_v55, main_v56, main_v57]
theorem hostOps2_writes : (hostOps2 (F := Ideal)).Forall fun op => op.writes ⊆ (wr_hostOps2.map (Proc.devRef (τ := τ) .tc)).toFinset := by
  unfold hostOps2; writes_sub
/-- a reference `hostOps2` does not write keeps its contents -/
theorem keep_hostOps2 (r : Ref sig .tc) (hr : r ∉ wr_hostOps2) :
    StableHlo.after (hostOps2 (F := Ideal)) V (Proc.devRef .tc r) = V (Proc.devRef .tc r) :=
  StableHlo.after_of_writes_sub _ V hostOps2_writes hr

/-- the references `hostOps3` writes -/
abbrev wr_hostOps3 : List (Ref sig .tc) := [main_cst_14, main_v59, main_v60, main_cst_15, main_v61, main_v62, main_v63, main_v64]
theorem hostOps3_writes : (hostOps3 (F := Ideal)).Forall fun op => op.writes ⊆ (wr_hostOps3.map (Proc.devRef (τ := τ) .tc)).toFinset := by
  unfold hostOps3; writes_sub
/-- a reference `hostOps3` does not write keeps its contents -/
theorem keep_hostOps3 (r : Ref sig .tc) (hr : r ∉ wr_hostOps3) :
    StableHlo.after (hostOps3 (F := Ideal)) V (Proc.devRef .tc r) = V (Proc.devRef .tc r) :=
  StableHlo.after_of_writes_sub _ V hostOps3_writes hr

end Cert.KernelIdeal.KChain

end
-- ==== Proof.LibFlatGatherScatter.lean ====
/-
  A FLAT GATHER and a FLAT SCATTER-ADD read at an index.

  `x[idx]` of a one-axis table `x : [N]` at a column of integers `idx : [P, 1]` (one start index per result entry)
  is StableHLO's gather with no offset axis, collapsed axis 0, start-index map [0], the index vector on axis 1 and
  slices of one entry. Result entry `p` is the table's entry `ρ p`, where `ρ p` is the start index `idx[p, 0]` read
  as a signed integer and clamped into `[0, N − 1]` — the same `ρ` (`Cert.RowGather.rowOf`) that a row gather of an
  `[N, C]` table by the same indices uses.

  Adding entries `upd : [P]` into a table `x : [N]` at the same kind of column is StableHLO's scatter with an `add`
  body, no update window axis, inserted window axis 0, scatter-dims-to-operand-dims map [0] and the index vector on
  axis 1. Update entry `e` lands on table entry `t`, the start index `idx[e, 0]` read SIGNED and NOT clamped, and is
  dropped when `t` is not in `[0, N)`. The result at `n` is the table's entry plus the sum of `upd[e]` over the
  entries `e` landing on `n` — the same set (`Cert.RowScatter.landing`) on which a row scatter-add of `[P, C]`
  updates by the same indices sums.
-/
import Idealize.ShloMosaic.PureOps.Ideal
import Idealize.ShloMosaic.Lib.ValueIdx
import proofs.«180731_j65910568124789_1_alg».proof.Proof.LibRowGather
import proofs.«180731_j65910568124789_1_alg».proof.Proof.LibRowScatterAdd

noncomputable section

open scoped BigOperators

namespace Cert.FlatGatherScatter

open Idealize.ShloMosaic Idealize.ShloMosaic.ValueIdx

/-- The dimension numbers of a gather from a one-axis table `[N]` by `[P, 1]` start indices into `[P]`; their
    conditions `wf` are decided on a program's literal shapes. -/
abbrev flatGatherDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- THE FLAT GATHER READ AT `p`: the table at entry `rowOf … p`. -/
theorem gather_flat_apply {α : Type} {N P : Nat} (hN : 0 < N)
    (wf : GatherDims.WF ⟨1, ![N]⟩ ⟨2, ![P, 1]⟩ ⟨1, ![P]⟩ [] [0] [] [0] [] 1 ![1])
    (x : (⟨1, ![N]⟩ : Shape).Idx → α) (idx : IVec ⟨2, ![P, 1]⟩ 32) (p : Fin P) :
    Host.gather (flatGatherDims N P wf) x idx (ix1 p) = x (ix1 (Cert.RowGather.rowOf N hN idx p)) := by
  unfold Host.gather
  congr 1
  funext a
  obtain rfl : a = 0 := Subsingleton.elim _ _
  refine Fin.ext ?_
  show (flatGatherDims N P wf).start (ix1 p) idx 0 + (flatGatherDims N P wf).batchCoord (ix1 p) 0
    + (flatGatherDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N P wf).startIndexMap from List.mem_singleton.mpr rfl)]
  have hsi : (flatGatherDims N P wf).siIdx (ix1 p) ⟨List.idxOf (0 : Fin 1) (flatGatherDims N P wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- The dimension numbers of a scatter of `[P]` updates into a one-axis table `[N]` by `[P, 1]` start indices; their
    conditions `wf` are decided on a program's literal shapes. -/
abbrev flatScatterDims (N P : Nat)
    (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

section
variable {N P : Nat} (wf : ScatterDims.WF ⟨1, ![N]⟩ ⟨2, ![P, 1]⟩ ⟨1, ![P]⟩ [] [0] [0] 1)

/-- The window of update entry `e` starts at the start index `idx[e, 0]`, read signed. -/
theorem start_flat (idx : IVec ⟨2, ![P, 1]⟩ 32) (e : Fin P) :
    (flatScatterDims N P wf).start (ix1 e) idx 0 = (idx (ix2 e 0)).toInt := by
  unfold ScatterDims.start
  rw [dif_pos (show (0 : Fin 1) ∈ (flatScatterDims N P wf).scatterDimsToOperandDims from List.mem_singleton.mpr rfl)]
  have hsi : (flatScatterDims N P wf).siIdx (ix1 e)
      ⟨List.idxOf (0 : Fin 1) (flatScatterDims N P wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The only axis is an inserted window axis: the window coordinate on it is zero. -/
theorem window_flat (e : Fin P) : (flatScatterDims N P wf).window (ix1 e) 0 = 0 := by
  unfold ScatterDims.window
  have h0 : ¬ (0 : Fin 1) ∈ (flatScatterDims N P wf).sKept := by
    intro h
    have := (List.mem_filter.mp h).2
    simp at this
  rw [dif_neg h0]

/-- WHERE AN UPDATE ENTRY LANDS: update entry `e` lands on table entry `n` exactly when its start index, read
    signed, is `n`. -/
theorem resultIdx?_eq_some_iff (idx : IVec ⟨2, ![P, 1]⟩ 32) (e : Fin P) (n : Fin N) :
    (flatScatterDims N P wf).resultIdx? (ix1 e) idx = some (ix1 n) ↔ (idx (ix2 e 0)).toInt = (n : ℤ) := by
  have hs0 := start_flat wf idx e
  have hw0 := window_flat wf e
  unfold ScatterDims.resultIdx?
  constructor
  · intro h
    split at h
    · rename_i hall
      have hfun := Option.some.inj h
      have e0 := congrArg Fin.val (congrFun hfun 0)
      have a0 := hall 0
      simp only [hs0, hw0] at e0 a0
      have : ((ix1 n : (⟨1, ![N]⟩ : Shape).Idx) 0).val = n.val := rfl
      rw [this] at e0
      omega
    · cases h
  · intro ht
    have hall : ∀ a : Fin 1, 0 ≤ (flatScatterDims N P wf).start (ix1 e) idx a + ((flatScatterDims N P wf).window (ix1 e) a : ℤ) ∧
        (flatScatterDims N P wf).start (ix1 e) idx a + ((flatScatterDims N P wf).window (ix1 e) a : ℤ)
          < ((⟨1, ![N]⟩ : Shape).size a : ℤ) := by
      intro a
      obtain rfl : a = 0 := Subsingleton.elim _ _
      show 0 ≤ (flatScatterDims N P wf).start (ix1 e) idx 0 + ((flatScatterDims N P wf).window (ix1 e) 0 : ℤ) ∧
        (flatScatterDims N P wf).start (ix1 e) idx 0 + ((flatScatterDims N P wf).window (ix1 e) 0 : ℤ) < (N : ℤ)
      rw [hs0, hw0, ht]
      have := n.isLt
      omega
    rw [dif_pos hall]
    congr 1
    funext a
    obtain rfl : a = 0 := Subsingleton.elim _ _
    refine Fin.ext ?_
    show ((flatScatterDims N P wf).start (ix1 e) idx 0 + ((flatScatterDims N P wf).window (ix1 e) 0 : ℤ)).toNat = n.val
    rw [hs0, hw0, ht]
    omega

/-- THE FLAT SCATTER-ADD READ AT `n`: the table's entry plus every update entry that lands on `n`. -/
theorem scatterAdd_flat_apply (x : (⟨1, ![N]⟩ : Shape).Idx → EReal) (idx : IVec ⟨2, ![P, 1]⟩ 32)
    (upd : (⟨1, ![P]⟩ : Shape).Idx → EReal) (n : Fin N) :
    Ideal.hostScatterAdd (flatScatterDims N P wf) x idx upd (ix1 n)
      = x (ix1 n) + ∑ e ∈ Cert.RowScatter.landing N idx n, upd (ix1 e) := by
  unfold Ideal.hostScatterAdd
  congr 1
  refine Finset.sum_nbij' (fun j => j 0) (fun e => ix1 e) ?_ ?_ ?_ ?_ ?_
  · intro j hj
    rw [Finset.mem_filter] at hj
    have h := hj.2
    rw [eq_ix1 j] at h
    exact (Cert.RowScatter.mem_landing idx n (j 0)).mpr ((resultIdx?_eq_some_iff wf idx (j 0) n).mp h)
  · intro e he
    rw [Finset.mem_filter]
    exact ⟨Finset.mem_univ _, (resultIdx?_eq_some_iff wf idx e n).mpr ((Cert.RowScatter.mem_landing idx n e).mp he)⟩
  · intro j _
    exact (eq_ix1 j).symm
  · intro e _
    rfl
  · intro j _
    exact congrArg upd (eq_ix1 j)

/-- The program's form of the same reading: `Host.scatterAdd` at the extended reals is the exact accumulating
    scatter, so it reads at `n` as the table's entry plus every update entry landing on `n`. -/
theorem host_scatterAdd_flat_apply {φ : FTy} (x : FVec Ideal ⟨1, ![N]⟩ φ) (idx : IVec ⟨2, ![P, 1]⟩ 32)
    (upd : FVec Ideal ⟨1, ![P]⟩ φ) (n : Fin N) :
    Host.scatterAdd (F := Ideal) (flatScatterDims N P wf) x idx upd (ix1 n)
      = x (ix1 n) + ∑ e ∈ Cert.RowScatter.landing N idx n, upd (ix1 e) :=
  scatterAdd_flat_apply wf x idx upd n

end

end Cert.FlatGatherScatter

end
-- ==== Proof.HostStages.lean ====
/-
  The degree factors and the neighbourhood sum, operation by operation, read as whole arrays over the
  extended reals. Each composition of broadcast, compare, select, scatter-add, gather, power and product
  below IS the function the common specification names: the edge list as a column, the wrap of a negative
  node word, the degree count, the factor max(1, deg)^(-1/2), and the weighted neighbourhood sum. No
  program is imported: the dimension records and the shape side conditions are variables.
-/
import Idealize.ShloMosaic.PureOps.Ideal
import Idealize.ShloMosaic.Lib.ValueIdx
import Idealize.ShloMosaic.Lib.Pipeline.Value
import proofs.«180731_j65910568124789_1_alg».proof.Proof.Spec
import proofs.«180731_j65910568124789_1_alg».proof.Proof.LibRowGather
import proofs.«180731_j65910568124789_1_alg».proof.Proof.LibRowScatterAdd
import proofs.«180731_j65910568124789_1_alg».proof.Proof.LibFlatGatherScatter

noncomputable section

open scoped BigOperators

namespace Cert.Gcn.Host

open Idealize.ShloMosaic Idealize.ShloMosaic.ValueIdx

/-! ## Broadcasts read at an index -/

/-- A scalar broadcast to any shape reads the scalar. -/
theorem scalar_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A vector of `a` entries broadcast to the column `[a, 1]` reads, at `(p, u)`, its entry `p`. -/
theorem column_apply {α : Type} {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) := by
  unfold broadcastInDim
  refine congrArg x (funext fun ax => Fin.ext ?_)
  match ax with
  | ⟨0, _⟩ =>
    by_cases ha : a = 1
    · subst ha
      have : (j 0).val = 0 := by have := (j 0).isLt; simp at this; omega
      simp [ix1, this]
    · simp [ix1, ha]

/-- A column `[a, 1]` broadcast over `b` columns reads, at `(p, q)`, the column's entry of row `p`. -/
theorem columns_apply {α : Type} {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p 0) := by
  unfold broadcastInDim
  refine congrArg x (funext fun ax => Fin.ext ?_)
  match ax with
  | ⟨0, _⟩ =>
    by_cases ha : a = 1
    · subst ha
      have : p.val = 0 := by omega
      simp [ix2, this]
    · simp [ix2, ha]; rfl
  | ⟨1, _⟩ => simp [ix2]

/-- A host power at an index is the extended reals' power of the entries. -/
theorem powf_apply {s : Shape} {φ : FTy} (x y : FVec Ideal s φ) (i : s.Idx) :
    Host.powf x y i = Ideal.pow (x i) (y i) := rfl

/-! ## The stages -/

/-- The edge list broadcast to a column IS the column of start indices. -/
theorem col_stage (w : SE.BroadcastsInDim SE1 ![0]) (v : IVec SE 32) :
    broadcastInDim SE1 ![0] w v = Cert.Gcn.col v := by
  funext j
  exact column_apply w v j

/-- Compare with the zero word, add the node count, select: the wrap of a negative node word. -/
theorem wrap_stage (w : (⟨0, ![]⟩ : Shape).BroadcastsInDim SE ![]) (v : IVec SE 32) :
    select (cmpi .slt v (broadcastInDim SE ![] w (constantI ⟨0, ![]⟩ 32 0#32)))
      (addi v (broadcastInDim SE ![] w (constantI ⟨0, ![]⟩ 32 50000#32))) v = Cert.Gcn.wrap v := by
  have h0 : broadcastInDim SE ![] w (constantI ⟨0, ![]⟩ 32 0#32) = broadcast SE 0#32 := by
    funext j; exact scalar_apply w _ j
  have h1 : broadcastInDim SE ![] w (constantI ⟨0, ![]⟩ 32 50000#32) = broadcast SE 50000#32 := by
    funext j; exact scalar_apply w _ j
  rw [h0, h1]
  rfl

/-- Ones scattered onto zeros at the edge words: the degree count. -/
theorem deg_stage (wf : ScatterDims.WF SD SE1 SE [] [0] [0] 1) (sd : ScatterDims SD SE1 SE)
    (hsd : sd = Cert.FlatGatherScatter.flatScatterDims 50000 800000 wf)
    (w0 : (⟨0, ![]⟩ : Shape).BroadcastsInDim SD ![]) (w1 : SE.BroadcastsInDim SE1 ![0])
    (w2 : (⟨0, ![]⟩ : Shape).BroadcastsInDim SE ![]) (v : IVec SE 32) :
    Host.scatterAdd (F := Ideal) sd
      (broadcastInDim SD ![] w0 (constant (F := Ideal) ⟨0, ![]⟩ .f32 0x00000000#32))
      (broadcastInDim SE1 ![0] w1 v)
      (broadcastInDim SE ![] w2 (constant (F := Ideal) ⟨0, ![]⟩ .f32 0x3F800000#32)) = Cert.Gcn.deg v := by
  subst hsd
  funext i
  obtain ⟨n, rfl⟩ : ∃ n : Fin 50000, i = ix1 n := ⟨i 0, eq_ix1 i⟩
  rw [col_stage w1 v, Cert.FlatGatherScatter.host_scatterAdd_flat_apply, scalar_apply]
  simp only [scalar_apply]
  rfl

/-- The larger of one and the degree, to the power minus one half: the degree factor. -/
theorem dinv_stage (w0 : (⟨0, ![]⟩ : Shape).BroadcastsInDim SD ![]) (v : IVec SE 32) (d : FVec Ideal SD .f32)
    (hd : d = Cert.Gcn.deg v) :
    Host.powf (maximumf (broadcastInDim SD ![] w0 (id (constant (F := Ideal) ⟨0, ![]⟩ .f32 0x3F800000#32))) d)
      (broadcastInDim SD ![] w0 (constant (F := Ideal) ⟨0, ![]⟩ .f32 0xBF000000#32)) = Cert.Gcn.dinv v := by
  subst hd
  funext i
  rw [powf_apply, maximumf_apply, scalar_apply, scalar_apply]
  rfl

/-- The degree factor straight from the edge words: the scatter of ones, the clamp at one and the power composed. -/
theorem dinv_stage_of_words (wf : ScatterDims.WF SD SE1 SE [] [0] [0] 1) (sd : ScatterDims SD SE1 SE)
    (hsd : sd = Cert.FlatGatherScatter.flatScatterDims 50000 800000 wf)
    (w0 : (⟨0, ![]⟩ : Shape).BroadcastsInDim SD ![]) (w1 : SE.BroadcastsInDim SE1 ![0])
    (w2 : (⟨0, ![]⟩ : Shape).BroadcastsInDim SE ![]) (v : IVec SE 32) :
    Host.powf (maximumf (broadcastInDim SD ![] w0 (id (constant (F := Ideal) ⟨0, ![]⟩ .f32 0x3F800000#32)))
        (Host.scatterAdd (F := Ideal) sd
          (broadcastInDim SD ![] w0 (constant (F := Ideal) ⟨0, ![]⟩ .f32 0x00000000#32))
          (broadcastInDim SE1 ![0] w1 v)
          (broadcastInDim SE ![] w2 (constant (F := Ideal) ⟨0, ![]⟩ .f32 0x3F800000#32))))
      (broadcastInDim SD ![] w0 (constant (F := Ideal) ⟨0, ![]⟩ .f32 0xBF000000#32)) = Cert.Gcn.dinv v :=
  dinv_stage w0 v _ (deg_stage wf sd hsd w0 w1 w2 v)

/-- Scale each row by its out-degree factor, gather the source rows along the edges, add them onto zeros at the
    destination words, scale by the in-degree factor: the neighbourhood sum. -/
theorem aggr_stage (wfg : GatherDims.WF SN SE1 ⟨2, ![800000, 128]⟩ [1] [0] [] [0] [] 1 ![1, 128])
    (gd : GatherDims SN SE1 ⟨2, ![800000, 128]⟩) (hgd : gd = Cert.RowGather.rowDims 50000 800000 128 wfg)
    (wfs : ScatterDims.WF SN SE1 ⟨2, ![800000, 128]⟩ [1] [0] [0] 1)
    (sd : ScatterDims SN SE1 ⟨2, ![800000, 128]⟩) (hsd : sd = Cert.RowScatter.rowDims 50000 800000 128 wfs)
    (wz : (⟨0, ![]⟩ : Shape).BroadcastsInDim SN ![]) (w1 : SE.BroadcastsInDim SE1 ![0])
    (wb : (⟨2, ![50000, 1]⟩ : Shape).BroadcastsInDim SN ![0, 1])
    (wc : SD.BroadcastsInDim ⟨2, ![50000, 1]⟩ ![0])
    (h : FVec Ideal SN .f32) (src dst : IVec SE 32) (dout din : FVec Ideal SD .f32) :
    mulf (Host.scatterAdd (F := Ideal) sd
        (broadcastInDim SN ![] wz (constant (F := Ideal) ⟨0, ![]⟩ .f32 0x00000000#32))
        (broadcastInDim SE1 ![0] w1 dst)
        (Host.gather gd (mulf h (broadcastInDim SN ![0, 1] wb (broadcastInDim ⟨2, ![50000, 1]⟩ ![0] wc dout)))
          (broadcastInDim SE1 ![0] w1 (Cert.Gcn.wrap src))))
      (broadcastInDim SN ![0, 1] wb (broadcastInDim ⟨2, ![50000, 1]⟩ ![0] wc din))
      = Cert.Gcn.aggr h src dst dout din := by
  subst hgd hsd
  funext i
  obtain ⟨n, q, rfl⟩ : ∃ (n : Fin 50000) (q : Fin 128), i = ix2 n q := ⟨i 0, i 1, eq_ix2 i⟩
  rw [col_stage w1 dst, col_stage w1 (wrap src), mulf_apply, Cert.RowScatter.host_scatterAdd_rows_apply,
    columns_apply, column_apply, scalar_apply]
  unfold aggr
  refine congrArg₂ (· * ·) (congrArg₂ (· + ·) rfl (Finset.sum_congr rfl fun e _ => ?_)) rfl
  rw [Cert.RowGather.gather_rows_apply (by norm_num), mulf_apply, columns_apply, column_apply]
  rfl

end Cert.Gcn.Host

end
-- ==== Proof.KChainStage.lean ====
/-
  The named compositions of host operations are the common specification's functions: the clamped degree count to
  the power minus one half is the degree factor, the scaled gather and scatter-add is the neighbourhood sum, the
  reshape of a vector to one row is the row, a row of column sums divided by the node count is the row of means,
  the mean of squares minus the squared mean is the variance, and the broadcast zero is the zero residual.
-/
import proofs.«180731_j65910568124789_1_alg».proof.Proof.KChainHost
import proofs.«180731_j65910568124789_1_alg».proof.Proof.HostStages
import proofs.«180731_j65910568124789_1_alg».proof.Proof.Spec
import Idealize.ShloMosaic.Lib.ValueLayout

noncomputable section

namespace Cert.KernelIdeal.KChain

open Idealize.ShloMosaic Idealize.ShloMosaic.ValueIdx Cert.KernelIdeal Cert.KernelIdeal.Gen

/-- the degree factor of an edge list -/
theorem dinvOps_eq (v : IVec S800000 32) : dinvOps v = Cert.Gcn.dinv v := by
  unfold dinvOps degOps
  exact Cert.Gcn.Host.dinv_stage_of_words _ scatter_S50000_S800000x1_S800000_n_0_0_1 rfl bcast_S_S50000
    bcast_S800000_S800000x1_0 bcast_S_S800000 v

/-- the neighbourhood sum, the two degree factors entering as columns -/
theorem aggrOps_eq (h : FVec Ideal S50000x128 .f32) (src dst : IVec S800000 32) (dout din : FVec Ideal S50000 .f32) :
    aggrOps h src dst (colOps dout) (colOps din) = Cert.Gcn.aggr h src dst dout din := by
  unfold aggrOps colOps wrapOps
  rw [Cert.Gcn.Host.wrap_stage bcast_S_S800000 src]
  exact Cert.Gcn.Host.aggr_stage _ gather_S50000x128_S800000x1_S800000x128_1_0_n_n_0_1_1128 rfl _
    scatter_S50000x128_S800000x1_S800000x128_1_0_0_1 rfl bcast_S_S50000x128 bcast_S800000_S800000x1_0
    bcast_S50000x1_S50000x128_0_1 bcast_S50000_S50000x1_0 h src dst dout din

/-- a vector reshaped to one row reads its own entry -/
theorem rowOps_eq (v : FVec Ideal S128 .f32) : rowOps v = Cert.Gcn.row v := by
  funext j
  obtain ⟨u, i, rfl⟩ : ∃ (u : Fin 1) (i : Fin 128), j = ix2 u i := ⟨j 0, j 1, eq_ix2 j⟩
  exact shapeCast_a_1a_apply v shapeCasts_S128_S1x128 u i

/-- a row divided by the node count, at an index -/
theorem meanOps_apply (s : FVec Ideal S1x128 .f32) (j : S1x128.Idx) : meanOps s j = Ideal.div (s j) Cert.Gcn.nF := by
  show Ideal.div (s j) (broadcastInDim S1x128 ![] bcast_S_S1x128 (constant (F := Ideal) S_ .f32 0x47435000#32) j) = _
  rw [Cert.Gcn.Host.scalar_apply]
  rfl

/-- the column sums divided by the node count are the column means -/
theorem meanOps_colSum (h : Cert.Gcn.SN.Idx → EReal) : meanOps (Cert.Gcn.colSum h) = Cert.Gcn.mean h :=
  funext fun j => meanOps_apply _ j

/-- the mean of squares minus the squared mean is the variance -/
theorem varOps_eq (h : Cert.Gcn.SN.Idx → EReal) :
    varOps (Cert.Gcn.colSum h) (Cert.Gcn.colSumSq h) = Cert.Gcn.var h := by
  funext j
  unfold varOps
  rw [subf_apply, mulf_apply, meanOps_apply, meanOps_apply]
  rfl

/-- the broadcast zero is the zero residual -/
theorem zeroOps_eq : zeroOps = fun _ => Cert.Gcn.zero := by
  funext j
  unfold zeroOps
  rw [Cert.Gcn.Host.scalar_apply]
  rfl

end Cert.KernelIdeal.KChain

end
-- ==== Proof.KChainCore.lean ====
/-
  The kernel's result, read back boundary by boundary to the arguments. The fold through the program's twelve
  segments is walked forwards: after the first five host stretches the buffers hold the two degree factors as
  columns, the six parameter rows and the first neighbourhood sum; the first linear region leaves the linear map and
  its column sums and sums of squares; the next stretch the means, the variances and the zero residual; the first
  normalising region the first layer; the stretch between the layers the second neighbourhood sum, taken of the
  first layer with the same degree factors; then the second linear region, its means and variances, and the second
  normalising region, whose residual is the first layer. What the four regions leave in their output arrays is
  taken here as hypotheses, one per region.
-/
import proofs.«180731_j65910568124789_1_alg».proof.Proof.Gen.KernelIdeal.Frame
import proofs.«180731_j65910568124789_1_alg».proof.Proof.KChainStage

set_option maxRecDepth 16384

noncomputable section

namespace Cert.KernelIdeal.KChain

open Idealize.ShloMosaic Idealize.ShloMosaic.TcCoe Cert.KernelIdeal Cert.KernelIdeal.Gen
open Cert.Gcn (SN SW SR SV SD SE)

/-- the TensorCore's buffer contents when a region is entered -/
abbrev Entry : Type := (c : Dev nD) → (b : Ref sig .tc) → Buf (Elt Ideal) ((c : Thread nD τ).loc b)

/-- What the first linear region leaves in its three output arrays, as functions of its entry contents. -/
abbrev Lin0Facts : Prop :=
  (∀ (V : Entry) (c : Dev nD), (dat0 (F := Ideal) V c).arrAt 3 cfg0.N
    = Cert.Gcn.lin (V c (Pipeline.arrRef spec0 0)) (V c (Pipeline.arrRef spec0 1)) (V c (Pipeline.arrRef spec0 2)))
  ∧ (∀ (V : Entry) (c : Dev nD), (dat0 (F := Ideal) V c).arrAt 4 cfg0.N
    = Cert.Gcn.colSum (Cert.Gcn.lin (V c (Pipeline.arrRef spec0 0)) (V c (Pipeline.arrRef spec0 1)) (V c (Pipeline.arrRef spec0 2))))
  ∧ (∀ (V : Entry) (c : Dev nD), (dat0 (F := Ideal) V c).arrAt 5 cfg0.N
    = Cert.Gcn.colSumSq (Cert.Gcn.lin (V c (Pipeline.arrRef spec0 0)) (V c (Pipeline.arrRef spec0 1)) (V c (Pipeline.arrRef spec0 2))))
/-- What the first normalising region leaves in its output array. -/
abbrev Bn1Facts : Prop :=
  ∀ (V : Entry) (c : Dev nD), (dat1 (F := Ideal) V c).arrAt 6 cfg1.N
    = Cert.Gcn.bn (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
/-- What the second linear region leaves in its three output arrays. -/
abbrev Lin2Facts : Prop :=
  (∀ (V : Entry) (c : Dev nD), (dat2 (F := Ideal) V c).arrAt 3 cfg2.N
    = Cert.Gcn.lin (V c (Pipeline.arrRef spec2 0)) (V c (Pipeline.arrRef spec2 1)) (V c (Pipeline.arrRef spec2 2)))
  ∧ (∀ (V : Entry) (c : Dev nD), (dat2 (F := Ideal) V c).arrAt 4 cfg2.N
    = Cert.Gcn.colSum (Cert.Gcn.lin (V c (Pipeline.arrRef spec2 0)) (V c (Pipeline.arrRef spec2 1)) (V c (Pipeline.arrRef spec2 2))))
  ∧ (∀ (V : Entry) (c : Dev nD), (dat2 (F := Ideal) V c).arrAt 5 cfg2.N
    = Cert.Gcn.colSumSq (Cert.Gcn.lin (V c (Pipeline.arrRef spec2 0)) (V c (Pipeline.arrRef spec2 1)) (V c (Pipeline.arrRef spec2 2))))
/-- What the second normalising region leaves in its output array. -/
abbrev Bn3Facts : Prop :=
  ∀ (V : Entry) (c : Dev nD), (dat3 (F := Ideal) V c).arrAt 6 cfg3.N
    = Cert.Gcn.bn (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))

section Chain

variable (m : (ℓ : Loc nD τ sig) → Buf (Elt Ideal) ℓ) (ρ : Dev nD → PrngReg) (c : Dev nD)

set_option quotPrecheck false in
local notation "aX" => (m ((c.tc : Thread nD τ).loc main_arg0) : SN.Idx → EReal)
set_option quotPrecheck false in
local notation "aS" => (m ((c.tc : Thread nD τ).loc main_arg1) : SE.Idx → BitVec 32)
set_option quotPrecheck false in
local notation "aD" => (m ((c.tc : Thread nD τ).loc main_arg2) : SE.Idx → BitVec 32)
set_option quotPrecheck false in
local notation "aW1" => (m ((c.tc : Thread nD τ).loc main_arg3) : SW.Idx → EReal)
set_option quotPrecheck false in
local notation "aB1" => (m ((c.tc : Thread nD τ).loc main_arg4) : SV.Idx → EReal)
set_option quotPrecheck false in
local notation "aG1" => (m ((c.tc : Thread nD τ).loc main_arg5) : SV.Idx → EReal)
set_option quotPrecheck false in
local notation "aE1" => (m ((c.tc : Thread nD τ).loc main_arg6) : SV.Idx → EReal)
set_option quotPrecheck false in
local notation "aW2" => (m ((c.tc : Thread nD τ).loc main_arg7) : SW.Idx → EReal)
set_option quotPrecheck false in
local notation "aB2" => (m ((c.tc : Thread nD τ).loc main_arg8) : SV.Idx → EReal)
set_option quotPrecheck false in
local notation "aG2" => (m ((c.tc : Thread nD τ).loc main_arg9) : SV.Idx → EReal)
set_option quotPrecheck false in
local notation "aE2" => (m ((c.tc : Thread nD τ).loc main_arg10) : SV.Idx → EReal)

-- the first neighbourhood sum
set_option quotPrecheck false in
local notation "A1" => Cert.Gcn.aggr aX aS aD (Cert.Gcn.dinv aS) (Cert.Gcn.dinv aD)
-- the first linear map
set_option quotPrecheck false in
local notation "L1" => Cert.Gcn.lin A1 aW1 (Cert.Gcn.row aB1)
-- the first layer
set_option quotPrecheck false in
local notation "Y1" => Cert.Gcn.layer A1 aW1 (Cert.Gcn.row aB1) (Cert.Gcn.row aG1) (Cert.Gcn.row aE1) (fun _ => Cert.Gcn.zero)
-- the second neighbourhood sum
set_option quotPrecheck false in
local notation "A2" => Cert.Gcn.aggr Y1 aS aD (Cert.Gcn.dinv aS) (Cert.Gcn.dinv aD)
-- the second linear map
set_option quotPrecheck false in
local notation "L2" => Cert.Gcn.lin A2 aW2 (Cert.Gcn.row aB2)

/-! ## The five stretches before the first region -/

theorem b1_v3 : (W1 m ρ c (Proc.devRef .tc main_v3) : FVec Ideal S50000 .f32) = degOps aS := s0_v3 (W0 m ρ c)
theorem b1_v6 : (W1 m ρ c (Proc.devRef .tc main_v6) : FVec Ideal S50000 .f32) = degOps aD := s0_v6 (W0 m ρ c)
theorem b1_cst2 : (W1 m ρ c (Proc.devRef .tc main_cst_2) : FVec Ideal S_ .f32) = oneOps := s0_cst2 (W0 m ρ c)

theorem b2_v7 : (W2 m ρ c (Proc.devRef .tc main_v7) : FVec Ideal S50000 .f32) = clampOps oneOps (degOps aS) :=
  (s1_v7 (W1 m ρ c)).trans (congrArg₂ clampOps (b1_cst2 m ρ c) (b1_v3 m ρ c))
theorem b2_v6 : (W2 m ρ c (Proc.devRef .tc main_v6) : FVec Ideal S50000 .f32) = degOps aD :=
  (keep_hostOps0_1 (W1 m ρ c) main_v6 (by decide)).trans (b1_v6 m ρ c)

theorem b3_v9 : (W3 m ρ c (Proc.devRef .tc main_v9) : SD.Idx → EReal) = Cert.Gcn.dinv aS :=
  (s2_v9 (W2 m ρ c)).trans ((congrArg powOps (b2_v7 m ρ c)).trans ((dinvOps_def aS).symm.trans (dinvOps_eq aS)))
theorem b3_cst4 : (W3 m ρ c (Proc.devRef .tc main_cst_4) : FVec Ideal S_ .f32) = oneOps := s2_cst4 (W2 m ρ c)
theorem b3_v6 : (W3 m ρ c (Proc.devRef .tc main_v6) : FVec Ideal S50000 .f32) = degOps aD :=
  (keep_hostOps0_2 (W2 m ρ c) main_v6 (by decide)).trans (b2_v6 m ρ c)

theorem b4_v10 : (W4 m ρ c (Proc.devRef .tc main_v10) : FVec Ideal S50000 .f32) = clampOps oneOps (degOps aD) :=
  (s3_v10 (W3 m ρ c)).trans (congrArg₂ clampOps (b3_cst4 m ρ c) (b3_v6 m ρ c))
theorem b4_v9 : (W4 m ρ c (Proc.devRef .tc main_v9) : SD.Idx → EReal) = Cert.Gcn.dinv aS :=
  (keep_hostOps0_3 (W3 m ρ c) main_v9 (by decide)).trans (b3_v9 m ρ c)
/-- the power of the clamped destination count is the destination's degree factor -/
theorem b4_pow10 : powOps (W4 m ρ c (Proc.devRef .tc main_v10)) = Cert.Gcn.dinv aD :=
  (congrArg powOps (b4_v10 m ρ c)).trans ((dinvOps_def aD).symm.trans (dinvOps_eq aD))

/-- a buffer none of the first four stretches writes holds its launch contents when the fifth begins -/
theorem b4_keep (r : Ref sig .tc) (h0 : r ∉ wr_hostOps0) (h1 : r ∉ wr_hostOps0_1) (h2 : r ∉ wr_hostOps0_2)
    (h3 : r ∉ wr_hostOps0_3) : W4 m ρ c (Proc.devRef .tc r) = m ((c.tc : Thread nD τ).loc r) :=
  (keep_hostOps0_3 (W3 m ρ c) r h3).trans ((keep_hostOps0_2 (W2 m ρ c) r h2).trans
    ((keep_hostOps0_1 (W1 m ρ c) r h1).trans ((keep_hostOps0 (W0 m ρ c) r h0).trans rfl)))
/-- … and when the first region begins, if the fifth does not write it either -/
theorem b5_keep (r : Ref sig .tc) (h0 : r ∉ wr_hostOps0) (h1 : r ∉ wr_hostOps0_1) (h2 : r ∉ wr_hostOps0_2)
    (h3 : r ∉ wr_hostOps0_3) (h4 : r ∉ wr_hostOps0_4) : W5 m ρ c (Proc.devRef .tc r) = m ((c.tc : Thread nD τ).loc r) :=
  (keep_hostOps0_4 (W4 m ρ c) r h4).trans (b4_keep m ρ c r h0 h1 h2 h3)

theorem b5_v13 : (W5 m ρ c (Proc.devRef .tc main_v13) : FVec Ideal S50000x1 .f32) = colOps (Cert.Gcn.dinv aS) :=
  (s4_v13 (W4 m ρ c)).trans (congrArg colOps (b4_v9 m ρ c))
theorem b5_v14 : (W5 m ρ c (Proc.devRef .tc main_v14) : FVec Ideal S50000x1 .f32) = colOps (Cert.Gcn.dinv aD) :=
  (s4_v14 (W4 m ρ c)).trans (congrArg colOps (b4_pow10 m ρ c))
theorem b5_v34 : (W5 m ρ c (Proc.devRef .tc main_v34) : SN.Idx → EReal) = A1 := by
  refine (s4_v34 (W4 m ρ c)).trans ?_
  rw [b4_keep m ρ c main_arg0 (by decide) (by decide) (by decide) (by decide),
    b4_keep m ρ c main_arg1 (by decide) (by decide) (by decide) (by decide),
    b4_keep m ρ c main_arg2 (by decide) (by decide) (by decide) (by decide), b4_v9 m ρ c, b4_pow10 m ρ c]
  exact aggrOps_eq _ _ _ _ _
theorem b5_v15 : (W5 m ρ c (Proc.devRef .tc main_v15) : SR.Idx → EReal) = Cert.Gcn.row aB1 :=
  (s4_v15 (W4 m ρ c)).trans ((congrArg rowOps (b4_keep m ρ c main_arg4 (by decide) (by decide) (by decide) (by decide))).trans (rowOps_eq aB1))
theorem b5_v16 : (W5 m ρ c (Proc.devRef .tc main_v16) : SR.Idx → EReal) = Cert.Gcn.row aG1 :=
  (s4_v16 (W4 m ρ c)).trans ((congrArg rowOps (b4_keep m ρ c main_arg5 (by decide) (by decide) (by decide) (by decide))).trans (rowOps_eq aG1))
theorem b5_v17 : (W5 m ρ c (Proc.devRef .tc main_v17) : SR.Idx → EReal) = Cert.Gcn.row aE1 :=
  (s4_v17 (W4 m ρ c)).trans ((congrArg rowOps (b4_keep m ρ c main_arg6 (by decide) (by decide) (by decide) (by decide))).trans (rowOps_eq aE1))
theorem b5_v18 : (W5 m ρ c (Proc.devRef .tc main_v18) : SR.Idx → EReal) = Cert.Gcn.row aB2 :=
  (s4_v18 (W4 m ρ c)).trans ((congrArg rowOps (b4_keep m ρ c main_arg8 (by decide) (by decide) (by decide) (by decide))).trans (rowOps_eq aB2))
theorem b5_v19 : (W5 m ρ c (Proc.devRef .tc main_v19) : SR.Idx → EReal) = Cert.Gcn.row aG2 :=
  (s4_v19 (W4 m ρ c)).trans ((congrArg rowOps (b4_keep m ρ c main_arg9 (by decide) (by decide) (by decide) (by decide))).trans (rowOps_eq aG2))
theorem b5_v20 : (W5 m ρ c (Proc.devRef .tc main_v20) : SR.Idx → EReal) = Cert.Gcn.row aE2 :=
  (s4_v20 (W4 m ρ c)).trans ((congrArg rowOps (b4_keep m ρ c main_arg10 (by decide) (by decide) (by decide) (by decide))).trans (rowOps_eq aE2))
theorem b5_arg1 : W5 m ρ c (Proc.devRef .tc main_arg1) = aS :=
  b5_keep m ρ c main_arg1 (by decide) (by decide) (by decide) (by decide) (by decide)
theorem b5_arg2 : W5 m ρ c (Proc.devRef .tc main_arg2) = aD :=
  b5_keep m ρ c main_arg2 (by decide) (by decide) (by decide) (by decide) (by decide)
theorem b5_arg3 : W5 m ρ c (Proc.devRef .tc main_arg3) = aW1 :=
  b5_keep m ρ c main_arg3 (by decide) (by decide) (by decide) (by decide) (by decide)
theorem b5_arg7 : W5 m ρ c (Proc.devRef .tc main_arg7) = aW2 :=
  b5_keep m ρ c main_arg7 (by decide) (by decide) (by decide) (by decide) (by decide)

/-! ## The first linear region, then the means, the variances and the zero residual -/

theorem b6_v35_0 (R0 : Lin0Facts) : (W6 m ρ c (Proc.devRef .tc main_v35_0) : SN.Idx → EReal) = L1 := by
  refine (W6_arr m ρ c 3).trans ((R0.1 (V5 m ρ) c).trans ?_)
  show Cert.Gcn.lin (W5 m ρ c (Proc.devRef .tc main_v34)) (W5 m ρ c (Proc.devRef .tc main_arg3)) (W5 m ρ c (Proc.devRef .tc main_v15)) = _
  rw [b5_v34 m ρ c, b5_arg3 m ρ c, b5_v15 m ρ c]
theorem b6_v35_1 (R0 : Lin0Facts) : (W6 m ρ c (Proc.devRef .tc main_v35_1) : SR.Idx → EReal) = Cert.Gcn.colSum L1 := by
  refine (W6_arr m ρ c 4).trans ((R0.2.1 (V5 m ρ) c).trans ?_)
  show Cert.Gcn.colSum (Cert.Gcn.lin (W5 m ρ c (Proc.devRef .tc main_v34)) (W5 m ρ c (Proc.devRef .tc main_arg3)) (W5 m ρ c (Proc.devRef .tc main_v15))) = _
  rw [b5_v34 m ρ c, b5_arg3 m ρ c, b5_v15 m ρ c]
theorem b6_v35_2 (R0 : Lin0Facts) : (W6 m ρ c (Proc.devRef .tc main_v35_2) : SR.Idx → EReal) = Cert.Gcn.colSumSq L1 := by
  refine (W6_arr m ρ c 5).trans ((R0.2.2 (V5 m ρ) c).trans ?_)
  show Cert.Gcn.colSumSq (Cert.Gcn.lin (W5 m ρ c (Proc.devRef .tc main_v34)) (W5 m ρ c (Proc.devRef .tc main_arg3)) (W5 m ρ c (Proc.devRef .tc main_v15))) = _
  rw [b5_v34 m ρ c, b5_arg3 m ρ c, b5_v15 m ρ c]

/-- a buffer neither the first linear region nor the stretch after it writes -/
theorem b7_keep (r : Ref sig .tc) (h0 : ∀ w, Pipeline.arrRef spec0 w ≠ r) (h1 : r ∉ wr_hostOps1) :
    W7 m ρ c (Proc.devRef .tc r) = W5 m ρ c (Proc.devRef .tc r) :=
  (keep_hostOps1 (W6 m ρ c) r h1).trans (W6_of_ne m ρ c r h0)

theorem b7_v35_0 (R0 : Lin0Facts) : (W7 m ρ c (Proc.devRef .tc main_v35_0) : SN.Idx → EReal) = L1 :=
  (keep_hostOps1 (W6 m ρ c) main_v35_0 (by decide)).trans (b6_v35_0 m ρ c R0)
theorem b7_v37 (R0 : Lin0Facts) : (W7 m ρ c (Proc.devRef .tc main_v37) : SR.Idx → EReal) = Cert.Gcn.mean L1 :=
  (h1_v37 (W6 m ρ c)).trans ((congrArg meanOps (b6_v35_1 m ρ c R0)).trans (meanOps_colSum L1))
theorem b7_v41 (R0 : Lin0Facts) : (W7 m ρ c (Proc.devRef .tc main_v41) : SR.Idx → EReal) = Cert.Gcn.var L1 :=
  (h1_v41 (W6 m ρ c)).trans ((congrArg₂ varOps (b6_v35_1 m ρ c R0) (b6_v35_2 m ρ c R0)).trans (varOps_eq L1))
theorem b7_v42 : (W7 m ρ c (Proc.devRef .tc main_v42) : SN.Idx → EReal) = fun _ => Cert.Gcn.zero :=
  (h1_v42 (W6 m ρ c)).trans zeroOps_eq
theorem b7_v16 : (W7 m ρ c (Proc.devRef .tc main_v16) : SR.Idx → EReal) = Cert.Gcn.row aG1 :=
  (b7_keep m ρ c main_v16 (by decide) (by decide)).trans (b5_v16 m ρ c)
theorem b7_v17 : (W7 m ρ c (Proc.devRef .tc main_v17) : SR.Idx → EReal) = Cert.Gcn.row aE1 :=
  (b7_keep m ρ c main_v17 (by decide) (by decide)).trans (b5_v17 m ρ c)

/-! ## The first normalising region: the first layer -/

theorem b8_v43 (R0 : Lin0Facts) (R1 : Bn1Facts) : (W8 m ρ c (Proc.devRef .tc main_v43) : SN.Idx → EReal) = Y1 := by
  refine (W8_arr m ρ c 6).trans ((R1 (V7 m ρ) c).trans ?_)
  show Cert.Gcn.bn (W7 m ρ c (Proc.devRef .tc main_v35_0)) (W7 m ρ c (Proc.devRef .tc main_v37)) (W7 m ρ c (Proc.devRef .tc main_v41))
    (W7 m ρ c (Proc.devRef .tc main_v16)) (W7 m ρ c (Proc.devRef .tc main_v17)) (W7 m ρ c (Proc.devRef .tc main_v42)) = _
  rw [b7_v35_0 m ρ c R0, b7_v37 m ρ c R0, b7_v41 m ρ c R0, b7_v16 m ρ c, b7_v17 m ρ c, b7_v42 m ρ c]
  rfl

/-- a buffer nothing between the first region's entry and the first normalising region's exit writes -/
theorem b8_keep (r : Ref sig .tc) (h0 : ∀ w, Pipeline.arrRef spec0 w ≠ r) (h1 : r ∉ wr_hostOps1)
    (h2 : ∀ w, Pipeline.arrRef spec1 w ≠ r) : W8 m ρ c (Proc.devRef .tc r) = W5 m ρ c (Proc.devRef .tc r) :=
  (W8_of_ne m ρ c r h2).trans (b7_keep m ρ c r h0 h1)

/-! ## The stretch between the layers: the second neighbourhood sum -/

theorem b9_v57 (R0 : Lin0Facts) (R1 : Bn1Facts) : (W9 m ρ c (Proc.devRef .tc main_v57) : SN.Idx → EReal) = A2 := by
  refine (h2_v57 (W8 m ρ c)).trans ?_
  rw [b8_v43 m ρ c R0 R1, (b8_keep m ρ c main_arg1 (by decide) (by decide) (by decide)).trans (b5_arg1 m ρ c),
    (b8_keep m ρ c main_arg2 (by decide) (by decide) (by decide)).trans (b5_arg2 m ρ c),
    (b8_keep m ρ c main_v13 (by decide) (by decide) (by decide)).trans (b5_v13 m ρ c),
    (b8_keep m ρ c main_v14 (by decide) (by decide) (by decide)).trans (b5_v14 m ρ c)]
  exact aggrOps_eq _ _ _ _ _

/-- a buffer nothing between the first region's entry and the second linear region's entry writes -/
theorem b9_keep (r : Ref sig .tc) (h0 : ∀ w, Pipeline.arrRef spec0 w ≠ r) (h1 : r ∉ wr_hostOps1)
    (h2 : ∀ w, Pipeline.arrRef spec1 w ≠ r) (h3 : r ∉ wr_hostOps2) :
    W9 m ρ c (Proc.devRef .tc r) = W5 m ρ c (Proc.devRef .tc r) :=
  (keep_hostOps2 (W8 m ρ c) r h3).trans (b8_keep m ρ c r h0 h1 h2)
theorem b9_v43 (R0 : Lin0Facts) (R1 : Bn1Facts) : (W9 m ρ c (Proc.devRef .tc main_v43) : SN.Idx → EReal) = Y1 :=
  (keep_hostOps2 (W8 m ρ c) main_v43 (by decide)).trans (b8_v43 m ρ c R0 R1)

/-! ## The second linear region, its means and variances -/

theorem b10_v58_0 (R0 : Lin0Facts) (R1 : Bn1Facts) (R2 : Lin2Facts) : (W10 m ρ c (Proc.devRef .tc main_v58_0) : SN.Idx → EReal) = L2 := by
  refine (W10_arr m ρ c 3).trans ((R2.1 (V9 m ρ) c).trans ?_)
  show Cert.Gcn.lin (W9 m ρ c (Proc.devRef .tc main_v57)) (W9 m ρ c (Proc.devRef .tc main_arg7)) (W9 m ρ c (Proc.devRef .tc main_v18)) = _
  rw [b9_v57 m ρ c R0 R1, (b9_keep m ρ c main_arg7 (by decide) (by decide) (by decide) (by decide)).trans (b5_arg7 m ρ c),
    (b9_keep m ρ c main_v18 (by decide) (by decide) (by decide) (by decide)).trans (b5_v18 m ρ c)]
theorem b10_v58_1 (R0 : Lin0Facts) (R1 : Bn1Facts) (R2 : Lin2Facts) : (W10 m ρ c (Proc.devRef .tc main_v58_1) : SR.Idx → EReal) = Cert.Gcn.colSum L2 := by
  refine (W10_arr m ρ c 4).trans ((R2.2.1 (V9 m ρ) c).trans ?_)
  show Cert.Gcn.colSum (Cert.Gcn.lin (W9 m ρ c (Proc.devRef .tc main_v57)) (W9 m ρ c (Proc.devRef .tc main_arg7)) (W9 m ρ c (Proc.devRef .tc main_v18))) = _
  rw [b9_v57 m ρ c R0 R1, (b9_keep m ρ c main_arg7 (by decide) (by decide) (by decide) (by decide)).trans (b5_arg7 m ρ c),
    (b9_keep m ρ c main_v18 (by decide) (by decide) (by decide) (by decide)).trans (b5_v18 m ρ c)]
theorem b10_v58_2 (R0 : Lin0Facts) (R1 : Bn1Facts) (R2 : Lin2Facts) : (W10 m ρ c (Proc.devRef .tc main_v58_2) : SR.Idx → EReal) = Cert.Gcn.colSumSq L2 := by
  refine (W10_arr m ρ c 5).trans ((R2.2.2 (V9 m ρ) c).trans ?_)
  show Cert.Gcn.colSumSq (Cert.Gcn.lin (W9 m ρ c (Proc.devRef .tc main_v57)) (W9 m ρ c (Proc.devRef .tc main_arg7)) (W9 m ρ c (Proc.devRef .tc main_v18))) = _
  rw [b9_v57 m ρ c R0 R1, (b9_keep m ρ c main_arg7 (by decide) (by decide) (by decide) (by decide)).trans (b5_arg7 m ρ c),
    (b9_keep m ρ c main_v18 (by decide) (by decide) (by decide) (by decide)).trans (b5_v18 m ρ c)]

/-- a buffer nothing between the first region's entry and the second normalising region's entry writes -/
theorem b11_keep (r : Ref sig .tc) (h0 : ∀ w, Pipeline.arrRef spec0 w ≠ r) (h1 : r ∉ wr_hostOps1)
    (h2 : ∀ w, Pipeline.arrRef spec1 w ≠ r) (h3 : r ∉ wr_hostOps2) (h4 : ∀ w, Pipeline.arrRef spec2 w ≠ r)
    (h5 : r ∉ wr_hostOps3) : W11 m ρ c (Proc.devRef .tc r) = W5 m ρ c (Proc.devRef .tc r) :=
  (keep_hostOps3 (W10 m ρ c) r h5).trans ((W10_of_ne m ρ c r h4).trans (b9_keep m ρ c r h0 h1 h2 h3))

theorem b11_v58_0 (R0 : Lin0Facts) (R1 : Bn1Facts) (R2 : Lin2Facts) : (W11 m ρ c (Proc.devRef .tc main_v58_0) : SN.Idx → EReal) = L2 :=
  (keep_hostOps3 (W10 m ρ c) main_v58_0 (by decide)).trans (b10_v58_0 m ρ c R0 R1 R2)
theorem b11_v60 (R0 : Lin0Facts) (R1 : Bn1Facts) (R2 : Lin2Facts) : (W11 m ρ c (Proc.devRef .tc main_v60) : SR.Idx → EReal) = Cert.Gcn.mean L2 :=
  (h3_v60 (W10 m ρ c)).trans ((congrArg meanOps (b10_v58_1 m ρ c R0 R1 R2)).trans (meanOps_colSum L2))
theorem b11_v64 (R0 : Lin0Facts) (R1 : Bn1Facts) (R2 : Lin2Facts) : (W11 m ρ c (Proc.devRef .tc main_v64) : SR.Idx → EReal) = Cert.Gcn.var L2 :=
  (h3_v64 (W10 m ρ c)).trans ((congrArg₂ varOps (b10_v58_1 m ρ c R0 R1 R2) (b10_v58_2 m ρ c R0 R1 R2)).trans (varOps_eq L2))
theorem b11_v43 (R0 : Lin0Facts) (R1 : Bn1Facts) : (W11 m ρ c (Proc.devRef .tc main_v43) : SN.Idx → EReal) = Y1 :=
  (keep_hostOps3 (W10 m ρ c) main_v43 (by decide)).trans ((W10_of_ne m ρ c main_v43 (by decide)).trans (b9_v43 m ρ c R0 R1))
theorem b11_v19 : (W11 m ρ c (Proc.devRef .tc main_v19) : SR.Idx → EReal) = Cert.Gcn.row aG2 :=
  (b11_keep m ρ c main_v19 (by decide) (by decide) (by decide) (by decide) (by decide) (by decide)).trans (b5_v19 m ρ c)
theorem b11_v20 : (W11 m ρ c (Proc.devRef .tc main_v20) : SR.Idx → EReal) = Cert.Gcn.row aE2 :=
  (b11_keep m ρ c main_v20 (by decide) (by decide) (by decide) (by decide) (by decide) (by decide)).trans (b5_v20 m ρ c)

/-! ## The second normalising region: the network -/

/-- THE RESULT is the network of the arguments, given what the four regions leave. -/
theorem result_eq_of (R0 : Lin0Facts) (R1 : Bn1Facts) (R2 : Lin2Facts) (R3 : Bn3Facts) : (W12 m ρ c (Proc.devRef .tc main_v65) : SN.Idx → EReal)
    = Cert.Gcn.net aX aS aD aW1 aB1 aG1 aE1 aW2 aB2 aG2 aE2 := by
  refine (W12_arr m ρ c 6).trans ((R3 (V11 m ρ) c).trans ?_)
  show Cert.Gcn.bn (W11 m ρ c (Proc.devRef .tc main_v58_0)) (W11 m ρ c (Proc.devRef .tc main_v60)) (W11 m ρ c (Proc.devRef .tc main_v64))
    (W11 m ρ c (Proc.devRef .tc main_v19)) (W11 m ρ c (Proc.devRef .tc main_v20)) (W11 m ρ c (Proc.devRef .tc main_v43)) = _
  rw [b11_v58_0 m ρ c R0 R1 R2, b11_v60 m ρ c R0 R1 R2, b11_v64 m ρ c R0 R1 R2, b11_v19 m ρ c, b11_v20 m ρ c, b11_v43 m ρ c R0 R1]
  rfl

end Chain

end Cert.KernelIdeal.KChain

end
-- ==== Proof.RegionLinPieces0.lean ====
import proofs.«180731_j65910568124789_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionLin

open Cert.KernelIdeal Cert.KernelIdeal.Gen

variable {F : FTy → Type} [FloatOps F]

theorem hz0 : (![0, 0] : Fin 2 → Nat) = fun _ => 0 := funext fun a => by fin_cases a <;> rfl

/-! # What each control case leaves in the three outputs' staging buffers, as the payload terms of the loaded blocks -/

/-- Later points: the linear map's block is the payload of the three input blocks. -/
theorem outB0_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  try sl_unfold_words
  rw [View.canon_unit_zero hz0]
  simp only [View.readAt_eq_ld, h1.read_unread, h2.read_unread, h3.read_unread, h5.read_unread, h6.read_unread, View.ld_unit_zero (S := S5000x128) hz0, View.ld_unit_zero (S := S128x128) hz0, View.ld_unit_zero (S := S1x128) hz0]

/-- Later points: the running column sums are the previous ones plus this block's. -/
theorem outB0_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  try sl_unfold_words
  rw [View.canon_unit_zero hz0]
  simp only [View.readAt_eq_ld, h1.read_unread, h2.read_unread, h3.read_unread, h5.read_unread, h6.read_unread, View.ld_unit_zero (S := S5000x128) hz0, View.ld_unit_zero (S := S128x128) hz0, View.ld_unit_zero (S := S1x128) hz0]

/-- Later points: the running column sums of squares likewise. -/
theorem outB0_5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S5000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  try sl_unfold_words
  rw [View.canon_unit_zero hz0]
  simp only [View.readAt_eq_ld, h1.read_unread, h2.read_unread, h3.read_unread, h5.read_unread, h6.read_unread, View.ld_unit_zero (S := S5000x128) hz0, View.ld_unit_zero (S := S128x128) hz0, View.ld_unit_zero (S := S1x128) hz0]

/-- The first point: the linear map's block. -/
theorem outA0_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  try sl_unfold_words
  rw [View.canon_unit_zero hz0]
  simp only [View.readAt_eq_ld, h1.read_unread, h2.read_unread, h3.read_unread, View.ld_unit_zero (S := S5000x128) hz0, View.ld_unit_zero (S := S128x128) hz0, View.ld_unit_zero (S := S1x128) hz0]

/-- The first point: the zero row is stored, read back, and this block's column sums added to it. -/
theorem outA0_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, View.ld_unit_zero (S := S5000x128) hz0, View.ld_unit_zero (S := S128x128) hz0, View.ld_unit_zero (S := S1x128) hz0]

/-- The first point: the sums of squares likewise. -/
theorem outA0_5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i) (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, View.ld_unit_zero (S := S5000x128) hz0, View.ld_unit_zero (S := S128x128) hz0, View.ld_unit_zero (S := S1x128) hz0]

end Cert.KernelIdeal.RegionLin
end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.RegionLinPay0.lean ====
import proofs.«180731_j65910568124789_1_alg».proof.Proof.Gen.KernelIdeal.Skeleton
import proofs.«180731_j65910568124789_1_alg».proof.Proof.LibMatmulRead
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.RegionLin

open Cert.KernelIdeal Cert.KernelIdeal.Gen

/-! # The body's three stored values read entry by entry over the extended reals -/

/-- The stored block of the linear map at row `r`, column `q`: row `r` of the node block times column `q` of the
    weights, plus the bias entry of column `q`. -/
theorem pay0_lin_apply (x0 : FVec Ideal S5000x128 .f32) (x1 : FVec Ideal S128x128 .f32) (x2 : FVec Ideal S1x128 .f32)
    (r : Fin 5000) (q : Fin 128) :
    k0_pay3 (F := Ideal) x0 x1 x2 (ix2 r q) = (∑ d : Fin 128, x0 (ix2 r d) * x1 (ix2 d q)) + x2 (ix2 (0 : Fin 1) q) := by
  unfold k0_pay3
  refine congrArg₂ (· + ·) ?_ ?_
  · refine (matmul_ix2_apply dot_S5000x128_S128x128_S5000x128_1_0_0_1_n_n rfl rfl rfl rfl rfl rfl none _ _ r q).trans ?_
    refine Finset.sum_congr rfl fun d _ => ?_
    refine congrArg₂ (· * ·) ?_ rfl
    exact congrFun (shapeCast_self x0 shapeCasts_S5000x128_S5000x128) (ix2 r d)
  · refine (broadcastTo_1b_ab_apply _ broadcasts_S1x128_S5000x128 r q).trans ?_
    exact congrFun (shapeCast_self x2 shapeCasts_S1x128_S1x128) (ix2 (0 : Fin 1) q)

/-- The index a column sum reads at row `k` of column `q`. -/
theorem lift0_col (q : Fin 128) (k : Fin 5000) :
    (reduces_S5000x128_S128.lift (ix1 q) k : S5000x128.Idx) = ix2 k q :=
  funext fun a => Fin.ext (by
    match a with
    | ⟨0, _⟩ => rfl
    | ⟨1, _⟩ => rfl)

/-- A column sum of a block, kept as a row, read at column `q`. -/
theorem colsum0_apply (v : FVec Ideal S5000x128 .f32) (hφ : FKind.Formats .f32) (hacc : (0x00000000#32 : BitVec 32) = 0x00000000#32)
    (u : Fin 1) (q : Fin 128) :
    shapeCast S1x128 (multiReduction (F := Ideal) .add [0] S128 v 0x00000000#32 reduces_S5000x128_S128 hφ hacc) shapeCasts_S128_S1x128 (ix2 u q)
      = ∑ r : Fin 5000, v (ix2 r q) := by
  refine (shapeCast_a_1a_apply _ shapeCasts_S128_S1x128 u q).trans ?_
  refine (Ideal.multiReduction_add_single v 0x00000000#32 reduces_S5000x128_S128 hφ hacc (ix1 q)).trans ?_
  exact Finset.sum_congr rfl fun k _ => congrArg v (lift0_col q k)

/-- The stored running column sums at column `q`: what the row held plus the block's column sum of the linear map. -/
theorem pay0_sum_apply (x0 : FVec Ideal S5000x128 .f32) (x1 : FVec Ideal S128x128 .f32) (x2 : FVec Ideal S1x128 .f32)
    (acc : FVec Ideal S1x128 .f32) (u : Fin 1) (q : Fin 128) :
    k0_pay4 (F := Ideal) x0 x1 x2 acc (ix2 u q)
      = acc (ix2 u q) + ∑ r : Fin 5000, k0_pay3 (F := Ideal) x0 x1 x2 (ix2 r q) := by
  unfold k0_pay4
  refine congrArg₂ (· + ·) ?_ ?_
  · exact congrFun (shapeCast_self acc shapeCasts_S1x128_S1x128) (ix2 u q)
  · exact colsum0_apply _ _ _ u q

/-- The stored running column sums of squares at column `q`. -/
theorem pay0_sumsq_apply (x0 : FVec Ideal S5000x128 .f32) (x1 : FVec Ideal S128x128 .f32) (x2 : FVec Ideal S1x128 .f32)
    (acc : FVec Ideal S1x128 .f32) (u : Fin 1) (q : Fin 128) :
    k0_pay5 (F := Ideal) x0 x1 x2 acc (ix2 u q)
      = acc (ix2 u q) + ∑ r : Fin 5000, k0_pay3 (F := Ideal) x0 x1 x2 (ix2 r q) * k0_pay3 (F := Ideal) x0 x1 x2 (ix2 r q) := by
  unfold k0_pay5
  refine congrArg₂ (· + ·) ?_ ?_
  · exact congrFun (shapeCast_self acc shapeCasts_S1x128_S1x128) (ix2 u q)
  · exact colsum0_apply _ _ _ u q

/-- The row of zeros the first point stores, read at an entry. -/
theorem pay0_zero1_apply (u : Fin 1) (q : Fin 128) : k0_pay1 (F := Ideal) (ix2 u q) = 0 := Ideal.ofBits_zero_f32
theorem pay0_zero2_apply (u : Fin 1) (q : Fin 128) : k0_pay2 (F := Ideal) (ix2 u q) = 0 := Ideal.ofBits_zero_f32

end Cert.KernelIdeal.RegionLin
end
-- ==== Proof.RegionLinInv0.lean ====
import proofs.«180731_j65910568124789_1_alg».proof.Proof.Spec
import proofs.«180731_j65910568124789_1_alg».proof.Proof.RegionLinPieces0
import proofs.«180731_j65910568124789_1_alg».proof.Proof.RegionLinPay0

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionLin

open Cert.KernelIdeal Cert.KernelIdeal.Gen

variable (V : (c : Dev nD) → (b : Ref sig .tc) → Buf (Elt Ideal) ((c : Thread nD τ).loc b))

/-! # The accumulating linear kernel: its three result arrays as the linear map, its column sums and its column
    sums of squares, of the three arrays the region finds -/

/-- The node array the region finds. -/
abbrev nodeArr0 (c : Dev nD) : Cert.Gcn.SN.Idx → EReal := V c (Pipeline.arrRef spec0 0)
/-- The weights the region finds. -/
abbrev weightArr0 (c : Dev nD) : Cert.Gcn.SW.Idx → EReal := V c (Pipeline.arrRef spec0 1)
/-- The bias row the region finds. -/
abbrev biasArr0 (c : Dev nD) : Cert.Gcn.SR.Idx → EReal := V c (Pipeline.arrRef spec0 2)
/-- The linear map of the three. -/
abbrev linOf0 (c : Dev nD) : Cert.Gcn.SN.Idx → EReal :=
  Cert.Gcn.lin (nodeArr0 V c) (weightArr0 V c) (biasArr0 V c)

/-- The same, with the node row a natural number (zero past the last node): the form the running sums are stated in. -/
def linRow0 (c : Dev nD) (p : ℕ) (q : Fin 128) : EReal :=
  if h : p < 50000 then linOf0 V c (ix2 (⟨p, h⟩ : Fin 50000) q) else 0

/-! ## The index maps, decided over the grid -/

theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt_N0 (t : Fin cfg0.N) : t.val < 10 := by
  have h : cfg0.N = 10 := N_0
  have := t.isLt
  omega

/-! ## The input blocks read entry by entry -/

/-- The node block at point `t`, row `r`: row `5000 t + r` of the node array. -/
theorem blk0_0_apply (c : Dev nD) (t : Fin cfg0.N) (r : Fin 5000) (d : Fin 128) (hp : 5000 * t.val + r.val < 50000) :
    (iblk0 V c 0 t : S5000x128.Idx → EReal) (ix2 r d)
      = nodeArr0 V c (ix2 (⟨5000 * t.val + r.val, hp⟩ : Fin 50000) d) := by
  obtain ⟨e0, e1, -⟩ := idx0_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * d.val = d.val; rw [e1]; omega

/-- The weight block at every point is the weight array. -/
theorem blk0_1_apply (c : Dev nD) (t : Fin cfg0.N) (d : Fin 128) (q : Fin 128) :
    (iblk0 V c 1 t : S128x128.Idx → EReal) (ix2 d q)
      = weightArr0 V c (ix2 d q) := by
  obtain ⟨-, -, e0, e1, -⟩ := idx0_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * d.val = d.val; rw [e0]; omega
  | ⟨1, _⟩ => show win0_1.index t (1 : Fin 2) * 128 + 1 * q.val = q.val; rw [e1]; omega

/-- The bias block at every point is the bias row. -/
theorem blk0_2_apply (c : Dev nD) (t : Fin cfg0.N) (u : Fin 1) (q : Fin 128) :
    (iblk0 V c 2 t : S1x128.Idx → EReal) (ix2 u q)
      = biasArr0 V c (ix2 u q) := by
  obtain ⟨-, -, -, -, e0, e1, -⟩ := idx0_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * u.val = u.val; rw [e0]; omega
  | ⟨1, _⟩ => show win0_2.index t (1 : Fin 2) * 128 + 1 * q.val = q.val; rw [e1]; omega

/-- The stored block of point `t` at row `r` is the linear map at node row `5000 t + r`. -/
theorem pay0_lin_at (c : Dev nD) (t : Fin cfg0.N) (r : Fin 5000) (q : Fin 128) :
    k0_pay3 (F := Ideal) (iblk0 V c 0 t) (iblk0 V c 1 t) (iblk0 V c 2 t) (ix2 r q) = linRow0 V c (5000 * t.val + r.val) q := by
  have ht := lt_N0 t
  have hp : 5000 * t.val + r.val < 50000 := by have := r.isLt; omega
  unfold linRow0
  rw [dif_pos hp]
  refine (pay0_lin_apply (iblk0 V c 0 t) (iblk0 V c 1 t) (iblk0 V c 2 t) r q).trans ?_
  show _ = (∑ d : Fin 128, nodeArr0 V c (ix2 (⟨5000 * t.val + r.val, hp⟩ : Fin 50000) d) * weightArr0 V c (ix2 d q))
    + biasArr0 V c (ix2 (0 : Fin 1) q)
  refine congrArg₂ (· + ·) (Finset.sum_congr rfl fun d _ => congrArg₂ (· * ·) ?_ ?_) ?_
  · exact blk0_0_apply V c t r d hp
  · exact blk0_1_apply V c t d q
  · exact blk0_2_apply V c t 0 q

/-! ## What the outputs' staging buffers hold after each point -/

theorem at0_A (c : Dev nD) (t : Fin cfg0.N) (h0 : t.val % 10 = 0) :
    outsAt0 V c t.val t.isLt = (k0_pay3 (iblk0 V c 0 t) (iblk0 V c 1 t) (iblk0 V c 2 t), k0_pay4 (iblk0 V c 0 t) (iblk0 V c 1 t) (iblk0 V c 2 t) (k0_pay1 (F := Ideal)), k0_pay5 (iblk0 V c 0 t) (iblk0 V c 1 t) (iblk0 V c 2 t) (k0_pay2 (F := Ideal))) :=
  (outsAt0_A V c t h0).trans (congrArg₂ Prod.mk
    (outA0_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    (congrArg₂ Prod.mk
      (outA0_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (outA0_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))))

theorem at0_B (c : Dev nD) (t : Fin cfg0.N) (h0 : ¬t.val % 10 = 0) :
    outsAt0 V c t.val t.isLt = (k0_pay3 (iblk0 V c 0 t) (iblk0 V c 1 t) (iblk0 V c 2 t),
      k0_pay4 (iblk0 V c 0 t) (iblk0 V c 1 t) (iblk0 V c 2 t) (outsAt0 V c (t.val - 1) (Nat.lt_of_le_of_lt (Nat.sub_le _ _) t.isLt)).2.1,
      k0_pay5 (iblk0 V c 0 t) (iblk0 V c 1 t) (iblk0 V c 2 t) (outsAt0 V c (t.val - 1) (Nat.lt_of_le_of_lt (Nat.sub_le _ _) t.isLt)).2.2) :=
  (outsAt0_B V c t h0).trans (congrArg₂ Prod.mk
    (outB0_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (outB0_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
      (outB0_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)))

/-- THE INVARIANT. After point `n`: the first output's buffer holds rows `5000 n … 5000 n + 4999` of the linear
    map, the second the column sums of its rows below `5000 (n + 1)`, the third the column sums of their squares. -/
theorem inv0 (c : Dev nD) : ∀ (n : ℕ) (hn : n < cfg0.N),
    (∀ (r : Fin 5000) (q : Fin 128), ((outsAt0 V c n hn).1 : S5000x128.Idx → EReal) (ix2 r q) = linRow0 V c (5000 * n + r.val) q)
    ∧ (∀ (u : Fin 1) (q : Fin 128), ((outsAt0 V c n hn).2.1 : S1x128.Idx → EReal) (ix2 u q) = ∑ p ∈ Finset.range (5000 * (n + 1)), linRow0 V c p q)
    ∧ (∀ (u : Fin 1) (q : Fin 128), ((outsAt0 V c n hn).2.2 : S1x128.Idx → EReal) (ix2 u q)
        = ∑ p ∈ Finset.range (5000 * (n + 1)), linRow0 V c p q * linRow0 V c p q)
  | 0, hn => by
    have e : outsAt0 V c 0 hn = _ := at0_A V c ⟨0, hn⟩ (Nat.zero_mod _)
    rw [e]
    refine ⟨fun r q => pay0_lin_at V c ⟨0, hn⟩ r q, fun u q => ?_, fun u q => ?_⟩
    · refine (pay0_sum_apply _ _ _ _ u q).trans ?_
      rw [pay0_zero1_apply, zero_add, Finset.sum_range]
      exact Finset.sum_congr rfl fun r _ => (pay0_lin_at V c ⟨0, hn⟩ r q).trans (by rw [Nat.mul_zero, Nat.zero_add])
    · refine (pay0_sumsq_apply _ _ _ _ u q).trans ?_
      rw [pay0_zero2_apply, zero_add, Finset.sum_range]
      exact Finset.sum_congr rfl fun r _ => by
        rw [pay0_lin_at V c ⟨0, hn⟩ r q]
        show linRow0 V c (5000 * 0 + r.val) q * linRow0 V c (5000 * 0 + r.val) q = _
        rw [Nat.mul_zero, Nat.zero_add]
  | n + 1, hn => by
    have hB : ¬(⟨n + 1, hn⟩ : Fin cfg0.N).val % 10 = 0 := by
      have := lt_N0 ⟨n + 1, hn⟩
      dsimp only at this ⊢
      omega
    have e : outsAt0 V c (n + 1) hn = _ := at0_B V c ⟨n + 1, hn⟩ hB
    obtain ⟨-, ih4, ih5⟩ := inv0 c n (Nat.lt_of_succ_lt hn)
    rw [e]
    refine ⟨fun r q => pay0_lin_at V c ⟨n + 1, hn⟩ r q, fun u q => ?_, fun u q => ?_⟩
    · refine (pay0_sum_apply _ _ _ _ u q).trans ?_
      rw [show 5000 * (n + 1 + 1) = 5000 * (n + 1) + 5000 from by omega, Finset.sum_range_add, Finset.sum_range (fun x => linRow0 V c (5000 * (n + 1) + x) q)]
      refine congrArg₂ (· + ·) (ih4 u q) (Finset.sum_congr rfl fun r _ => pay0_lin_at V c ⟨n + 1, hn⟩ r q)
    · refine (pay0_sumsq_apply _ _ _ _ u q).trans ?_
      rw [show 5000 * (n + 1 + 1) = 5000 * (n + 1) + 5000 from by omega, Finset.sum_range_add,
        Finset.sum_range (fun x => linRow0 V c (5000 * (n + 1) + x) q * linRow0 V c (5000 * (n + 1) + x) q)]
      refine congrArg₂ (· + ·) (ih5 u q) (Finset.sum_congr rfl fun r _ => ?_)
      rw [pay0_lin_at V c ⟨n + 1, hn⟩ r q]

end Cert.KernelIdeal.RegionLin
end
-- ==== Proof.RegionLin0.lean ====
import proofs.«180731_j65910568124789_1_alg».proof.Proof.RegionLinInv0

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionLin

open Cert.KernelIdeal Cert.KernelIdeal.Gen

variable (V : (c : Dev nD) → (b : Ref sig .tc) → Buf (Elt Ideal) ((c : Thread nD τ).loc b))

/-! # From the blocks to the arrays: what each result array holds when the region ends -/

/-! ## The linear map: ten row blocks tile the array -/

/-- An index of the node-sized array is in point `t`'s block iff each coordinate is in the block's range. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35_0).slice (win0_3.rect t)).set ↔ _
  rw [View.set_slice_whole, Rect.mem_set_unit]
  exact Iff.rfl

/-- What point `t` writes back is block `t` of the linear map. -/
theorem flushed0_3 (c : Dev nD) (t : Fin cfg0.N) (hf : (cfg0.win 3).flush t = true) :
    (dat0 V c).flushed 3 t = ((cfg0.win 3).blk t).view.read (Elt Ideal) (linOf0 V c) := by
  have ht := lt_N0 t
  obtain ⟨-, -, -, -, -, -, e0, e1, -⟩ := idx0_facts t
  show (cfg0.win 3).cut (grid0.coords t) ((dat0 V c).after 3 t) = _
  rw [after0_3]
  funext j
  rw [View.read_apply]
  show ((outsAt0 V c t.val t.isLt).1 : S5000x128.Idx → EReal) j = linOf0 V c (((cfg0.win 3).blk t).view.emb j)
  have hj : (j : S5000x128.Idx) = ix2 ((j : S5000x128.Idx) 0) ((j : S5000x128.Idx) 1) := eq_ix2 (j : S5000x128.Idx)
  have hr : ((j : S5000x128.Idx) 0).val < 5000 := idx2_lt0 (j : S5000x128.Idx)
  have hp : 5000 * t.val + ((j : S5000x128.Idx) 0).val < 50000 := by omega
  refine (congrArg ((outsAt0 V c t.val t.isLt).1 : S5000x128.Idx → EReal) hj).trans ?_
  refine ((inv0 V c t.val t.isLt).1 ((j : S5000x128.Idx) 0) ((j : S5000x128.Idx) 1)).trans ?_
  unfold linRow0
  refine (dif_pos hp).trans (congrArg (linOf0 V c) (funext fun a => Fin.ext ?_))
  match a with
  | ⟨0, _⟩ => show 5000 * t.val + ((j : S5000x128.Idx) 0).val = win0_3.index t (0 : Fin 2) * 5000 + 1 * ((j : S5000x128.Idx) 0).val; rw [e0]; omega
  | ⟨1, _⟩ => show ((j : S5000x128.Idx) 1).val = win0_3.index t (1 : Fin 2) * 128 + 1 * ((j : S5000x128.Idx) 1).val; rw [e1]; omega

/-- Row `p` is in the block of point `p / 5000`. -/
theorem cover0_3 (i : S50000x128.Idx) : ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  have ht : (i 0).val / 5000 < cfg0.N := by omega
  obtain ⟨-, -, -, -, -, -, e0, e1, -⟩ := idx0_facts ⟨(i 0).val / 5000, ht⟩
  refine ⟨⟨(i 0).val / 5000, ht⟩, flush0_3 _, ?_⟩
  rw [mem_blk0_3]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; rw [e0]; dsimp only; omega
  | ⟨1, _⟩ => show win0_3.index ⟨(i 0).val / 5000, ht⟩ (1 : Fin 2) * 128 ≤ (i 1).val ∧ (i 1).val < win0_3.index ⟨(i 0).val / 5000, ht⟩ (1 : Fin 2) * 128 + 128; rw [e1]; omega

/-- THE FIRST RESULT ARRAY ends holding the linear map of the three arrays the region finds. -/
theorem lin_arr0 (c : Dev nD) : (dat0 (F := Ideal) V c).arrAt 3 cfg0.N
    = Cert.Gcn.lin (V c (Pipeline.arrRef spec0 0)) (V c (Pipeline.arrRef spec0 1)) (V c (Pipeline.arrRef spec0 2)) :=
  (dat0 V c).arrAt_eq_of_cover 3 (linOf0 V c) (flushed0_3 V c) cover0_3

/-! ## The column sums and the column sums of squares: one row, written back after the last point -/

/-- An index of output 4's one-row array is in point `t`'s block iff each coordinate is in the block's range. -/
theorem mem_blk0_4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v35_1).slice (win0_4.rect t)).set ↔ _
  rw [View.set_slice_whole, Rect.mem_set_unit]
  exact Iff.rfl

/-- The one write-back of output 4, after the last point, writes the whole row of column sums: any row `G` that reads,
    at column `q`, as that sum over all the nodes. -/
theorem flushed0_4 (c : Dev nD) (G : S1x128.Idx → EReal)
    (hG : ∀ (u : Fin 1) (q : Fin 128), G (ix2 u q) = ∑ p : Fin 50000, linOf0 V c (ix2 p q))
    (t : Fin cfg0.N) (hf : (cfg0.win 4).flush t = true) :
    (dat0 V c).flushed 4 t = ((cfg0.win 4).blk t).view.read (Elt Ideal) G := by
  have h9 : t.val = 9 := by have := (flush0_4 t).mp hf; have := lt_N0 t; omega
  obtain ⟨-, -, -, -, -, -, -, -, e40, e41, e50, e51⟩ := idx0_facts t
  show (cfg0.win 4).cut (grid0.coords t) ((dat0 V c).after 4 t) = _
  rw [after0_4]
  funext j
  rw [View.read_apply]
  have hj : (j : S1x128.Idx) = ix2 ((j : S1x128.Idx) 0) ((j : S1x128.Idx) 1) := eq_ix2 (j : S1x128.Idx)
  have hemb : ((cfg0.win 4).blk t).view.emb j = ix2 ((j : S1x128.Idx) 0) ((j : S1x128.Idx) 1) := funext fun a => Fin.ext (by
    match a with
    | ⟨0, _⟩ => show win0_4.index t (0 : Fin 2) * 1 + 1 * ((j : S1x128.Idx) 0).val = ((j : S1x128.Idx) 0).val; rw [e40]; omega
    | ⟨1, _⟩ => show win0_4.index t (1 : Fin 2) * 128 + 1 * ((j : S1x128.Idx) 1).val = ((j : S1x128.Idx) 1).val; rw [e41]; omega)
  refine Eq.trans ?_ (congrArg G hemb).symm
  refine Eq.trans ?_ (hG _ _).symm
  show ((outsAt0 V c t.val t.isLt).2.1 : S1x128.Idx → EReal) j = _
  refine (congrArg ((outsAt0 V c t.val t.isLt).2.1 : S1x128.Idx → EReal) hj).trans ?_
  refine ((inv0 V c t.val t.isLt).2.1 ((j : S1x128.Idx) 0) ((j : S1x128.Idx) 1)).trans ?_
  rw [h9, show 5000 * (9 + 1) = 50000 from by norm_num, Finset.sum_range]
  refine Finset.sum_congr rfl fun p _ => ?_
  unfold linRow0
  exact dif_pos p.isLt

/-- The last point's block is the whole one-row array. -/
theorem cover0_4 (i : S1x128.Idx) : ∃ t : Fin cfg0.N, (cfg0.win 4).flush t = true ∧ i ∈ ((cfg0.win 4).blk t).view.set := by
  have hN : cfg0.N = 10 := N_0
  have h0 : (i 0).val < 1 := (i 0).isLt
  have h1 : (i 1).val < 128 := (i 1).isLt
  have ht : 9 < cfg0.N := by omega
  obtain ⟨-, -, -, -, -, -, -, -, e40, e41, e50, e51⟩ := idx0_facts ⟨9, ht⟩
  refine ⟨⟨9, ht⟩, (flush0_4 ⟨9, ht⟩).mpr (by norm_num), ?_⟩
  rw [mem_blk0_4]
  intro a
  match a with
  | ⟨0, _⟩ => show win0_4.index ⟨9, ht⟩ (0 : Fin 2) * 1 ≤ (i 0).val ∧ (i 0).val < win0_4.index ⟨9, ht⟩ (0 : Fin 2) * 1 + 1; rw [e40]; omega
  | ⟨1, _⟩ => show win0_4.index ⟨9, ht⟩ (1 : Fin 2) * 128 ≤ (i 1).val ∧ (i 1).val < win0_4.index ⟨9, ht⟩ (1 : Fin 2) * 128 + 128; rw [e41]; omega

/-- An index of output 5's one-row array is in point `t`'s block iff each coordinate is in the block's range. -/
theorem mem_blk0_5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v35_2).slice (win0_5.rect t)).set ↔ _
  rw [View.set_slice_whole, Rect.mem_set_unit]
  exact Iff.rfl

/-- The one write-back of output 5, after the last point, writes the whole row of column sums of squares: any row `G` that reads,
    at column `q`, as that sum over all the nodes. -/
theorem flushed0_5 (c : Dev nD) (G : S1x128.Idx → EReal)
    (hG : ∀ (u : Fin 1) (q : Fin 128), G (ix2 u q) = ∑ p : Fin 50000, linOf0 V c (ix2 p q) * linOf0 V c (ix2 p q))
    (t : Fin cfg0.N) (hf : (cfg0.win 5).flush t = true) :
    (dat0 V c).flushed 5 t = ((cfg0.win 5).blk t).view.read (Elt Ideal) G := by
  have h9 : t.val = 9 := by have := (flush0_5 t).mp hf; have := lt_N0 t; omega
  obtain ⟨-, -, -, -, -, -, -, -, e40, e41, e50, e51⟩ := idx0_facts t
  show (cfg0.win 5).cut (grid0.coords t) ((dat0 V c).after 5 t) = _
  rw [after0_5]
  funext j
  rw [View.read_apply]
  have hj : (j : S1x128.Idx) = ix2 ((j : S1x128.Idx) 0) ((j : S1x128.Idx) 1) := eq_ix2 (j : S1x128.Idx)
  have hemb : ((cfg0.win 5).blk t).view.emb j = ix2 ((j : S1x128.Idx) 0) ((j : S1x128.Idx) 1) := funext fun a => Fin.ext (by
    match a with
    | ⟨0, _⟩ => show win0_5.index t (0 : Fin 2) * 1 + 1 * ((j : S1x128.Idx) 0).val = ((j : S1x128.Idx) 0).val; rw [e50]; omega
    | ⟨1, _⟩ => show win0_5.index t (1 : Fin 2) * 128 + 1 * ((j : S1x128.Idx) 1).val = ((j : S1x128.Idx) 1).val; rw [e51]; omega)
  refine Eq.trans ?_ (congrArg G hemb).symm
  refine Eq.trans ?_ (hG _ _).symm
  show ((outsAt0 V c t.val t.isLt).2.2 : S1x128.Idx → EReal) j = _
  refine (congrArg ((outsAt0 V c t.val t.isLt).2.2 : S1x128.Idx → EReal) hj).trans ?_
  refine ((inv0 V c t.val t.isLt).2.2 ((j : S1x128.Idx) 0) ((j : S1x128.Idx) 1)).trans ?_
  rw [h9, show 5000 * (9 + 1) = 50000 from by norm_num, Finset.sum_range]
  refine Finset.sum_congr rfl fun p _ => ?_
  unfold linRow0
  exact congrArg₂ (· * ·) (dif_pos p.isLt) (dif_pos p.isLt)

/-- The last point's block is the whole one-row array. -/
theorem cover0_5 (i : S1x128.Idx) : ∃ t : Fin cfg0.N, (cfg0.win 5).flush t = true ∧ i ∈ ((cfg0.win 5).blk t).view.set := by
  have hN : cfg0.N = 10 := N_0
  have h0 : (i 0).val < 1 := (i 0).isLt
  have h1 : (i 1).val < 128 := (i 1).isLt
  have ht : 9 < cfg0.N := by omega
  obtain ⟨-, -, -, -, -, -, -, -, e40, e41, e50, e51⟩ := idx0_facts ⟨9, ht⟩
  refine ⟨⟨9, ht⟩, (flush0_5 ⟨9, ht⟩).mpr (by norm_num), ?_⟩
  rw [mem_blk0_5]
  intro a
  match a with
  | ⟨0, _⟩ => show win0_5.index ⟨9, ht⟩ (0 : Fin 2) * 1 ≤ (i 0).val ∧ (i 0).val < win0_5.index ⟨9, ht⟩ (0 : Fin 2) * 1 + 1; rw [e50]; omega
  | ⟨1, _⟩ => show win0_5.index ⟨9, ht⟩ (1 : Fin 2) * 128 ≤ (i 1).val ∧ (i 1).val < win0_5.index ⟨9, ht⟩ (1 : Fin 2) * 128 + 128; rw [e51]; omega

/-- THE SECOND RESULT ARRAY ends holding the column sums of that linear map. -/
theorem sum_arr0 (c : Dev nD) : (dat0 (F := Ideal) V c).arrAt 4 cfg0.N
    = Cert.Gcn.colSum (Cert.Gcn.lin (V c (Pipeline.arrRef spec0 0)) (V c (Pipeline.arrRef spec0 1)) (V c (Pipeline.arrRef spec0 2))) :=
  (dat0 V c).arrAt_eq_of_cover 4 (Cert.Gcn.colSum (linOf0 V c)) (flushed0_4 V c _ fun _ _ => rfl) cover0_4

/-- THE THIRD RESULT ARRAY ends holding its column sums of squares. -/
theorem sumsq_arr0 (c : Dev nD) : (dat0 (F := Ideal) V c).arrAt 5 cfg0.N
    = Cert.Gcn.colSumSq (Cert.Gcn.lin (V c (Pipeline.arrRef spec0 0)) (V c (Pipeline.arrRef spec0 1)) (V c (Pipeline.arrRef spec0 2))) :=
  (dat0 V c).arrAt_eq_of_cover 5 (Cert.Gcn.colSumSq (linOf0 V c)) (flushed0_5 V c _ fun _ _ => rfl) cover0_5

end Cert.KernelIdeal.RegionLin
end
-- ==== Proof.RegionLinPieces2.lean ====
import proofs.«180731_j65910568124789_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionLin

open Cert.KernelIdeal Cert.KernelIdeal.Gen

variable {F : FTy → Type} [FloatOps F]

theorem hz2 : (![0, 0] : Fin 2 → Nat) = fun _ => 0 := funext fun a => by fin_cases a <;> rfl

/-! # What each control case leaves in the three outputs' staging buffers, as the payload terms of the loaded blocks -/

/-- Later points: the linear map's block is the payload of the three input blocks. -/
theorem outB2_3 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S128x128 .f32) (x2 : Vec F S1x128 .f32) (xo4 xo5 : Vec F S1x128 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  try sl_unfold_words
  rw [View.canon_unit_zero hz2]
  simp only [View.readAt_eq_ld, h1.read_unread, h2.read_unread, h3.read_unread, h5.read_unread, h6.read_unread, View.ld_unit_zero (S := S5000x128) hz2, View.ld_unit_zero (S := S128x128) hz2, View.ld_unit_zero (S := S1x128) hz2]

/-- Later points: the running column sums are the previous ones plus this block's. -/
theorem outB2_4 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S128x128 .f32) (x2 : Vec F S1x128 .f32) (xo4 xo5 : Vec F S1x128 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  try sl_unfold_words
  rw [View.canon_unit_zero hz2]
  simp only [View.readAt_eq_ld, h1.read_unread, h2.read_unread, h3.read_unread, h5.read_unread, h6.read_unread, View.ld_unit_zero (S := S5000x128) hz2, View.ld_unit_zero (S := S128x128) hz2, View.ld_unit_zero (S := S1x128) hz2]

/-- Later points: the running column sums of squares likewise. -/
theorem outB2_5 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S5000x128 .f32) (x1 : Vec F S128x128 .f32) (x2 : Vec F S1x128 .f32) (xo4 xo5 : Vec F S1x128 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  try sl_unfold_words
  rw [View.canon_unit_zero hz2]
  simp only [View.readAt_eq_ld, h1.read_unread, h2.read_unread, h3.read_unread, h5.read_unread, h6.read_unread, View.ld_unit_zero (S := S5000x128) hz2, View.ld_unit_zero (S := S128x128) hz2, View.ld_unit_zero (S := S1x128) hz2]

/-- The first point: the linear map's block. -/
theorem outA2_3 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S128x128 .f32) (x2 : Vec F S1x128 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  try sl_unfold_words
  rw [View.canon_unit_zero hz2]
  simp only [View.readAt_eq_ld, h1.read_unread, h2.read_unread, h3.read_unread, View.ld_unit_zero (S := S5000x128) hz2, View.ld_unit_zero (S := S128x128) hz2, View.ld_unit_zero (S := S1x128) hz2]

/-- The first point: the zero row is stored, read back, and this block's column sums added to it. -/
theorem outA2_4 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S128x128 .f32) (x2 : Vec F S1x128 .f32) :
    out2_A_4 c i a1 h1 a2 h2 a3 h3 a4 h4 a5 h5 a6 h6 hc x0 x1 x2 = k2_pay4 x0 x1 x2 (k2_pay1 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, View.ld_unit_zero (S := S5000x128) hz2, View.ld_unit_zero (S := S128x128) hz2, View.ld_unit_zero (S := S1x128) hz2]

/-- The first point: the sums of squares likewise. -/
theorem outA2_5 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond2_0 i) (x0 : Vec F S5000x128 .f32) (x1 : Vec F S128x128 .f32) (x2 : Vec F S1x128 .f32) :
    out2_A_5 c i a1 h1 a2 h2 a3 h3 a4 h4 a5 h5 a6 h6 hc x0 x1 x2 = k2_pay5 x0 x1 x2 (k2_pay2 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, View.ld_unit_zero (S := S5000x128) hz2, View.ld_unit_zero (S := S128x128) hz2, View.ld_unit_zero (S := S1x128) hz2]

end Cert.KernelIdeal.RegionLin
end
-- ==== Proof.RegionLinPay2.lean ====
import proofs.«180731_j65910568124789_1_alg».proof.Proof.Gen.KernelIdeal.Skeleton
import proofs.«180731_j65910568124789_1_alg».proof.Proof.LibMatmulRead
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.RegionLin

open Cert.KernelIdeal Cert.KernelIdeal.Gen

/-! # The body's three stored values read entry by entry over the extended reals -/

/-- The stored block of the linear map at row `r`, column `q`: row `r` of the node block times column `q` of the
    weights, plus the bias entry of column `q`. -/
theorem pay2_lin_apply (x0 : FVec Ideal S5000x128 .f32) (x1 : FVec Ideal S128x128 .f32) (x2 : FVec Ideal S1x128 .f32)
    (r : Fin 5000) (q : Fin 128) :
    k2_pay3 (F := Ideal) x0 x1 x2 (ix2 r q) = (∑ d : Fin 128, x0 (ix2 r d) * x1 (ix2 d q)) + x2 (ix2 (0 : Fin 1) q) := by
  unfold k2_pay3
  refine congrArg₂ (· + ·) ?_ ?_
  · refine (matmul_ix2_apply dot_S5000x128_S128x128_S5000x128_1_0_0_1_n_n rfl rfl rfl rfl rfl rfl none _ _ r q).trans ?_
    refine Finset.sum_congr rfl fun d _ => ?_
    refine congrArg₂ (· * ·) ?_ rfl
    exact congrFun (shapeCast_self x0 shapeCasts_S5000x128_S5000x128) (ix2 r d)
  · refine (broadcastTo_1b_ab_apply _ broadcasts_S1x128_S5000x128 r q).trans ?_
    exact congrFun (shapeCast_self x2 shapeCasts_S1x128_S1x128) (ix2 (0 : Fin 1) q)

/-- The index a column sum reads at row `k` of column `q`. -/
theorem lift2_col (q : Fin 128) (k : Fin 5000) :
    (reduces_S5000x128_S128.lift (ix1 q) k : S5000x128.Idx) = ix2 k q :=
  funext fun a => Fin.ext (by
    match a with
    | ⟨0, _⟩ => rfl
    | ⟨1, _⟩ => rfl)

/-- A column sum of a block, kept as a row, read at column `q`. -/
theorem colsum2_apply (v : FVec Ideal S5000x128 .f32) (hφ : FKind.Formats .f32) (hacc : (0x00000000#32 : BitVec 32) = 0x00000000#32)
    (u : Fin 1) (q : Fin 128) :
    shapeCast S1x128 (multiReduction (F := Ideal) .add [0] S128 v 0x00000000#32 reduces_S5000x128_S128 hφ hacc) shapeCasts_S128_S1x128 (ix2 u q)
      = ∑ r : Fin 5000, v (ix2 r q) := by
  refine (shapeCast_a_1a_apply _ shapeCasts_S128_S1x128 u q).trans ?_
  refine (Ideal.multiReduction_add_single v 0x00000000#32 reduces_S5000x128_S128 hφ hacc (ix1 q)).trans ?_
  exact Finset.sum_congr rfl fun k _ => congrArg v (lift2_col q k)

/-- The stored running column sums at column `q`: what the row held plus the block's column sum of the linear map. -/
theorem pay2_sum_apply (x0 : FVec Ideal S5000x128 .f32) (x1 : FVec Ideal S128x128 .f32) (x2 : FVec Ideal S1x128 .f32)
    (acc : FVec Ideal S1x128 .f32) (u : Fin 1) (q : Fin 128) :
    k2_pay4 (F := Ideal) x0 x1 x2 acc (ix2 u q)
      = acc (ix2 u q) + ∑ r : Fin 5000, k2_pay3 (F := Ideal) x0 x1 x2 (ix2 r q) := by
  unfold k2_pay4
  refine congrArg₂ (· + ·) ?_ ?_
  · exact congrFun (shapeCast_self acc shapeCasts_S1x128_S1x128) (ix2 u q)
  · exact colsum2_apply _ _ _ u q

/-- The stored running column sums of squares at column `q`. -/
theorem pay2_sumsq_apply (x0 : FVec Ideal S5000x128 .f32) (x1 : FVec Ideal S128x128 .f32) (x2 : FVec Ideal S1x128 .f32)
    (acc : FVec Ideal S1x128 .f32) (u : Fin 1) (q : Fin 128) :
    k2_pay5 (F := Ideal) x0 x1 x2 acc (ix2 u q)
      = acc (ix2 u q) + ∑ r : Fin 5000, k2_pay3 (F := Ideal) x0 x1 x2 (ix2 r q) * k2_pay3 (F := Ideal) x0 x1 x2 (ix2 r q) := by
  unfold k2_pay5
  refine congrArg₂ (· + ·) ?_ ?_
  · exact congrFun (shapeCast_self acc shapeCasts_S1x128_S1x128) (ix2 u q)
  · exact colsum2_apply _ _ _ u q

/-- The row of zeros the first point stores, read at an entry. -/
theorem pay2_zero1_apply (u : Fin 1) (q : Fin 128) : k2_pay1 (F := Ideal) (ix2 u q) = 0 := Ideal.ofBits_zero_f32
theorem pay2_zero2_apply (u : Fin 1) (q : Fin 128) : k2_pay2 (F := Ideal) (ix2 u q) = 0 := Ideal.ofBits_zero_f32

end Cert.KernelIdeal.RegionLin
end
-- ==== Proof.RegionLinInv2.lean ====
import proofs.«180731_j65910568124789_1_alg».proof.Proof.Spec
import proofs.«180731_j65910568124789_1_alg».proof.Proof.RegionLinPieces2
import proofs.«180731_j65910568124789_1_alg».proof.Proof.RegionLinPay2

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionLin

open Cert.KernelIdeal Cert.KernelIdeal.Gen

variable (V : (c : Dev nD) → (b : Ref sig .tc) → Buf (Elt Ideal) ((c : Thread nD τ).loc b))

/-! # The accumulating linear kernel: its three result arrays as the linear map, its column sums and its column
    sums of squares, of the three arrays the region finds -/

/-- The node array the region finds. -/
abbrev nodeArr2 (c : Dev nD) : Cert.Gcn.SN.Idx → EReal := V c (Pipeline.arrRef spec2 0)
/-- The weights the region finds. -/
abbrev weightArr2 (c : Dev nD) : Cert.Gcn.SW.Idx → EReal := V c (Pipeline.arrRef spec2 1)
/-- The bias row the region finds. -/
abbrev biasArr2 (c : Dev nD) : Cert.Gcn.SR.Idx → EReal := V c (Pipeline.arrRef spec2 2)
/-- The linear map of the three. -/
abbrev linOf2 (c : Dev nD) : Cert.Gcn.SN.Idx → EReal :=
  Cert.Gcn.lin (nodeArr2 V c) (weightArr2 V c) (biasArr2 V c)

/-- The same, with the node row a natural number (zero past the last node): the form the running sums are stated in. -/
def linRow2 (c : Dev nD) (p : ℕ) (q : Fin 128) : EReal :=
  if h : p < 50000 then linOf2 V c (ix2 (⟨p, h⟩ : Fin 50000) q) else 0

/-! ## The index maps, decided over the grid -/

theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem lt_N2 (t : Fin cfg2.N) : t.val < 10 := by
  have h : cfg2.N = 10 := N_2
  have := t.isLt
  omega

/-! ## The input blocks read entry by entry -/

/-- The node block at point `t`, row `r`: row `5000 t + r` of the node array. -/
theorem blk2_0_apply (c : Dev nD) (t : Fin cfg2.N) (r : Fin 5000) (d : Fin 128) (hp : 5000 * t.val + r.val < 50000) :
    (iblk2 V c 0 t : S5000x128.Idx → EReal) (ix2 r d)
      = nodeArr2 V c (ix2 (⟨5000 * t.val + r.val, hp⟩ : Fin 50000) d) := by
  obtain ⟨e0, e1, -⟩ := idx2_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * d.val = d.val; rw [e1]; omega

/-- The weight block at every point is the weight array. -/
theorem blk2_1_apply (c : Dev nD) (t : Fin cfg2.N) (d : Fin 128) (q : Fin 128) :
    (iblk2 V c 1 t : S128x128.Idx → EReal) (ix2 d q)
      = weightArr2 V c (ix2 d q) := by
  obtain ⟨-, -, e0, e1, -⟩ := idx2_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * d.val = d.val; rw [e0]; omega
  | ⟨1, _⟩ => show win2_1.index t (1 : Fin 2) * 128 + 1 * q.val = q.val; rw [e1]; omega

/-- The bias block at every point is the bias row. -/
theorem blk2_2_apply (c : Dev nD) (t : Fin cfg2.N) (u : Fin 1) (q : Fin 128) :
    (iblk2 V c 2 t : S1x128.Idx → EReal) (ix2 u q)
      = biasArr2 V c (ix2 u q) := by
  obtain ⟨-, -, -, -, e0, e1, -⟩ := idx2_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * u.val = u.val; rw [e0]; omega
  | ⟨1, _⟩ => show win2_2.index t (1 : Fin 2) * 128 + 1 * q.val = q.val; rw [e1]; omega

/-- The stored block of point `t` at row `r` is the linear map at node row `5000 t + r`. -/
theorem pay2_lin_at (c : Dev nD) (t : Fin cfg2.N) (r : Fin 5000) (q : Fin 128) :
    k2_pay3 (F := Ideal) (iblk2 V c 0 t) (iblk2 V c 1 t) (iblk2 V c 2 t) (ix2 r q) = linRow2 V c (5000 * t.val + r.val) q := by
  have ht := lt_N2 t
  have hp : 5000 * t.val + r.val < 50000 := by have := r.isLt; omega
  unfold linRow2
  rw [dif_pos hp]
  refine (pay2_lin_apply (iblk2 V c 0 t) (iblk2 V c 1 t) (iblk2 V c 2 t) r q).trans ?_
  show _ = (∑ d : Fin 128, nodeArr2 V c (ix2 (⟨5000 * t.val + r.val, hp⟩ : Fin 50000) d) * weightArr2 V c (ix2 d q))
    + biasArr2 V c (ix2 (0 : Fin 1) q)
  refine congrArg₂ (· + ·) (Finset.sum_congr rfl fun d _ => congrArg₂ (· * ·) ?_ ?_) ?_
  · exact blk2_0_apply V c t r d hp
  · exact blk2_1_apply V c t d q
  · exact blk2_2_apply V c t 0 q

/-! ## What the outputs' staging buffers hold after each point -/

theorem at2_A (c : Dev nD) (t : Fin cfg2.N) (h0 : t.val % 10 = 0) :
    outsAt2 V c t.val t.isLt = (k2_pay3 (iblk2 V c 0 t) (iblk2 V c 1 t) (iblk2 V c 2 t), k2_pay4 (iblk2 V c 0 t) (iblk2 V c 1 t) (iblk2 V c 2 t) (k2_pay1 (F := Ideal)), k2_pay5 (iblk2 V c 0 t) (iblk2 V c 1 t) (iblk2 V c 2 t) (k2_pay2 (F := Ideal))) :=
  (outsAt2_A V c t h0).trans (congrArg₂ Prod.mk
    (outA2_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
    (congrArg₂ Prod.mk
      (outA2_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
      (outA2_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))))

theorem at2_B (c : Dev nD) (t : Fin cfg2.N) (h0 : ¬t.val % 10 = 0) :
    outsAt2 V c t.val t.isLt = (k2_pay3 (iblk2 V c 0 t) (iblk2 V c 1 t) (iblk2 V c 2 t),
      k2_pay4 (iblk2 V c 0 t) (iblk2 V c 1 t) (iblk2 V c 2 t) (outsAt2 V c (t.val - 1) (Nat.lt_of_le_of_lt (Nat.sub_le _ _) t.isLt)).2.1,
      k2_pay5 (iblk2 V c 0 t) (iblk2 V c 1 t) (iblk2 V c 2 t) (outsAt2 V c (t.val - 1) (Nat.lt_of_le_of_lt (Nat.sub_le _ _) t.isLt)).2.2) :=
  (outsAt2_B V c t h0).trans (congrArg₂ Prod.mk
    (outB2_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (outB2_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
      (outB2_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)))

/-- THE INVARIANT. After point `n`: the first output's buffer holds rows `5000 n … 5000 n + 4999` of the linear
    map, the second the column sums of its rows below `5000 (n + 1)`, the third the column sums of their squares. -/
theorem inv2 (c : Dev nD) : ∀ (n : ℕ) (hn : n < cfg2.N),
    (∀ (r : Fin 5000) (q : Fin 128), ((outsAt2 V c n hn).1 : S5000x128.Idx → EReal) (ix2 r q) = linRow2 V c (5000 * n + r.val) q)
    ∧ (∀ (u : Fin 1) (q : Fin 128), ((outsAt2 V c n hn).2.1 : S1x128.Idx → EReal) (ix2 u q) = ∑ p ∈ Finset.range (5000 * (n + 1)), linRow2 V c p q)
    ∧ (∀ (u : Fin 1) (q : Fin 128), ((outsAt2 V c n hn).2.2 : S1x128.Idx → EReal) (ix2 u q)
        = ∑ p ∈ Finset.range (5000 * (n + 1)), linRow2 V c p q * linRow2 V c p q)
  | 0, hn => by
    have e : outsAt2 V c 0 hn = _ := at2_A V c ⟨0, hn⟩ (Nat.zero_mod _)
    rw [e]
    refine ⟨fun r q => pay2_lin_at V c ⟨0, hn⟩ r q, fun u q => ?_, fun u q => ?_⟩
    · refine (pay2_sum_apply _ _ _ _ u q).trans ?_
      rw [pay2_zero1_apply, zero_add, Finset.sum_range]
      exact Finset.sum_congr rfl fun r _ => (pay2_lin_at V c ⟨0, hn⟩ r q).trans (by rw [Nat.mul_zero, Nat.zero_add])
    · refine (pay2_sumsq_apply _ _ _ _ u q).trans ?_
      rw [pay2_zero2_apply, zero_add, Finset.sum_range]
      exact Finset.sum_congr rfl fun r _ => by
        rw [pay2_lin_at V c ⟨0, hn⟩ r q]
        show linRow2 V c (5000 * 0 + r.val) q * linRow2 V c (5000 * 0 + r.val) q = _
        rw [Nat.mul_zero, Nat.zero_add]
  | n + 1, hn => by
    have hB : ¬(⟨n + 1, hn⟩ : Fin cfg2.N).val % 10 = 0 := by
      have := lt_N2 ⟨n + 1, hn⟩
      dsimp only at this ⊢
      omega
    have e : outsAt2 V c (n + 1) hn = _ := at2_B V c ⟨n + 1, hn⟩ hB
    obtain ⟨-, ih4, ih5⟩ := inv2 c n (Nat.lt_of_succ_lt hn)
    rw [e]
    refine ⟨fun r q => pay2_lin_at V c ⟨n + 1, hn⟩ r q, fun u q => ?_, fun u q => ?_⟩
    · refine (pay2_sum_apply _ _ _ _ u q).trans ?_
      rw [show 5000 * (n + 1 + 1) = 5000 * (n + 1) + 5000 from by omega, Finset.sum_range_add, Finset.sum_range (fun x => linRow2 V c (5000 * (n + 1) + x) q)]
      refine congrArg₂ (· + ·) (ih4 u q) (Finset.sum_congr rfl fun r _ => pay2_lin_at V c ⟨n + 1, hn⟩ r q)
    · refine (pay2_sumsq_apply _ _ _ _ u q).trans ?_
      rw [show 5000 * (n + 1 + 1) = 5000 * (n + 1) + 5000 from by omega, Finset.sum_range_add,
        Finset.sum_range (fun x => linRow2 V c (5000 * (n + 1) + x) q * linRow2 V c (5000 * (n + 1) + x) q)]
      refine congrArg₂ (· + ·) (ih5 u q) (Finset.sum_congr rfl fun r _ => ?_)
      rw [pay2_lin_at V c ⟨n + 1, hn⟩ r q]

end Cert.KernelIdeal.RegionLin
end
-- ==== Proof.RegionLin2.lean ====
import proofs.«180731_j65910568124789_1_alg».proof.Proof.RegionLinInv2

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionLin

open Cert.KernelIdeal Cert.KernelIdeal.Gen

variable (V : (c : Dev nD) → (b : Ref sig .tc) → Buf (Elt Ideal) ((c : Thread nD τ).loc b))

/-! # From the blocks to the arrays: what each result array holds when the region ends -/

/-! ## The linear map: ten row blocks tile the array -/

/-- An index of the node-sized array is in point `t`'s block iff each coordinate is in the block's range. -/
theorem mem_blk2_3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v58_0).slice (win2_3.rect t)).set ↔ _
  rw [View.set_slice_whole, Rect.mem_set_unit]
  exact Iff.rfl

/-- What point `t` writes back is block `t` of the linear map. -/
theorem flushed2_3 (c : Dev nD) (t : Fin cfg2.N) (hf : (cfg2.win 3).flush t = true) :
    (dat2 V c).flushed 3 t = ((cfg2.win 3).blk t).view.read (Elt Ideal) (linOf2 V c) := by
  have ht := lt_N2 t
  obtain ⟨-, -, -, -, -, -, e0, e1, -⟩ := idx2_facts t
  show (cfg2.win 3).cut (grid2.coords t) ((dat2 V c).after 3 t) = _
  rw [after2_3]
  funext j
  rw [View.read_apply]
  show ((outsAt2 V c t.val t.isLt).1 : S5000x128.Idx → EReal) j = linOf2 V c (((cfg2.win 3).blk t).view.emb j)
  have hj : (j : S5000x128.Idx) = ix2 ((j : S5000x128.Idx) 0) ((j : S5000x128.Idx) 1) := eq_ix2 (j : S5000x128.Idx)
  have hr : ((j : S5000x128.Idx) 0).val < 5000 := idx2_lt0 (j : S5000x128.Idx)
  have hp : 5000 * t.val + ((j : S5000x128.Idx) 0).val < 50000 := by omega
  refine (congrArg ((outsAt2 V c t.val t.isLt).1 : S5000x128.Idx → EReal) hj).trans ?_
  refine ((inv2 V c t.val t.isLt).1 ((j : S5000x128.Idx) 0) ((j : S5000x128.Idx) 1)).trans ?_
  unfold linRow2
  refine (dif_pos hp).trans (congrArg (linOf2 V c) (funext fun a => Fin.ext ?_))
  match a with
  | ⟨0, _⟩ => show 5000 * t.val + ((j : S5000x128.Idx) 0).val = win2_3.index t (0 : Fin 2) * 5000 + 1 * ((j : S5000x128.Idx) 0).val; rw [e0]; omega
  | ⟨1, _⟩ => show ((j : S5000x128.Idx) 1).val = win2_3.index t (1 : Fin 2) * 128 + 1 * ((j : S5000x128.Idx) 1).val; rw [e1]; omega

/-- Row `p` is in the block of point `p / 5000`. -/
theorem cover2_3 (i : S50000x128.Idx) : ∃ t : Fin cfg2.N, (cfg2.win 3).flush t = true ∧ i ∈ ((cfg2.win 3).blk t).view.set := by
  have hN : cfg2.N = 10 := N_2
  have h0 : (i 0).val < 50000 := (i 0).isLt
  have h1 : (i 1).val < 128 := (i 1).isLt
  have ht : (i 0).val / 5000 < cfg2.N := by omega
  obtain ⟨-, -, -, -, -, -, e0, e1, -⟩ := idx2_facts ⟨(i 0).val / 5000, ht⟩
  refine ⟨⟨(i 0).val / 5000, ht⟩, flush2_3 _, ?_⟩
  rw [mem_blk2_3]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; rw [e0]; dsimp only; omega
  | ⟨1, _⟩ => show win2_3.index ⟨(i 0).val / 5000, ht⟩ (1 : Fin 2) * 128 ≤ (i 1).val ∧ (i 1).val < win2_3.index ⟨(i 0).val / 5000, ht⟩ (1 : Fin 2) * 128 + 128; rw [e1]; omega

/-- THE FIRST RESULT ARRAY ends holding the linear map of the three arrays the region finds. -/
theorem lin_arr2 (c : Dev nD) : (dat2 (F := Ideal) V c).arrAt 3 cfg2.N
    = Cert.Gcn.lin (V c (Pipeline.arrRef spec2 0)) (V c (Pipeline.arrRef spec2 1)) (V c (Pipeline.arrRef spec2 2)) :=
  (dat2 V c).arrAt_eq_of_cover 3 (linOf2 V c) (flushed2_3 V c) cover2_3

/-! ## The column sums and the column sums of squares: one row, written back after the last point -/

/-- An index of output 4's one-row array is in point `t`'s block iff each coordinate is in the block's range. -/
theorem mem_blk2_4 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole main_v58_1).slice (win2_4.rect t)).set ↔ _
  rw [View.set_slice_whole, Rect.mem_set_unit]
  exact Iff.rfl

/-- The one write-back of output 4, after the last point, writes the whole row of column sums: any row `G` that reads,
    at column `q`, as that sum over all the nodes. -/
theorem flushed2_4 (c : Dev nD) (G : S1x128.Idx → EReal)
    (hG : ∀ (u : Fin 1) (q : Fin 128), G (ix2 u q) = ∑ p : Fin 50000, linOf2 V c (ix2 p q))
    (t : Fin cfg2.N) (hf : (cfg2.win 4).flush t = true) :
    (dat2 V c).flushed 4 t = ((cfg2.win 4).blk t).view.read (Elt Ideal) G := by
  have h9 : t.val = 9 := by have := (flush2_4 t).mp hf; have := lt_N2 t; omega
  obtain ⟨-, -, -, -, -, -, -, -, e40, e41, e50, e51⟩ := idx2_facts t
  show (cfg2.win 4).cut (grid2.coords t) ((dat2 V c).after 4 t) = _
  rw [after2_4]
  funext j
  rw [View.read_apply]
  have hj : (j : S1x128.Idx) = ix2 ((j : S1x128.Idx) 0) ((j : S1x128.Idx) 1) := eq_ix2 (j : S1x128.Idx)
  have hemb : ((cfg2.win 4).blk t).view.emb j = ix2 ((j : S1x128.Idx) 0) ((j : S1x128.Idx) 1) := funext fun a => Fin.ext (by
    match a with
    | ⟨0, _⟩ => show win2_4.index t (0 : Fin 2) * 1 + 1 * ((j : S1x128.Idx) 0).val = ((j : S1x128.Idx) 0).val; rw [e40]; omega
    | ⟨1, _⟩ => show win2_4.index t (1 : Fin 2) * 128 + 1 * ((j : S1x128.Idx) 1).val = ((j : S1x128.Idx) 1).val; rw [e41]; omega)
  refine Eq.trans ?_ (congrArg G hemb).symm
  refine Eq.trans ?_ (hG _ _).symm
  show ((outsAt2 V c t.val t.isLt).2.1 : S1x128.Idx → EReal) j = _
  refine (congrArg ((outsAt2 V c t.val t.isLt).2.1 : S1x128.Idx → EReal) hj).trans ?_
  refine ((inv2 V c t.val t.isLt).2.1 ((j : S1x128.Idx) 0) ((j : S1x128.Idx) 1)).trans ?_
  rw [h9, show 5000 * (9 + 1) = 50000 from by norm_num, Finset.sum_range]
  refine Finset.sum_congr rfl fun p _ => ?_
  unfold linRow2
  exact dif_pos p.isLt

/-- The last point's block is the whole one-row array. -/
theorem cover2_4 (i : S1x128.Idx) : ∃ t : Fin cfg2.N, (cfg2.win 4).flush t = true ∧ i ∈ ((cfg2.win 4).blk t).view.set := by
  have hN : cfg2.N = 10 := N_2
  have h0 : (i 0).val < 1 := (i 0).isLt
  have h1 : (i 1).val < 128 := (i 1).isLt
  have ht : 9 < cfg2.N := by omega
  obtain ⟨-, -, -, -, -, -, -, -, e40, e41, e50, e51⟩ := idx2_facts ⟨9, ht⟩
  refine ⟨⟨9, ht⟩, (flush2_4 ⟨9, ht⟩).mpr (by norm_num), ?_⟩
  rw [mem_blk2_4]
  intro a
  match a with
  | ⟨0, _⟩ => show win2_4.index ⟨9, ht⟩ (0 : Fin 2) * 1 ≤ (i 0).val ∧ (i 0).val < win2_4.index ⟨9, ht⟩ (0 : Fin 2) * 1 + 1; rw [e40]; omega
  | ⟨1, _⟩ => show win2_4.index ⟨9, ht⟩ (1 : Fin 2) * 128 ≤ (i 1).val ∧ (i 1).val < win2_4.index ⟨9, ht⟩ (1 : Fin 2) * 128 + 128; rw [e41]; omega

/-- An index of output 5's one-row array is in point `t`'s block iff each coordinate is in the block's range. -/
theorem mem_blk2_5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v58_2).slice (win2_5.rect t)).set ↔ _
  rw [View.set_slice_whole, Rect.mem_set_unit]
  exact Iff.rfl

/-- The one write-back of output 5, after the last point, writes the whole row of column sums of squares: any row `G` that reads,
    at column `q`, as that sum over all the nodes. -/
theorem flushed2_5 (c : Dev nD) (G : S1x128.Idx → EReal)
    (hG : ∀ (u : Fin 1) (q : Fin 128), G (ix2 u q) = ∑ p : Fin 50000, linOf2 V c (ix2 p q) * linOf2 V c (ix2 p q))
    (t : Fin cfg2.N) (hf : (cfg2.win 5).flush t = true) :
    (dat2 V c).flushed 5 t = ((cfg2.win 5).blk t).view.read (Elt Ideal) G := by
  have h9 : t.val = 9 := by have := (flush2_5 t).mp hf; have := lt_N2 t; omega
  obtain ⟨-, -, -, -, -, -, -, -, e40, e41, e50, e51⟩ := idx2_facts t
  show (cfg2.win 5).cut (grid2.coords t) ((dat2 V c).after 5 t) = _
  rw [after2_5]
  funext j
  rw [View.read_apply]
  have hj : (j : S1x128.Idx) = ix2 ((j : S1x128.Idx) 0) ((j : S1x128.Idx) 1) := eq_ix2 (j : S1x128.Idx)
  have hemb : ((cfg2.win 5).blk t).view.emb j = ix2 ((j : S1x128.Idx) 0) ((j : S1x128.Idx) 1) := funext fun a => Fin.ext (by
    match a with
    | ⟨0, _⟩ => show win2_5.index t (0 : Fin 2) * 1 + 1 * ((j : S1x128.Idx) 0).val = ((j : S1x128.Idx) 0).val; rw [e50]; omega
    | ⟨1, _⟩ => show win2_5.index t (1 : Fin 2) * 128 + 1 * ((j : S1x128.Idx) 1).val = ((j : S1x128.Idx) 1).val; rw [e51]; omega)
  refine Eq.trans ?_ (congrArg G hemb).symm
  refine Eq.trans ?_ (hG _ _).symm
  show ((outsAt2 V c t.val t.isLt).2.2 : S1x128.Idx → EReal) j = _
  refine (congrArg ((outsAt2 V c t.val t.isLt).2.2 : S1x128.Idx → EReal) hj).trans ?_
  refine ((inv2 V c t.val t.isLt).2.2 ((j : S1x128.Idx) 0) ((j : S1x128.Idx) 1)).trans ?_
  rw [h9, show 5000 * (9 + 1) = 50000 from by norm_num, Finset.sum_range]
  refine Finset.sum_congr rfl fun p _ => ?_
  unfold linRow2
  exact congrArg₂ (· * ·) (dif_pos p.isLt) (dif_pos p.isLt)

/-- The last point's block is the whole one-row array. -/
theorem cover2_5 (i : S1x128.Idx) : ∃ t : Fin cfg2.N, (cfg2.win 5).flush t = true ∧ i ∈ ((cfg2.win 5).blk t).view.set := by
  have hN : cfg2.N = 10 := N_2
  have h0 : (i 0).val < 1 := (i 0).isLt
  have h1 : (i 1).val < 128 := (i 1).isLt
  have ht : 9 < cfg2.N := by omega
  obtain ⟨-, -, -, -, -, -, -, -, e40, e41, e50, e51⟩ := idx2_facts ⟨9, ht⟩
  refine ⟨⟨9, ht⟩, (flush2_5 ⟨9, ht⟩).mpr (by norm_num), ?_⟩
  rw [mem_blk2_5]
  intro a
  match a with
  | ⟨0, _⟩ => show win2_5.index ⟨9, ht⟩ (0 : Fin 2) * 1 ≤ (i 0).val ∧ (i 0).val < win2_5.index ⟨9, ht⟩ (0 : Fin 2) * 1 + 1; rw [e50]; omega
  | ⟨1, _⟩ => show win2_5.index ⟨9, ht⟩ (1 : Fin 2) * 128 ≤ (i 1).val ∧ (i 1).val < win2_5.index ⟨9, ht⟩ (1 : Fin 2) * 128 + 128; rw [e51]; omega

/-- THE SECOND RESULT ARRAY ends holding the column sums of that linear map. -/
theorem sum_arr2 (c : Dev nD) : (dat2 (F := Ideal) V c).arrAt 4 cfg2.N
    = Cert.Gcn.colSum (Cert.Gcn.lin (V c (Pipeline.arrRef spec2 0)) (V c (Pipeline.arrRef spec2 1)) (V c (Pipeline.arrRef spec2 2))) :=
  (dat2 V c).arrAt_eq_of_cover 4 (Cert.Gcn.colSum (linOf2 V c)) (flushed2_4 V c _ fun _ _ => rfl) cover2_4

/-- THE THIRD RESULT ARRAY ends holding its column sums of squares. -/
theorem sumsq_arr2 (c : Dev nD) : (dat2 (F := Ideal) V c).arrAt 5 cfg2.N
    = Cert.Gcn.colSumSq (Cert.Gcn.lin (V c (Pipeline.arrRef spec2 0)) (V c (Pipeline.arrRef spec2 1)) (V c (Pipeline.arrRef spec2 2))) :=
  (dat2 V c).arrAt_eq_of_cover 5 (Cert.Gcn.colSumSq (linOf2 V c)) (flushed2_5 V c _ fun _ _ => rfl) cover2_5

end Cert.KernelIdeal.RegionLin
end
-- ==== Proof.RegionBnBlocks1.lean ====
/-
  The normalise kernel of region 1, below the specification: the body's one stored value read at a row and a column of its
  block; the windows' index maps over the ten grid points (the two row-blocked inputs and the output move with the point,
  the four single rows stay); each input block read as rows of the array the region found; and which indices of the output
  array a point's block holds, with the point holding a given row.
-/
import proofs.«180731_j65910568124789_1_alg».proof.Proof.Gen.KernelIdeal.Frame
import Idealize.ShloMosaic.Lib.Pipeline.Value
import Idealize.ShloMosaic.Lib.ValueIdx

noncomputable section

namespace Cert.KernelIdeal.RegionBn

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as the constant function. -/
theorem hz : (![0, 0] : Fin 2 → Nat) = fun _ => 0 := funext fun a => by fin_cases a <;> rfl

/-- A row broadcast down the 5000 rows of a block reads the row at the column. -/
theorem bcastRow_apply (x : S1x128.Idx → EReal) (r : Fin 5000) (q : Fin 128) :
    broadcastTo S5000x128 x broadcasts_S1x128_S5000x128 (ix2 r q) = x (ix2 0 q) := by
  refine broadcastTo_apply x _ (ix2 r q) (ix2 0 q) fun a => ?_
  match a with
  | ⟨0, _⟩ => rfl
  | ⟨1, _⟩ => rfl

/-- The stored value at row r, column q: scale times (entry minus mean) times the reciprocal root of (variance plus the
    stabiliser), plus the shift, plus the residual, clamped at zero. -/
theorem pay1_apply (x0 x5 : Vec Ideal S5000x128 .f32) (x1 x2 x3 x4 : Vec Ideal S1x128 .f32) (r : Fin 5000) (q : Fin 128) :
    k1_pay1 x0 x2 x3 x1 x4 x5 (ix2 r q) =
      max ((x3 (ix2 0 q) : EReal) * (x0 (ix2 r q) - x1 (ix2 0 q)) * Ideal.rsqrt (x2 (ix2 0 q) + Ideal.ofBits .f32 0x3727C5AC#32)
        + x4 (ix2 0 q) + x5 (ix2 r q)) (Ideal.ofBits .f32 0x00000000#32) := by
  unfold k1_pay1
  simp only [shapeCast_self]
  rw [maximumf_apply, addf_apply, addf_apply, mulf_apply, mulf_apply, subf_apply]
  rw [bcastRow_apply, bcastRow_apply, bcastRow_apply, bcastRow_apply]
  rfl

section
variable (V : (c : Dev nD) → (b : Ref sig .tc) → Buf (Elt Ideal) ((c : Thread nD τ).loc b))

/-- The printed index maps over the ten points: windows 0, 5 and 6 take block (t, 0); windows 1 to 4 always block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at point t, at a block index, is the array's entry 5000·t rows further down. -/
theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c (Pipeline.arrRef spec1 0) : S50000x128.Idx → EReal) k := by
  obtain ⟨e0, e1, -⟩ := idx_facts1 t
  unfold iblk1
  rw [View.read_apply]
  refine congrArg (V c (Pipeline.arrRef spec1 0) : S50000x128.Idx → EReal) ?_
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- Window 1's block at every point is its whole one-row array. -/
theorem iblk1_1_eq (c : Dev nD) (t : Fin cfg1.N) :
    (iblk1 V c 1 t : Vec Ideal S1x128 .f32) = (V c (Pipeline.arrRef spec1 1) : S1x128.Idx → EReal) := by
  obtain ⟨-, -, e0, e1, -⟩ := idx_facts1 t
  funext x
  unfold iblk1
  rw [View.read_apply]
  refine congrArg (V c (Pipeline.arrRef spec1 1) : S1x128.Idx → EReal) ?_
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- Window 2's block at every point is its whole one-row array. -/
theorem iblk1_2_eq (c : Dev nD) (t : Fin cfg1.N) :
    (iblk1 V c 2 t : Vec Ideal S1x128 .f32) = (V c (Pipeline.arrRef spec1 2) : S1x128.Idx → EReal) := by
  obtain ⟨-, -, -, -, e0, e1, -⟩ := idx_facts1 t
  funext x
  unfold iblk1
  rw [View.read_apply]
  refine congrArg (V c (Pipeline.arrRef spec1 2) : S1x128.Idx → EReal) ?_
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- Window 3's block at every point is its whole one-row array. -/
theorem iblk1_3_eq (c : Dev nD) (t : Fin cfg1.N) :
    (iblk1 V c 3 t : Vec Ideal S1x128 .f32) = (V c (Pipeline.arrRef spec1 3) : S1x128.Idx → EReal) := by
  obtain ⟨-, -, -, -, -, -, e0, e1, -⟩ := idx_facts1 t
  funext x
  unfold iblk1
  rw [View.read_apply]
  refine congrArg (V c (Pipeline.arrRef spec1 3) : S1x128.Idx → EReal) ?_
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Window 4's block at every point is its whole one-row array. -/
theorem iblk1_4_eq (c : Dev nD) (t : Fin cfg1.N) :
    (iblk1 V c 4 t : Vec Ideal S1x128 .f32) = (V c (Pipeline.arrRef spec1 4) : S1x128.Idx → EReal) := by
  obtain ⟨-, -, -, -, -, -, -, -, e0, e1, -⟩ := idx_facts1 t
  funext x
  unfold iblk1
  rw [View.read_apply]
  refine congrArg (V c (Pipeline.arrRef spec1 4) : S1x128.Idx → EReal) ?_
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Window 5's block at point t, at a block index, is the array's entry 5000·t rows further down. -/
theorem iblk1_5_apply (c : Dev nD) (t : Fin cfg1.N) (x : S5000x128.Idx) (k : S50000x128.Idx)
    (hk0 : (k 0).val = 5000 * t.val + (x 0).val) (hk1 : (k 1).val = (x 1).val) :
    (iblk1 V c 5 t : Vec Ideal S5000x128 .f32) x = (V c (Pipeline.arrRef spec1 5) : S50000x128.Idx → EReal) k := by
  obtain ⟨-, -, -, -, -, -, -, -, -, -, e0, e1, -⟩ := idx_facts1 t
  unfold iblk1
  rw [View.read_apply]
  refine congrArg (V c (Pipeline.arrRef spec1 5) : S50000x128.Idx → EReal) ?_
  funext a
  apply Fin.ext
  match a with
  | ⟨0, _⟩ => show win1_5.index t (0 : Fin 2) * 5000 + 1 * (x 0).val = (k 0).val; rw [e0, hk0]; omega
  | ⟨1, _⟩ => show win1_5.index t (1 : Fin 2) * 128 + 1 * (x 1).val = (k 1).val; rw [e1, hk1]; omega

/-- The grid has ten points. -/
theorem lt_N1 (t : Fin cfg1.N) : t.val < 10 := lt_of_lt_of_eq t.isLt N_1
/-- An index of the array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43).slice (win1_6.rect t)).set ↔ _
  rw [View.set_slice_whole, Rect.mem_set_unit]
  exact Iff.rfl

/-- Every row of the array is in the block of the point numbered by the row's quotient by 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

end

end Cert.KernelIdeal.RegionBn

end
-- ==== Proof.RegionBn1.lean ====
/-
  The normalise kernel of region 1: its output array, after the ten grid points, is the specification's normalise-scale-
  shift-add-clamp function of the six arrays the region found, whatever those arrays are.
-/
import proofs.«180731_j65910568124789_1_alg».proof.Proof.RegionBnBlocks1
import proofs.«180731_j65910568124789_1_alg».proof.Proof.Spec

noncomputable section

namespace Cert.KernelIdeal.RegionBn

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The part of the body's result a point writes back, at an index of the point's block, is the result at that index. -/
theorem cut1_apply (t : Fin cfg1.N) (j : ((cfg1.win 6).xblock (grid1.coords t)).Idx) (X : Vec Ideal S5000x128 .f32) :
    (cfg1.win 6).cut (grid1.coords t) X j = X ((cfg1.win 6).xinj (grid1.coords t) j) := rfl

/-- An array read through point t's block, at a block index, is the array where the block puts that index. -/
theorem read1_apply (t : Fin cfg1.N) (j : ((cfg1.win 6).xblock (grid1.coords t)).Idx) (G : S50000x128.Idx → EReal) :
    (((cfg1.win 6).blk t).view.read (Elt Ideal) G) j = G (((cfg1.win 6).blk t).view.emb j) := rfl

/-- The block puts an index and its copy with restated bounds at the same place. -/
theorem emb1_xinj (t : Fin cfg1.N) (j : ((cfg1.win 6).xblock (grid1.coords t)).Idx) :
    ((cfg1.win 6).blk t).view.emb ((cfg1.win 6).xinj (grid1.coords t) j) = ((cfg1.win 6).blk t).view.emb j := rfl

/-- The body's result block at row r, column q is the specification's value at the array's row R, when the two
    row-blocked inputs' blocks are the arrays' rows there and the four single rows are the arrays themselves. -/
theorem block1_apply (A0 A5 : Cert.Gcn.SN.Idx → EReal) (A1 A2 A3 A4 : Cert.Gcn.SR.Idx → EReal)
    (x0 x5 : Vec Ideal S5000x128 .f32) (R : Fin 50000) (r : Fin 5000) (q : Fin 128)
    (h0 : x0 (ix2 r q) = A0 (ix2 R q)) (h5 : x5 (ix2 r q) = A5 (ix2 R q)) :
    k1_pay1 x0 A2 A3 A1 A4 x5 (ix2 r q) = Cert.Gcn.bn A0 A1 A2 A3 A4 A5 (ix2 R q) := by
  rw [pay1_apply, h0, h5]; rfl

/-- At point t the body's result, read at a block index, is the specification's value where the block sits in the array. -/
theorem point1_eq (c : Dev nD) (t : Fin cfg1.N) (y : S5000x128.Idx) :
    k1_pay1 (iblk1 V c 0 t) (V c (Pipeline.arrRef spec1 2)) (V c (Pipeline.arrRef spec1 3)) (V c (Pipeline.arrRef spec1 1))
        (V c (Pipeline.arrRef spec1 4)) (iblk1 V c 5 t) y
      = Cert.Gcn.bn (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (((cfg1.win 6).blk t).view.emb y) := by
  obtain ⟨r, q, rfl⟩ : ∃ (r : Fin 5000) (q : Fin 128), y = ix2 r q := ⟨y 0, y 1, eq_ix2 y⟩
  obtain ⟨-, -, -, -, -, -, -, -, -, -, -, -, e0, e1⟩ := idx_facts1 t
  have ht := lt_N1 t
  have hr : r.val < 5000 := r.isLt
  have hemb : ((cfg1.win 6).blk t).view.emb (ix2 r q) = (ix2 (⟨5000 * t.val + r.val, by omega⟩ : Fin 50000) q : S50000x128.Idx) := by
    funext a
    apply Fin.ext
    match a with
    | ⟨0, _⟩ => show win1_6.index t (0 : Fin 2) * 5000 + 1 * r.val = 5000 * t.val + r.val; rw [e0]; omega
    | ⟨1, _⟩ => show win1_6.index t (1 : Fin 2) * 128 + 1 * q.val = q.val; rw [e1]; omega
  exact (block1_apply _ _ _ _ _ _ _ _ ⟨5000 * t.val + r.val, by omega⟩ r q
    (iblk1_0_apply V c t _ _ rfl rfl) (iblk1_5_apply V c t _ _ rfl rfl)).trans (congrArg _ hemb.symm)

/-- What point t writes back is block t of the specification's function of the arrays the region found. -/
theorem flushed1_eq (c : Dev nD) (t : Fin cfg1.N) :
    (dat1 V c).flushed 6 t = ((cfg1.win 6).blk t).view.read (Elt Ideal)
      (Cert.Gcn.bn (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz]
  rw [iblk1_1_eq, iblk1_2_eq, iblk1_3_eq, iblk1_4_eq]
  funext j
  refine (cut1_apply t j _).trans ?_
  refine Eq.trans ?_ (read1_apply t j _).symm
  exact (point1_eq V c t _).trans (congrArg _ (emb1_xinj t j))

/-- THE OUTPUT ARRAY of the normalise kernel after its ten points: the specification's normalise-scale-shift-add-clamp
    function of the six arrays the region found (the ten blocks of 5000 rows tile the 50000 rows). -/
theorem bn_arr1 (c : Dev nD) : (dat1 (F := Ideal) V c).arrAt 6 cfg1.N
      = Cert.Gcn.bn (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 V c).arrAt_eq_of_cover 6 (Cert.Gcn.bn (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)))
    (fun t _ => flushed1_eq V c t) cover1

end Cert.KernelIdeal.RegionBn

end
-- ==== Proof.RegionBnBlocks3.lean ====
/-
  The normalise kernel of region 3, below the specification: the body's one stored value read at a row and a column of its
  block; the windows' index maps over the ten grid points (the two row-blocked inputs and the output move with the point,
  the four single rows stay); each input block read as rows of the array the region found; and which indices of the output
  array a point's block holds, with the point holding a given row.
-/
import proofs.«180731_j65910568124789_1_alg».proof.Proof.RegionBnBlocks1
import Idealize.ShloMosaic.Lib.Pipeline.Value
import Idealize.ShloMosaic.Lib.ValueIdx

noncomputable section

namespace Cert.KernelIdeal.RegionBn

open Cert.KernelIdeal Cert.KernelIdeal.Gen Idealize.ShloMosaic Idealize.ShloMosaic.TcCoe Idealize.SL.Sem
open Idealize.ShloMosaic.Pipeline (Dat)
open Idealize.ShloMosaic.ValueIdx

/-- The stored value at row r, column q: scale times (entry minus mean) times the reciprocal root of (variance plus the
    stabiliser), plus the shift, plus the residual, clamped at zero. -/
theorem pay3_apply (x0 x5 : Vec Ideal S5000x128 .f32) (x1 x2 x3 x4 : Vec Ideal S1x128 .f32) (r : Fin 5000) (q : Fin 128) :
    k3_pay1 x0 x2 x3 x1 x4 x5 (ix2 r q) =
      max ((x3 (ix2 0 q) : EReal) * (x0 (ix2 r q) - x1 (ix2 0 q)) * Ideal.rsqrt (x2 (ix2 0 q) + Ideal.ofBits .f32 0x3727C5AC#32)
        + x4 (ix2 0 q) + x5 (ix2 r q)) (Ideal.ofBits .f32 0x00000000#32) := by
  unfold k3_pay1
  simp only [shapeCast_self]
  rw [maximumf_apply, addf_apply, addf_apply, mulf_apply, mulf_apply, subf_apply]
  rw [bcastRow_apply, bcastRow_apply, bcastRow_apply, bcastRow_apply]
  rfl

section
variable (V : (c : Dev nD) → (b : Ref sig .tc) → Buf (Elt Ideal) ((c : Thread nD τ).loc b))

/-- The printed index maps over the ten points: windows 0, 5 and 6 take block (t, 0); windows 1 to 4 always block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Window 0's block at point t, at a block index, is the array's entry 5000·t rows further down. -/
theorem iblk3_0_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c (Pipeline.arrRef spec3 0) : S50000x128.Idx → EReal) k := by
  obtain ⟨e0, e1, -⟩ := idx_facts3 t
  unfold iblk3
  rw [View.read_apply]
  refine congrArg (V c (Pipeline.arrRef spec3 0) : S50000x128.Idx → EReal) ?_
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- Window 1's block at every point is its whole one-row array. -/
theorem iblk3_1_eq (c : Dev nD) (t : Fin cfg3.N) :
    (iblk3 V c 1 t : Vec Ideal S1x128 .f32) = (V c (Pipeline.arrRef spec3 1) : S1x128.Idx → EReal) := by
  obtain ⟨-, -, e0, e1, -⟩ := idx_facts3 t
  funext x
  unfold iblk3
  rw [View.read_apply]
  refine congrArg (V c (Pipeline.arrRef spec3 1) : S1x128.Idx → EReal) ?_
  funext a
  apply Fin.ext
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- Window 2's block at every point is its whole one-row array. -/
theorem iblk3_2_eq (c : Dev nD) (t : Fin cfg3.N) :
    (iblk3 V c 2 t : Vec Ideal S1x128 .f32) = (V c (Pipeline.arrRef spec3 2) : S1x128.Idx → EReal) := by
  obtain ⟨-, -, -, -, e0, e1, -⟩ := idx_facts3 t
  funext x
  unfold iblk3
  rw [View.read_apply]
  refine congrArg (V c (Pipeline.arrRef spec3 2) : S1x128.Idx → EReal) ?_
  funext a
  apply Fin.ext
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- Window 3's block at every point is its whole one-row array. -/
theorem iblk3_3_eq (c : Dev nD) (t : Fin cfg3.N) :
    (iblk3 V c 3 t : Vec Ideal S1x128 .f32) = (V c (Pipeline.arrRef spec3 3) : S1x128.Idx → EReal) := by
  obtain ⟨-, -, -, -, -, -, e0, e1, -⟩ := idx_facts3 t
  funext x
  unfold iblk3
  rw [View.read_apply]
  refine congrArg (V c (Pipeline.arrRef spec3 3) : S1x128.Idx → EReal) ?_
  funext a
  apply Fin.ext
  match a with
  | ⟨0, _⟩ => show win3_3.index t (0 : Fin 2) * 1 + 1 * (x 0).val = (x 0).val; rw [e0]; omega
  | ⟨1, _⟩ => show win3_3.index t (1 : Fin 2) * 128 + 1 * (x 1).val = (x 1).val; rw [e1]; omega

/-- Window 4's block at every point is its whole one-row array. -/
theorem iblk3_4_eq (c : Dev nD) (t : Fin cfg3.N) :
    (iblk3 V c 4 t : Vec Ideal S1x128 .f32) = (V c (Pipeline.arrRef spec3 4) : S1x128.Idx → EReal) := by
  obtain ⟨-, -, -, -, -, -, -, -, e0, e1, -⟩ := idx_facts3 t
  funext x
  unfold iblk3
  rw [View.read_apply]
  refine congrArg (V c (Pipeline.arrRef spec3 4) : S1x128.Idx → EReal) ?_
  funext a
  apply Fin.ext
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-- Window 5's block at point t, at a block index, is the array's entry 5000·t rows further down. -/
theorem iblk3_5_apply (c : Dev nD) (t : Fin cfg3.N) (x : S5000x128.Idx) (k : S50000x128.Idx)
    (hk0 : (k 0).val = 5000 * t.val + (x 0).val) (hk1 : (k 1).val = (x 1).val) :
    (iblk3 V c 5 t : Vec Ideal S5000x128 .f32) x = (V c (Pipeline.arrRef spec3 5) : S50000x128.Idx → EReal) k := by
  obtain ⟨-, -, -, -, -, -, -, -, -, -, e0, e1, -⟩ := idx_facts3 t
  unfold iblk3
  rw [View.read_apply]
  refine congrArg (V c (Pipeline.arrRef spec3 5) : S50000x128.Idx → EReal) ?_
  funext a
  apply Fin.ext
  match a with
  | ⟨0, _⟩ => show win3_5.index t (0 : Fin 2) * 5000 + 1 * (x 0).val = (k 0).val; rw [e0, hk0]; omega
  | ⟨1, _⟩ => show win3_5.index t (1 : Fin 2) * 128 + 1 * (x 1).val = (k 1).val; rw [e1, hk1]; omega

/-- The grid has ten points. -/
theorem lt_N3 (t : Fin cfg3.N) : t.val < 10 := lt_of_lt_of_eq t.isLt N_3
/-- An index of the array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v65).slice (win3_6.rect t)).set ↔ _
  rw [View.set_slice_whole, Rect.mem_set_unit]
  exact Iff.rfl

/-- Every row of the array is in the block of the point numbered by the row's quotient by 5000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 128 ≤ (i 1).val ∧ (i 1).val < win3_6.index t (1 : Fin 2) * 128 + 128; rw [e1]; omega

end

end Cert.KernelIdeal.RegionBn

end
-- ==== Proof.RegionBn3.lean ====
/-
  The normalise kernel of region 3: its output array, after the ten grid points, is the specification's normalise-scale-
  shift-add-clamp function of the six arrays the region found, whatever those arrays are.
-/
import proofs.«180731_j65910568124789_1_alg».proof.Proof.RegionBnBlocks3
import proofs.«180731_j65910568124789_1_alg».proof.Proof.Spec

noncomputable section

namespace Cert.KernelIdeal.RegionBn

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The part of the body's result a point writes back, at an index of the point's block, is the result at that index. -/
theorem cut3_apply (t : Fin cfg3.N) (j : ((cfg3.win 6).xblock (grid3.coords t)).Idx) (X : Vec Ideal S5000x128 .f32) :
    (cfg3.win 6).cut (grid3.coords t) X j = X ((cfg3.win 6).xinj (grid3.coords t) j) := rfl

/-- An array read through point t's block, at a block index, is the array where the block puts that index. -/
theorem read3_apply (t : Fin cfg3.N) (j : ((cfg3.win 6).xblock (grid3.coords t)).Idx) (G : S50000x128.Idx → EReal) :
    (((cfg3.win 6).blk t).view.read (Elt Ideal) G) j = G (((cfg3.win 6).blk t).view.emb j) := rfl

/-- The block puts an index and its copy with restated bounds at the same place. -/
theorem emb3_xinj (t : Fin cfg3.N) (j : ((cfg3.win 6).xblock (grid3.coords t)).Idx) :
    ((cfg3.win 6).blk t).view.emb ((cfg3.win 6).xinj (grid3.coords t) j) = ((cfg3.win 6).blk t).view.emb j := rfl

/-- The body's result block at row r, column q is the specification's value at the array's row R, when the two
    row-blocked inputs' blocks are the arrays' rows there and the four single rows are the arrays themselves. -/
theorem block3_apply (A0 A5 : Cert.Gcn.SN.Idx → EReal) (A1 A2 A3 A4 : Cert.Gcn.SR.Idx → EReal)
    (x0 x5 : Vec Ideal S5000x128 .f32) (R : Fin 50000) (r : Fin 5000) (q : Fin 128)
    (h0 : x0 (ix2 r q) = A0 (ix2 R q)) (h5 : x5 (ix2 r q) = A5 (ix2 R q)) :
    k3_pay1 x0 A2 A3 A1 A4 x5 (ix2 r q) = Cert.Gcn.bn A0 A1 A2 A3 A4 A5 (ix2 R q) := by
  rw [pay3_apply, h0, h5]; rfl

/-- At point t the body's result, read at a block index, is the specification's value where the block sits in the array. -/
theorem point3_eq (c : Dev nD) (t : Fin cfg3.N) (y : S5000x128.Idx) :
    k3_pay1 (iblk3 V c 0 t) (V c (Pipeline.arrRef spec3 2)) (V c (Pipeline.arrRef spec3 3)) (V c (Pipeline.arrRef spec3 1))
        (V c (Pipeline.arrRef spec3 4)) (iblk3 V c 5 t) y
      = Cert.Gcn.bn (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (((cfg3.win 6).blk t).view.emb y) := by
  obtain ⟨r, q, rfl⟩ : ∃ (r : Fin 5000) (q : Fin 128), y = ix2 r q := ⟨y 0, y 1, eq_ix2 y⟩
  obtain ⟨-, -, -, -, -, -, -, -, -, -, -, -, e0, e1⟩ := idx_facts3 t
  have ht := lt_N3 t
  have hr : r.val < 5000 := r.isLt
  have hemb : ((cfg3.win 6).blk t).view.emb (ix2 r q) = (ix2 (⟨5000 * t.val + r.val, by omega⟩ : Fin 50000) q : S50000x128.Idx) := by
    funext a
    apply Fin.ext
    match a with
    | ⟨0, _⟩ => show win3_6.index t (0 : Fin 2) * 5000 + 1 * r.val = 5000 * t.val + r.val; rw [e0]; omega
    | ⟨1, _⟩ => show win3_6.index t (1 : Fin 2) * 128 + 1 * q.val = q.val; rw [e1]; omega
  exact (block3_apply _ _ _ _ _ _ _ _ ⟨5000 * t.val + r.val, by omega⟩ r q
    (iblk3_0_apply V c t _ _ rfl rfl) (iblk3_5_apply V c t _ _ rfl rfl)).trans (congrArg _ hemb.symm)

/-- What point t writes back is block t of the specification's function of the arrays the region found. -/
theorem flushed3_eq (c : Dev nD) (t : Fin cfg3.N) :
    (dat3 V c).flushed 6 t = ((cfg3.win 6).blk t).view.read (Elt Ideal)
      (Cert.Gcn.bn (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  rw [iblk3_1_eq, iblk3_2_eq, iblk3_3_eq, iblk3_4_eq]
  funext j
  refine (cut3_apply t j _).trans ?_
  refine Eq.trans ?_ (read3_apply t j _).symm
  exact (point3_eq V c t _).trans (congrArg _ (emb3_xinj t j))

/-- THE OUTPUT ARRAY of the normalise kernel after its ten points: the specification's normalise-scale-shift-add-clamp
    function of the six arrays the region found (the ten blocks of 5000 rows tile the 50000 rows). -/
theorem bn_arr3 (c : Dev nD) : (dat3 (F := Ideal) V c).arrAt 6 cfg3.N
      = Cert.Gcn.bn (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 V c).arrAt_eq_of_cover 6 (Cert.Gcn.bn (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)))
    (fun t _ => flushed3_eq V c t) cover3

end Cert.KernelIdeal.RegionBn

end
-- ==== Proof.KChain.lean ====
/-
  THE RESULT of the kernel's program is the network of the arguments: the walk through the twelve segments, with
  what the four regions leave in their output arrays now proved.
-/
import proofs.«180731_j65910568124789_1_alg».proof.Proof.KChainCore
import proofs.«180731_j65910568124789_1_alg».proof.Proof.RegionLin0
import proofs.«180731_j65910568124789_1_alg».proof.Proof.RegionLin2
import proofs.«180731_j65910568124789_1_alg».proof.Proof.RegionBn1
import proofs.«180731_j65910568124789_1_alg».proof.Proof.RegionBn3

set_option maxRecDepth 16384

noncomputable section

namespace Cert.KernelIdeal.KChain

open Idealize.ShloMosaic Idealize.ShloMosaic.TcCoe Cert.KernelIdeal Cert.KernelIdeal.Gen

theorem lin0Facts : Lin0Facts :=
  ⟨fun V c => Cert.KernelIdeal.RegionLin.lin_arr0 V c, fun V c => Cert.KernelIdeal.RegionLin.sum_arr0 V c,
    fun V c => Cert.KernelIdeal.RegionLin.sumsq_arr0 V c⟩
theorem bn1Facts : Bn1Facts := fun V c => Cert.KernelIdeal.RegionBn.bn_arr1 V c
theorem lin2Facts : Lin2Facts :=
  ⟨fun V c => Cert.KernelIdeal.RegionLin.lin_arr2 V c, fun V c => Cert.KernelIdeal.RegionLin.sum_arr2 V c,
    fun V c => Cert.KernelIdeal.RegionLin.sumsq_arr2 V c⟩
theorem bn3Facts : Bn3Facts := fun V c => Cert.KernelIdeal.RegionBn.bn_arr3 V c

/-- THE RESULT: at the last boundary the result array holds the network of the launch contents of the eleven
    argument arrays. -/
theorem result_eq (m : (ℓ : Loc nD τ sig) → Buf (Elt Ideal) ℓ) (ρ : Dev nD → PrngReg) (c : Dev nD) :
    (Gen.W12 m ρ c (Proc.devRef .tc main_v65) : Cert.Gcn.SN.Idx → EReal)
      = Cert.Gcn.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  result_eq_of m ρ c lin0Facts bn1Facts lin2Facts bn3Facts

end Cert.KernelIdeal.KChain

end
-- ==== Proof.RefOps.lean ====
/-
  The reference program's @main as two consecutive lines of host operations, every call to an outlined function
  replaced by that function's operations over the call's own buffers, in the program's order: the clamp of the degree
  counts at one (three operations, twice), the column variance (nineteen operations and the three of the guarded
  selection it calls, twice) and the clamp at zero (three operations, twice) stand among @main's own operations where
  the calls stood. The first line is @main's first window (85 operations), the second its second window (80); the
  program is the two lines run one after the other.
-/
import proofs.«180731_j65910568124789_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The first window's operations, in order, the calls' operations inline. -/
abbrev ops0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.unary main_arg2 main_v5 (broadcastInDim S800000x1 ![0] bcast_S800000_S800000x1_0 : (⟨S800000, .i32⟩ : BufTy).Contents (Elt F) → (⟨S800000x1, .i32⟩ : BufTy).Contents (Elt F)),
    StableHlo.ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.TRef.unary (TRef.of main_cst_2 : TRef sig ⟨S_, .f32⟩) main_call0.v0 id,
    StableHlo.TRef.unary main_call0.v0 main_call0.v1 (broadcastInDim S50000 ![] bcast_S_S50000),
    StableHlo.TRef.binary main_call0.v1 (TRef.of main_v3 : TRef sig ⟨S50000, .f32⟩) main_call0.v2 maximumf,
    StableHlo.nullary main_cst_3 (constant S_ .f32 0xBF000000#32),
    StableHlo.unary main_cst_3 main_v8 (broadcastInDim S50000 ![] bcast_S_S50000 : (⟨S_, .f32⟩ : BufTy).Contents (Elt F) → (⟨S50000, .f32⟩ : BufTy).Contents (Elt F)),
    StableHlo.binary main_v7 main_v8 main_v9 (Host.powf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x3F800000#32),
    StableHlo.TRef.unary (TRef.of main_cst_4 : TRef sig ⟨S_, .f32⟩) main_call1.v0 id,
    StableHlo.TRef.unary main_call1.v0 main_call1.v1 (broadcastInDim S50000 ![] bcast_S_S50000),
    StableHlo.TRef.binary main_call1.v1 (TRef.of main_v6 : TRef sig ⟨S50000, .f32⟩) main_call1.v2 maximumf,
    StableHlo.nullary main_cst_5 (constant S_ .f32 0xBF000000#32),
    StableHlo.unary main_cst_5 main_v11 (broadcastInDim S50000 ![] bcast_S_S50000 : (⟨S_, .f32⟩ : BufTy).Contents (Elt F) → (⟨S50000, .f32⟩ : BufTy).Contents (Elt F)),
    StableHlo.binary main_v10 main_v11 main_v12 (Host.powf : (⟨S50000, .f32⟩ : BufTy).Contents (Elt F) → (⟨S50000, .f32⟩ : BufTy).Contents (Elt F) → (⟨S50000, .f32⟩ : BufTy).Contents (Elt F)),
    StableHlo.unary main_v9 main_v13 (broadcastInDim S50000x1 ![0] bcast_S50000_S50000x1_0 : (⟨S50000, .f32⟩ : BufTy).Contents (Elt F) → (⟨S50000x1, .f32⟩ : BufTy).Contents (Elt F)),
    StableHlo.unary main_v13 main_v14 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v14 main_v15 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v16 (broadcastInDim S800000 ![] bcast_S_S800000 : (⟨S_, .i32⟩ : BufTy).Contents (Elt F) → (⟨S800000, .i32⟩ : BufTy).Contents (Elt F)),
    StableHlo.binary main_arg1 main_v16 main_v17 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v18 (broadcastInDim S800000 ![] bcast_S_S800000 : (⟨S_, .i32⟩ : BufTy).Contents (Elt F) → (⟨S800000, .i32⟩ : BufTy).Contents (Elt F)),
    StableHlo.binary main_arg1 main_v18 main_v19 (addi : (⟨S800000, .i32⟩ : BufTy).Contents (Elt F) → (⟨S800000, .i32⟩ : BufTy).Contents (Elt F) → (⟨S800000, .i32⟩ : BufTy).Contents (Elt F)),
    StableHlo.ternary main_v17 main_v19 main_arg1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v20 main_v21 (broadcastInDim S800000x1 ![0] bcast_S800000_S800000x1_0 : (⟨S800000, .i32⟩ : BufTy).Contents (Elt F) → (⟨S800000x1, .i32⟩ : BufTy).Contents (Elt F)),
    StableHlo.binary main_v15 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v23 (broadcastInDim S50000x128 ![] bcast_S_S50000x128 : (⟨S_, .f32⟩ : BufTy).Contents (Elt F) → (⟨S50000x128, .f32⟩ : BufTy).Contents (Elt F)),
    StableHlo.unary main_arg2 main_v24 (broadcastInDim S800000x1 ![0] bcast_S800000_S800000x1_0 : (⟨S800000, .i32⟩ : BufTy).Contents (Elt F) → (⟨S800000x1, .i32⟩ : BufTy).Contents (Elt F)),
    StableHlo.ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v26 (broadcastInDim S50000x1 ![0] bcast_S50000_S50000x1_0 : (⟨S50000, .f32⟩ : BufTy).Contents (Elt F) → (⟨S50000x1, .f32⟩ : BufTy).Contents (Elt F)),
    StableHlo.unary main_v26 main_v27 (broadcastInDim S50000x128 ![0, 1] bcast_S50000x1_S50000x128_0_1 : (⟨S50000x1, .f32⟩ : BufTy).Contents (Elt F) → (⟨S50000x128, .f32⟩ : BufTy).Contents (Elt F)),
    StableHlo.binary main_v25 main_v27 main_v28 (mulf : (⟨S50000x128, .f32⟩ : BufTy).Contents (Elt F) → (⟨S50000x128, .f32⟩ : BufTy).Contents (Elt F) → (⟨S50000x128, .f32⟩ : BufTy).Contents (Elt F)),
    StableHlo.binary main_v28 main_arg3 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v32 main_cst_8 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (TRef.of main_v32 : TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (TRef.of main_v32 : TRef sig ⟨S50000x128, .f32⟩) main_call2.v4 main_call2.v5 subf,
    StableHlo.TRef.binary main_call2.v5 main_call2.v5 main_call2.v6 mulf,
    StableHlo.TRef.unary (TRef.of main_c_10 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v38 main_v39 (subf : (⟨S50000x128, .f32⟩ : BufTy).Contents (Elt F) → (⟨S50000x128, .f32⟩ : BufTy).Contents (Elt F) → (⟨S50000x128, .f32⟩ : BufTy).Contents (Elt F)),
    StableHlo.unary main_arg5 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v39 main_v42 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v43 (broadcastInDim S128 ![] bcast_S_S128 : (⟨S_, .f32⟩ : BufTy).Contents (Elt F) → (⟨S128, .f32⟩ : BufTy).Contents (Elt F)),
    StableHlo.binary main_v36 main_v43 main_v44 (addf : (⟨S128, .f32⟩ : BufTy).Contents (Elt F) → (⟨S128, .f32⟩ : BufTy).Contents (Elt F) → (⟨S128, .f32⟩ : BufTy).Contents (Elt F)),
    StableHlo.unary main_v44 main_v45 (Host.rsqrt : (⟨S128, .f32⟩ : BufTy).Contents (Elt F) → (⟨S128, .f32⟩ : BufTy).Contents (Elt F)) ]

/-- The second window's operations, in order, the calls' operations inline. -/
abbrev ops1 : List (HloOp τ sig (Elt F)) :=
  [ StableHlo.unary main_v45 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v47 main_v48 (mulf : (⟨S50000x128, .f32⟩ : BufTy).Contents (Elt F) → (⟨S50000x128, .f32⟩ : BufTy).Contents (Elt F) → (⟨S50000x128, .f32⟩ : BufTy).Contents (Elt F)),
    StableHlo.unary main_arg6 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (TRef.of main_v51 : TRef sig ⟨S50000x128, .f32⟩) main_call3.v0 main_call3.v1 maximumf,
    StableHlo.unary main_v9 main_v53 (broadcastInDim S50000x1 ![0] bcast_S50000_S50000x1_0 : (⟨S50000, .f32⟩ : BufTy).Contents (Elt F) → (⟨S50000x1, .f32⟩ : BufTy).Contents (Elt F)),
    StableHlo.unary main_v53 main_v54 (broadcastInDim S50000x128 ![0, 1] bcast_S50000x1_S50000x128_0_1 : (⟨S50000x1, .f32⟩ : BufTy).Contents (Elt F) → (⟨S50000x128, .f32⟩ : BufTy).Contents (Elt F)),
    StableHlo.binary main_v52 main_v54 main_v55 (mulf : (⟨S50000x128, .f32⟩ : BufTy).Contents (Elt F) → (⟨S50000x128, .f32⟩ : BufTy).Contents (Elt F) → (⟨S50000x128, .f32⟩ : BufTy).Contents (Elt F)),
    StableHlo.nullary main_c_12 (constantI S_ 32 0#32),
    StableHlo.unary main_c_12 main_v56 (broadcastInDim S800000 ![] bcast_S_S800000 : (⟨S_, .i32⟩ : BufTy).Contents (Elt F) → (⟨S800000, .i32⟩ : BufTy).Contents (Elt F)),
    StableHlo.binary main_arg1 main_v56 main_v57 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v58 (broadcastInDim S800000 ![] bcast_S_S800000 : (⟨S_, .i32⟩ : BufTy).Contents (Elt F) → (⟨S800000, .i32⟩ : BufTy).Contents (Elt F)),
    StableHlo.binary main_arg1 main_v58 main_v59 (addi : (⟨S800000, .i32⟩ : BufTy).Contents (Elt F) → (⟨S800000, .i32⟩ : BufTy).Contents (Elt F) → (⟨S800000, .i32⟩ : BufTy).Contents (Elt F)),
    StableHlo.ternary main_v57 main_v59 main_arg1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v60 main_v61 (broadcastInDim S800000x1 ![0] bcast_S800000_S800000x1_0 : (⟨S800000, .i32⟩ : BufTy).Contents (Elt F) → (⟨S800000x1, .i32⟩ : BufTy).Contents (Elt F)),
    StableHlo.binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v63 (broadcastInDim S50000x128 ![] bcast_S_S50000x128 : (⟨S_, .f32⟩ : BufTy).Contents (Elt F) → (⟨S50000x128, .f32⟩ : BufTy).Contents (Elt F)),
    StableHlo.unary main_arg2 main_v64 (broadcastInDim S800000x1 ![0] bcast_S800000_S800000x1_0 : (⟨S800000, .i32⟩ : BufTy).Contents (Elt F) → (⟨S800000x1, .i32⟩ : BufTy).Contents (Elt F)),
    StableHlo.ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v66 (broadcastInDim S50000x1 ![0] bcast_S50000_S50000x1_0 : (⟨S50000, .f32⟩ : BufTy).Contents (Elt F) → (⟨S50000x1, .f32⟩ : BufTy).Contents (Elt F)),
    StableHlo.unary main_v66 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v67 main_v68 (mulf : (⟨S50000x128, .f32⟩ : BufTy).Contents (Elt F) → (⟨S50000x128, .f32⟩ : BufTy).Contents (Elt F) → (⟨S50000x128, .f32⟩ : BufTy).Contents (Elt F)),
    StableHlo.binary main_v68 main_arg7 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v72 main_cst_15 main_v73 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v74 (broadcastInDim S128 ![] bcast_S_S128 : (⟨S_, .f32⟩ : BufTy).Contents (Elt F) → (⟨S128, .f32⟩ : BufTy).Contents (Elt F)),
    StableHlo.binary main_v73 main_v74 main_v75 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (TRef.of main_v72 : TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (TRef.of main_v72 : TRef sig ⟨S50000x128, .f32⟩) main_call4.v4 main_call4.v5 subf,
    StableHlo.TRef.binary main_call4.v5 main_call4.v5 main_call4.v6 mulf,
    StableHlo.TRef.unary (TRef.of main_c_17 : TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v75 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v78 main_v79 (subf : (⟨S50000x128, .f32⟩ : BufTy).Contents (Elt F) → (⟨S50000x128, .f32⟩ : BufTy).Contents (Elt F) → (⟨S50000x128, .f32⟩ : BufTy).Contents (Elt F)),
    StableHlo.unary main_arg9 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v79 main_v82 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v83 (broadcastInDim S128 ![] bcast_S_S128 : (⟨S_, .f32⟩ : BufTy).Contents (Elt F) → (⟨S128, .f32⟩ : BufTy).Contents (Elt F)),
    StableHlo.binary main_v76 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v87 main_v88 (mulf : (⟨S50000x128, .f32⟩ : BufTy).Contents (Elt F) → (⟨S50000x128, .f32⟩ : BufTy).Contents (Elt F) → (⟨S50000x128, .f32⟩ : BufTy).Contents (Elt F)),
    StableHlo.unary main_arg10 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (addf : (⟨S50000x128, .f32⟩ : BufTy).Contents (Elt F) → (⟨S50000x128, .f32⟩ : BufTy).Contents (Elt F) → (⟨S50000x128, .f32⟩ : BufTy).Contents (Elt F)),
    StableHlo.binary main_v91 main_v52 main_v92 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (TRef.of main_v92 : TRef sig ⟨S50000x128, .f32⟩) main_call5.v0 main_call5.v1 maximumf ]

/-- @main's operations, in order. -/
abbrev ops : List (HloOp τ sig (Elt F)) := ops0 ++ ops1

set_option maxRecDepth 8192 in
/-- The first window is its line: the outlined functions unfolded at their calls, the records at their fields. -/
theorem part0_eq (c : Dev nD) : main_part0 (F := F) c = seq ops0 := by
  simp only [main_part0, fn_clip.body, fn_var.body, fn_where.body, seq, bind_assoc, pure_bind]
  rfl

set_option maxRecDepth 8192 in
/-- The second window is its line. -/
theorem part1_eq (c : Dev nD) : main_part1 (F := F) c = seq ops1 := by
  simp only [main_part1, fn_var.body, fn_where.body, fn_relu.body, seq, bind_assoc, pure_bind]

/-- @main is the two lines run one after the other, which is their concatenation run as one. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., binary_bufs_sub .., nullary_bufs_sub .., unary_bufs_sub .., binary_bufs_sub .., nullary_bufs_sub ..,
    unary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub ..⟩

theorem ops1_sub : (ops1 : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub ..⟩

/-- Every operation of @main touches TensorCore references only. -/
theorem ops_sub : (ops : List (HloOp τ sig (Elt F))).Forall fun op => op.bufs ⊆ tcRefs τ sig :=
  List.forall_iff_forall_mem.mpr fun op h =>
    (List.mem_append.mp h).elim (List.forall_iff_forall_mem.mp ops0_sub op) (List.forall_iff_forall_mem.mp ops1_sub op)

end Cert.ReferenceIdeal.RefRun

end
-- ==== Proof.LibAfterConcat.lean ====
/-
  The fold of a line of host operations over two lines in a row (a general lemma file; nothing here mentions a
  particular program).

  `StableHlo.after ops V` is what the buffers hold once the operations `ops` have run in order from contents `V`.
  Running `l₁ ++ l₂` is running `l₁` and then `l₂` from what `l₁` left: this is what lets a long line be read piece
  by piece.
-/
import Idealize.ShloMosaic.Lib.StableHlo.Run

noncomputable section

namespace Cert.AfterConcat

open Idealize.ShloMosaic Idealize.ShloMosaic.StableHlo

variable {τ : Topo} {sig : RefSig} {Val : EltTy → Type}

/-- The fold over two lines in a row is the second's fold over the first's. -/
theorem after_concat (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.AfterConcat

end
-- ==== Proof.RefArgs.lean ====
/-
  The argument arrays after the reference program's operations: no operation writes one, so each holds what it
  held at the start. Also: every operation determines its results (none allocates a buffer of undetermined contents).
-/
import proofs.«180731_j65910568124789_1_alg».proof.Proof.RefOps
import proofs.«180731_j65910568124789_1_alg».proof.Proof.LibAfterConcat

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts
open Cert.AfterConcat

variable [Cert.ReferenceIdeal.Facts]

variable {F : FTy → Type} [FloatOps F]

theorem arg0_eq (V : Valuation τ sig (Elt F)) :
    after (ops (F := F)) V (Proc.devRef .tc main_arg0) = V (Proc.devRef .tc main_arg0) := by
  rw [after_concat]; after_results_simp

theorem arg1_eq (V : Valuation τ sig (Elt F)) :
    after (ops (F := F)) V (Proc.devRef .tc main_arg1) = V (Proc.devRef .tc main_arg1) := by
  rw [after_concat]; after_results_simp

theorem arg2_eq (V : Valuation τ sig (Elt F)) :
    after (ops (F := F)) V (Proc.devRef .tc main_arg2) = V (Proc.devRef .tc main_arg2) := by
  rw [after_concat]; after_results_simp

theorem arg3_eq (V : Valuation τ sig (Elt F)) :
    after (ops (F := F)) V (Proc.devRef .tc main_arg3) = V (Proc.devRef .tc main_arg3) := by
  rw [after_concat]; after_results_simp

theorem arg4_eq (V : Valuation τ sig (Elt F)) :
    after (ops (F := F)) V (Proc.devRef .tc main_arg4) = V (Proc.devRef .tc main_arg4) := by
  rw [after_concat]; after_results_simp

theorem arg5_eq (V : Valuation τ sig (Elt F)) :
    after (ops (F := F)) V (Proc.devRef .tc main_arg5) = V (Proc.devRef .tc main_arg5) := by
  rw [after_concat]; after_results_simp

theorem arg6_eq (V : Valuation τ sig (Elt F)) :
    after (ops (F := F)) V (Proc.devRef .tc main_arg6) = V (Proc.devRef .tc main_arg6) := by
  rw [after_concat]; after_results_simp

theorem arg7_eq (V : Valuation τ sig (Elt F)) :
    after (ops (F := F)) V (Proc.devRef .tc main_arg7) = V (Proc.devRef .tc main_arg7) := by
  rw [after_concat]; after_results_simp

theorem arg8_eq (V : Valuation τ sig (Elt F)) :
    after (ops (F := F)) V (Proc.devRef .tc main_arg8) = V (Proc.devRef .tc main_arg8) := by
  rw [after_concat]; after_results_simp

theorem arg9_eq (V : Valuation τ sig (Elt F)) :
    after (ops (F := F)) V (Proc.devRef .tc main_arg9) = V (Proc.devRef .tc main_arg9) := by
  rw [after_concat]; after_results_simp

theorem arg10_eq (V : Valuation τ sig (Elt F)) :
    after (ops (F := F)) V (Proc.devRef .tc main_arg10) = V (Proc.devRef .tc main_arg10) := by
  rw [after_concat]; after_results_simp

theorem fresh0 : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

theorem fresh1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Every operation determines its results. -/
theorem ops_fresh : ∀ op ∈ (ops : List (HloOp τ sig (Elt F))), op.fresh = ∅ := fun op h =>
  (List.mem_append.mp h).elim (List.forall_iff_forall_mem.mp fresh0 op) (List.forall_iff_forall_mem.mp fresh1 op)

end Cert.ReferenceIdeal.RefRun

end
-- ==== Proof.RefStagesDefs.lean ====
/-
  The reference's stages as functions of arrays, at the exact extended-real values: each definition is the
  reference program's own operations composed in the program's order, nothing simplified. A stage is one
  mathematical step of the two-layer graph convolution: wrapping the negative edge words, the edge words as
  a column of start indices, the degree count, the degree factor, the neighbourhood sum, the linear map with
  its bias, the column mean and variance, the normalisation, and the clamp at zero. `RefVal` is the whole
  network as the reference arranges it.
-/
import Idealize.ShloMosaic.PureOps.Ideal
import proofs.«180731_j65910568124789_1_alg».proof.ReferenceIdeal

noncomputable section

namespace Cert.ReferenceIdeal.Stages

open Idealize.ShloMosaic
open Cert.ReferenceIdeal
open Cert.ReferenceIdeal.Facts₀ Cert.ReferenceIdeal.Facts

variable [Cert.ReferenceIdeal.Facts]

/-- a negative edge word is counted from the end: `v < 0 ? v + 50000 : v` -/
def r_wrap (v : IVec S800000 32) : IVec S800000 32 :=
  select
    (cmpi .slt v (broadcastInDim S800000 ![] bcast_S_S800000 (constantI S_ 32 0#32)))
    (addi v (broadcastInDim S800000 ![] bcast_S_S800000 (constantI S_ 32 50000#32)))
    v

/-- the edge words as a column of start indices -/
def r_col (v : IVec S800000 32) : IVec S800000x1 32 :=
  broadcastInDim S800000x1 ![0] bcast_S800000_S800000x1_0 v

/-- the degree count: ones summed onto zeros at the nodes the edge words name -/
def r_deg (v : IVec S800000 32) : FVec Ideal S50000 .f32 :=
  Host.scatterAdd scatter_S50000_S800000x1_S800000_n_0_0_1
    (broadcastInDim S50000 ![] bcast_S_S50000 (constant (F := Ideal) S_ .f32 0x00000000#32))
    (r_col v)
    (broadcastInDim S800000 ![] bcast_S_S800000 (constant (F := Ideal) S_ .f32 0x3F800000#32))

/-- the degree factor `max(1, deg) ^ (-1/2)` -/
def r_dinv (v : IVec S800000 32) : FVec Ideal S50000 .f32 :=
  Host.powf
    (maximumf
      (broadcastInDim S50000 ![] bcast_S_S50000 (id (constant (F := Ideal) S_ .f32 0x3F800000#32)))
      (r_deg v))
    (broadcastInDim S50000 ![] bcast_S_S50000 (constant (F := Ideal) S_ .f32 0xBF000000#32))

/-- the neighbourhood sum: rows scaled by the out-degree factor, gathered at the wrapped source words,
    summed onto zeros at the destination words, scaled by the in-degree factor -/
def r_agg (h : FVec Ideal S50000x128 .f32) (src dst : IVec S800000 32) (dout din : FVec Ideal S50000 .f32) :
    FVec Ideal S50000x128 .f32 :=
  mulf
    (Host.scatterAdd scatter_S50000x128_S800000x1_S800000x128_1_0_0_1
      (broadcastInDim S50000x128 ![] bcast_S_S50000x128 (constant (F := Ideal) S_ .f32 0x00000000#32))
      (r_col dst)
      (Host.gather gather_S50000x128_S800000x1_S800000x128_1_0_n_n_0_1_1128
        (mulf h
          (broadcastInDim S50000x128 ![0, 1] bcast_S50000x1_S50000x128_0_1
            (broadcastInDim S50000x1 ![0] bcast_S50000_S50000x1_0 dout)))
        (r_col (r_wrap src))))
    (broadcastInDim S50000x128 ![0, 1] bcast_S50000x1_S50000x128_0_1
      (broadcastInDim S50000x1 ![0] bcast_S50000_S50000x1_0 din))

/-- the linear map with its bias -/
def r_lin (m : FVec Ideal S50000x128 .f32) (W : FVec Ideal S128x128 .f32) (b : FVec Ideal S128 .f32) :
    FVec Ideal S50000x128 .f32 :=
  addf
    (Host.dotGeneral dot_S50000x128_S128x128_S50000x128_1_0_0_1_n_n none m W)
    (broadcastInDim S50000x128 ![0, 1] bcast_S1x128_S50000x128_0_1
      (broadcastInDim S1x128 ![1] bcast_S128_S1x128_1 b))

/-- the column means -/
def r_meanV (h : FVec Ideal S50000x128 .f32) : FVec Ideal S128 .f32 :=
  Host.divf
    (Host.reduceAdd h (constant (F := Ideal) S_ .f32 0x00000000#32) reducesTo_S50000x128_S128_d0 h_S_)
    (broadcastInDim S128 ![] bcast_S_S128 (constant (F := Ideal) S_ .f32 0x47435000#32))

/-- the column variances: the mean of the squared deviations from the column mean, over `n − 0` with the
    guard `n − 0 > 0` selecting the quotient -/
def r_varV (h : FVec Ideal S50000x128 .f32) : FVec Ideal S128 .f32 :=
  (fun (p : IVec S_ 1) (a b : FVec Ideal S128 .f32) => select (broadcastInDim S128 ![] bcast_S_S128 p) a b)
    (cmpf .ogt
      (subf (constant (F := Ideal) S_ .f32 0x47435000#32) (sitofp .f32 (constantI S_ 32 0#32)))
      (constant (F := Ideal) S_ .f32 0x00000000#32))
    (Host.divf
      (Host.reduceAdd
        (mulf
          (subf h
            (broadcastInDim S50000x128 ![0, 1] bcast_S1x128_S50000x128_0_1
              (Host.divf
                (broadcastInDim S1x128 ![1] bcast_S128_S1x128_1
                  (Host.reduceAdd h (constant (F := Ideal) S_ .f32 0x00000000#32)
                    reducesTo_S50000x128_S128_d0 h_S_))
                (broadcastInDim S1x128 ![] bcast_S_S1x128 (constant (F := Ideal) S_ .f32 0x47435000#32)))))
          (subf h
            (broadcastInDim S50000x128 ![0, 1] bcast_S1x128_S50000x128_0_1
              (Host.divf
                (broadcastInDim S1x128 ![1] bcast_S128_S1x128_1
                  (Host.reduceAdd h (constant (F := Ideal) S_ .f32 0x00000000#32)
                    reducesTo_S50000x128_S128_d0 h_S_))
                (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (constant (F := Ideal) S_ .f32 0x47435000#32) (sitofp .f32 (constantI S_ 32 0#32)))))
    (broadcastInDim S128 ![] bcast_S_S128 (id (constant (F := Ideal) S_ .f32 0x7FC00000#32)))

/-- normalise by the column mean and variance, scale and shift -/
def r_bnPre (h : FVec Ideal S50000x128 .f32) (mu v gamma beta : FVec Ideal S128 .f32) :
    FVec Ideal S50000x128 .f32 :=
  addf
    (mulf
      (mulf
        (broadcastInDim S50000x128 ![0, 1] bcast_S1x128_S50000x128_0_1
          (broadcastInDim S1x128 ![1] bcast_S128_S1x128_1 gamma))
        (subf h
          (broadcastInDim S50000x128 ![0, 1] bcast_S1x128_S50000x128_0_1
            (broadcastInDim S1x128 ![1] bcast_S128_S1x128_1 mu))))
      (broadcastInDim S50000x128 ![0, 1] bcast_S1x128_S50000x128_0_1
        (broadcastInDim S1x128 ![1] bcast_S128_S1x128_1
          (Host.rsqrt
            (addf v (broadcastInDim S128 ![] bcast_S_S128 (constant (F := Ideal) S_ .f32 0x3727C5AC#32)))))))
    (broadcastInDim S50000x128 ![0, 1] bcast_S1x128_S50000x128_0_1
      (broadcastInDim S1x128 ![1] bcast_S128_S1x128_1 beta))

/-- the clamp at zero -/
def r_relu (h : FVec Ideal S50000x128 .f32) : FVec Ideal S50000x128 .f32 :=
  maximumf h (broadcastInDim S50000x128 ![] bcast_S_S50000x128 (constant (F := Ideal) S_ .f32 0x00000000#32))

/-- THE NETWORK as the reference arranges it: two layers, the second with the first's output added before
    the clamp -/
def RefVal (x : FVec Ideal S50000x128 .f32) (src dst : IVec S800000 32)
    (W1 : FVec Ideal S128x128 .f32) (b1 g1 be1 : FVec Ideal S128 .f32)
    (W2 : FVec Ideal S128x128 .f32) (b2 g2 be2 : FVec Ideal S128 .f32) : FVec Ideal S50000x128 .f32 :=
  r_relu
    (addf
      (r_bnPre
        (r_lin
          (r_agg
            (r_relu
              (r_bnPre
                (r_lin (r_agg x src dst (r_dinv src) (r_dinv dst)) W1 b1)
                (r_meanV (r_lin (r_agg x src dst (r_dinv src) (r_dinv dst)) W1 b1))
                (r_varV (r_lin (r_agg x src dst (r_dinv src) (r_dinv dst)) W1 b1))
                g1 be1))
            src dst (r_dinv src) (r_dinv dst))
          W2 b2)
        (r_meanV
          (r_lin
            (r_agg
              (r_relu
                (r_bnPre
                  (r_lin (r_agg x src dst (r_dinv src) (r_dinv dst)) W1 b1)
                  (r_meanV (r_lin (r_agg x src dst (r_dinv src) (r_dinv dst)) W1 b1))
                  (r_varV (r_lin (r_agg x src dst (r_dinv src) (r_dinv dst)) W1 b1))
                  g1 be1))
              src dst (r_dinv src) (r_dinv dst))
            W2 b2))
        (r_varV
          (r_lin
            (r_agg
              (r_relu
                (r_bnPre
                  (r_lin (r_agg x src dst (r_dinv src) (r_dinv dst)) W1 b1)
                  (r_meanV (r_lin (r_agg x src dst (r_dinv src) (r_dinv dst)) W1 b1))
                  (r_varV (r_lin (r_agg x src dst (r_dinv src) (r_dinv dst)) W1 b1))
                  g1 be1))
              src dst (r_dinv src) (r_dinv dst))
            W2 b2))
        g2 be2)
      (r_relu
        (r_bnPre
          (r_lin (r_agg x src dst (r_dinv src) (r_dinv dst)) W1 b1)
          (r_meanV (r_lin (r_agg x src dst (r_dinv src) (r_dinv dst)) W1 b1))
          (r_varV (r_lin (r_agg x src dst (r_dinv src) (r_dinv dst)) W1 b1))
          g1 be1)))

end Cert.ReferenceIdeal.Stages

end
-- ==== Proof.RefValue.lean ====
/-
  The result array after the reference program's operations is the network of the reference's stages applied to
  the eleven argument arrays. The operations are folded from the last to the first: each leaves at its own result
  buffer its function of its operands' contents, and at any other buffer what was there. An outlined function's
  operation stores and reads through a transport along its reference's type equation; a store followed by a read of
  the same reference cancels, and at a literal reference of @main the transport is the identity. What is left is the
  composition of the program's operations, which is what the stages are.
-/
import proofs.«180731_j65910568124789_1_alg».proof.Proof.RefOps
import proofs.«180731_j65910568124789_1_alg».proof.Proof.RefStagesDefs
import proofs.«180731_j65910568124789_1_alg».proof.Proof.LibAfterConcat
import proofs.«180731_j65910568124789_1_alg».proof.Proof.LibTypedRead
import proofs.«180731_j65910568124789_1_alg».proof.Proof.LibTypedHEq

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts
open Cert.AfterConcat

variable [Cert.ReferenceIdeal.Facts]

section Transports
variable {Val : EltTy → Type}

/-! At a literal reference the transport along its type equation is the identity: an outlined function's operand
    read from one of @main's buffers, and its result stored into one. -/

theorem ofBuf_main_cst_2 (h1 h2 h3) (v : (⟨S_, .f32⟩ : BufTy).Contents Val) :
    (TRef.of (sig := sig) (T := ⟨S_, .f32⟩) main_cst_2 h1 h2 h3).ofBuf v = v :=
  eq_of_heq (Cert.TypedRead.ofBuf_heq (TRef.of (sig := sig) (T := ⟨S_, .f32⟩) main_cst_2 h1 h2 h3) v)
theorem ofBuf_main_v3 (h1 h2 h3) (v : (⟨S50000, .f32⟩ : BufTy).Contents Val) :
    (TRef.of (sig := sig) (T := ⟨S50000, .f32⟩) main_v3 h1 h2 h3).ofBuf v = v :=
  eq_of_heq (Cert.TypedRead.ofBuf_heq (TRef.of (sig := sig) (T := ⟨S50000, .f32⟩) main_v3 h1 h2 h3) v)
theorem ofBuf_main_cst_4 (h1 h2 h3) (v : (⟨S_, .f32⟩ : BufTy).Contents Val) :
    (TRef.of (sig := sig) (T := ⟨S_, .f32⟩) main_cst_4 h1 h2 h3).ofBuf v = v :=
  eq_of_heq (Cert.TypedRead.ofBuf_heq (TRef.of (sig := sig) (T := ⟨S_, .f32⟩) main_cst_4 h1 h2 h3) v)
theorem ofBuf_main_v6 (h1 h2 h3) (v : (⟨S50000, .f32⟩ : BufTy).Contents Val) :
    (TRef.of (sig := sig) (T := ⟨S50000, .f32⟩) main_v6 h1 h2 h3).ofBuf v = v :=
  eq_of_heq (Cert.TypedRead.ofBuf_heq (TRef.of (sig := sig) (T := ⟨S50000, .f32⟩) main_v6 h1 h2 h3) v)
theorem ofBuf_main_v32 (h1 h2 h3) (v : (⟨S50000x128, .f32⟩ : BufTy).Contents Val) :
    (TRef.of (sig := sig) (T := ⟨S50000x128, .f32⟩) main_v32 h1 h2 h3).ofBuf v = v :=
  eq_of_heq (Cert.TypedRead.ofBuf_heq (TRef.of (sig := sig) (T := ⟨S50000x128, .f32⟩) main_v32 h1 h2 h3) v)
theorem ofBuf_main_c_10 (h1 h2 h3) (v : (⟨S_, .i32⟩ : BufTy).Contents Val) :
    (TRef.of (sig := sig) (T := ⟨S_, .i32⟩) main_c_10 h1 h2 h3).ofBuf v = v :=
  eq_of_heq (Cert.TypedRead.ofBuf_heq (TRef.of (sig := sig) (T := ⟨S_, .i32⟩) main_c_10 h1 h2 h3) v)
theorem ofBuf_main_v51 (h1 h2 h3) (v : (⟨S50000x128, .f32⟩ : BufTy).Contents Val) :
    (TRef.of (sig := sig) (T := ⟨S50000x128, .f32⟩) main_v51 h1 h2 h3).ofBuf v = v :=
  eq_of_heq (Cert.TypedRead.ofBuf_heq (TRef.of (sig := sig) (T := ⟨S50000x128, .f32⟩) main_v51 h1 h2 h3) v)
theorem ofBuf_main_v72 (h1 h2 h3) (v : (⟨S50000x128, .f32⟩ : BufTy).Contents Val) :
    (TRef.of (sig := sig) (T := ⟨S50000x128, .f32⟩) main_v72 h1 h2 h3).ofBuf v = v :=
  eq_of_heq (Cert.TypedRead.ofBuf_heq (TRef.of (sig := sig) (T := ⟨S50000x128, .f32⟩) main_v72 h1 h2 h3) v)
theorem ofBuf_main_c_17 (h1 h2 h3) (v : (⟨S_, .i32⟩ : BufTy).Contents Val) :
    (TRef.of (sig := sig) (T := ⟨S_, .i32⟩) main_c_17 h1 h2 h3).ofBuf v = v :=
  eq_of_heq (Cert.TypedRead.ofBuf_heq (TRef.of (sig := sig) (T := ⟨S_, .i32⟩) main_c_17 h1 h2 h3) v)
theorem ofBuf_main_v92 (h1 h2 h3) (v : (⟨S50000x128, .f32⟩ : BufTy).Contents Val) :
    (TRef.of (sig := sig) (T := ⟨S50000x128, .f32⟩) main_v92 h1 h2 h3).ofBuf v = v :=
  eq_of_heq (Cert.TypedRead.ofBuf_heq (TRef.of (sig := sig) (T := ⟨S50000x128, .f32⟩) main_v92 h1 h2 h3) v)
theorem toBuf_main_v7 (h1 h2 h3) (v : (⟨S50000, .f32⟩ : BufTy).Contents Val) :
    (TRef.of (sig := sig) (T := ⟨S50000, .f32⟩) main_v7 h1 h2 h3).toBuf v = v :=
  eq_of_heq (Cert.TypedRead.toBuf_heq (TRef.of (sig := sig) (T := ⟨S50000, .f32⟩) main_v7 h1 h2 h3) v)
theorem toBuf_main_v10 (h1 h2 h3) (v : (⟨S50000, .f32⟩ : BufTy).Contents Val) :
    (TRef.of (sig := sig) (T := ⟨S50000, .f32⟩) main_v10 h1 h2 h3).toBuf v = v :=
  eq_of_heq (Cert.TypedRead.toBuf_heq (TRef.of (sig := sig) (T := ⟨S50000, .f32⟩) main_v10 h1 h2 h3) v)
theorem toBuf_main_v36 (h1 h2 h3) (v : (⟨S128, .f32⟩ : BufTy).Contents Val) :
    (TRef.of (sig := sig) (T := ⟨S128, .f32⟩) main_v36 h1 h2 h3).toBuf v = v :=
  eq_of_heq (Cert.TypedRead.toBuf_heq (TRef.of (sig := sig) (T := ⟨S128, .f32⟩) main_v36 h1 h2 h3) v)
theorem toBuf_main_v76 (h1 h2 h3) (v : (⟨S128, .f32⟩ : BufTy).Contents Val) :
    (TRef.of (sig := sig) (T := ⟨S128, .f32⟩) main_v76 h1 h2 h3).toBuf v = v :=
  eq_of_heq (Cert.TypedRead.toBuf_heq (TRef.of (sig := sig) (T := ⟨S128, .f32⟩) main_v76 h1 h2 h3) v)
theorem toBuf_main_v52 (h1 h2 h3) (v : (⟨S50000x128, .f32⟩ : BufTy).Contents Val) :
    (TRef.of (sig := sig) (T := ⟨S50000x128, .f32⟩) main_v52 h1 h2 h3).toBuf v = v :=
  eq_of_heq (Cert.TypedRead.toBuf_heq (TRef.of (sig := sig) (T := ⟨S50000x128, .f32⟩) main_v52 h1 h2 h3) v)
theorem toBuf_main_v93 (h1 h2 h3) (v : (⟨S50000x128, .f32⟩ : BufTy).Contents Val) :
    (TRef.of (sig := sig) (T := ⟨S50000x128, .f32⟩) main_v93 h1 h2 h3).toBuf v = v :=
  eq_of_heq (Cert.TypedRead.toBuf_heq (TRef.of (sig := sig) (T := ⟨S50000x128, .f32⟩) main_v93 h1 h2 h3) v)

end Transports

set_option maxHeartbeats 4000000 in
/-- The result array after the program's operations is the network of the reference's stages. -/
theorem val_eq (V : Valuation τ sig (Elt Ideal)) :
    after (ops (F := Ideal)) V (Proc.devRef .tc main_v93)
      = Stages.RefVal (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_concat]
  after_results_simp
  simp only [Cert.TypedRead.ofBuf_toBuf, ofBuf_main_cst_2, ofBuf_main_v3, ofBuf_main_cst_4, ofBuf_main_v6, ofBuf_main_v32, ofBuf_main_c_10, ofBuf_main_v51, ofBuf_main_v72, ofBuf_main_c_17, ofBuf_main_v92, toBuf_main_v7, toBuf_main_v10, toBuf_main_v36, toBuf_main_v76, toBuf_main_v52, toBuf_main_v93]
  delta Stages.RefVal Stages.r_relu Stages.r_bnPre Stages.r_lin Stages.r_agg Stages.r_meanV Stages.r_varV Stages.r_dinv Stages.r_deg Stages.r_col Stages.r_wrap
  first | (with_reducible rfl) | fail "the composed term is not the stages' network syntactically"

end Cert.ReferenceIdeal.RefRun

end
-- ==== Proof.RefRun.lean ====
/-
  The reference program's run read back: from any memory with zero counters every weakly fair execution of @main
  terminates, the result array is the network of the reference's stages applied to the eleven argument arrays at
  their launch contents, and the argument arrays are unchanged.
-/
import proofs.«180731_j65910568124789_1_alg».proof.Proof.RefArgs
import proofs.«180731_j65910568124789_1_alg».proof.Proof.RefValue

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts
open Cert.AfterConcat

variable [Cert.ReferenceIdeal.Facts]

/-- On every device, from any memory with zero counters: every weakly fair execution of @main terminates with the
    result array at the reference's network of the arguments and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v93) = Cert.ReferenceIdeal.Stages.RefVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v93).trans (val_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ (fun _ => ops_fresh))

end Cert.ReferenceIdeal.RefRun

end
-- ==== Proof.RefStagesA.lean ====
/-
  The reference's dense stages read at an index, over the extended reals: the linear map with its bias is
  the sum of products plus the bias entry; the column mean is the column sum over the number of nodes; the
  column variance is the mean of the squared deviations (its guard `n − 0 > 0` holds, so the quotient is
  selected); the normalisation is the scaled, shifted deviation times the reciprocal root; the clamp is the
  maximum with zero. Each is identified with the function the common specification names.
-/
import Idealize.ShloMosaic.PureOps.Ideal.Laws
import Idealize.ShloMosaic.Lib.Pipeline.Value
import Idealize.ShloMosaic.Lib.ValueIdx
import proofs.«180731_j65910568124789_1_alg».proof.Proof.RefStagesDefs
import proofs.«180731_j65910568124789_1_alg».proof.Proof.Spec
import proofs.«180731_j65910568124789_1_alg».proof.Proof.Consts
import proofs.«180731_j65910568124789_1_alg».proof.Proof.LibHostRead

noncomputable section

open scoped BigOperators

namespace Cert.ReferenceIdeal.Stages

open Idealize.ShloMosaic Idealize.ShloMosaic.ValueIdx
open Cert.ReferenceIdeal
open Cert.ReferenceIdeal.Facts₀ Cert.ReferenceIdeal.Facts

variable [Cert.ReferenceIdeal.Facts]

/-! ## Broadcasts of a vector of 128 read at an index -/

/-- A vector of 128 as one row reads, at `(u, q)`, its entry `q`. -/
theorem vec_row_apply {α : Type} (h1 : S128.BroadcastsInDim S1x128 ![1]) (x : S128.Idx → α) (j : S1x128.Idx) :
    broadcastInDim S1x128 ![1] h1 x j = x (ix1 (j 1)) :=
  broadcastInDim_apply ![1] h1 x j (ix1 (j 1)) fun a => by
    match a with
    | ⟨0, _⟩ => rfl

/-- One row repeated down the 50000 rows reads, at `(p, q)`, the row's entry `q`. -/
theorem row_down_apply {α : Type} (h2 : S1x128.BroadcastsInDim S50000x128 ![0, 1]) (x : S1x128.Idx → α)
    (p : Fin 50000) (q : Fin 128) :
    broadcastInDim S50000x128 ![0, 1] h2 x (ix2 p q) = x (ix2 0 q) :=
  broadcastInDim_apply ![0, 1] h2 x (ix2 p q) (ix2 0 q) fun a => by
    match a with
    | ⟨0, _⟩ => rfl
    | ⟨1, _⟩ => rfl

/-- A vector of 128 as a row repeated down the rows reads, at `(p, q)`, its entry `q`. -/
theorem vec_down_apply {α : Type} (h1 : S128.BroadcastsInDim S1x128 ![1])
    (h2 : S1x128.BroadcastsInDim S50000x128 ![0, 1]) (x : S128.Idx → α) (p : Fin 50000) (q : Fin 128) :
    broadcastInDim S50000x128 ![0, 1] h2 (broadcastInDim S1x128 ![1] h1 x) (ix2 p q) = x (ix1 q) := by
  rw [row_down_apply, vec_row_apply]

/-- A scalar broadcast to any shape reads the scalar. -/
theorem scalar_apply {α : Type} {t : Shape} (h : S_.BroadcastsInDim t ![]) (x : S_.Idx → α) (j : t.Idx) :
    broadcastInDim t ![] h x j = x ix0 :=
  Cert.HostRead.scalar_bcast_apply h x j

/-- The host's quotient at an index is the quotient of the elements. -/
theorem hdivf_apply {s : Shape} (a b : FVec Ideal s .f32) (i : s.Idx) : Host.divf a b i = Ideal.div (a i) (b i) := rfl

/-- The host's reciprocal root at an index is the reciprocal root of the element. -/
theorem hrsqrt_apply {s : Shape} (a : FVec Ideal s .f32) (i : s.Idx) : Host.rsqrt a i = Ideal.rsqrt (a i) := rfl

/-! ## The column sum -/

/-- The sum down the rows from the zero word, read at column `q`: the sum of the column's entries. -/
theorem colsum_apply (h' : S50000x128.ReducesTo [0] S128) (hu : 0 < S_.numel) (x : FVec Ideal S50000x128 .f32)
    (q : Fin 128) :
    Host.reduceAdd x (constant (F := Ideal) S_ .f32 0x00000000#32) h' hu (ix1 q) = ∑ p : Fin 50000, x (ix2 p q) := by
  have hr : S50000x128.Reduces [0] S128 := by decide
  show Ideal.hostReduceAdd h' x (Ideal.ofBits .f32 0x00000000#32) (ix1 q) = _
  rw [Ideal.hostReduceAdd_single h' hr, Cert.Consts.ofBits_zero, zero_add]
  refine Finset.sum_congr rfl fun p _ => congrArg x (funext fun a => Fin.ext ?_)
  match a with
  | ⟨0, _⟩ => rfl
  | ⟨1, _⟩ => rfl

/-! ## The stages -/

/-- The linear map with its bias is the specification's. -/
theorem r_lin_eq (m : FVec Ideal S50000x128 .f32) (W : FVec Ideal S128x128 .f32) (b : FVec Ideal S128 .f32) :
    r_lin m W b = Cert.Gcn.lin m W (Cert.Gcn.row b) := by
  funext i
  obtain ⟨p, q, rfl⟩ : ∃ (p : Fin 50000) (q : Fin 128), i = ix2 p q := ⟨i 0, i 1, eq_ix2 i⟩
  unfold r_lin
  rw [addf_apply, Cert.HostRead.dotGeneral_ix2_apply _ rfl rfl rfl rfl rfl rfl, vec_down_apply]
  rfl

/-- The column means are the specification's. -/
theorem r_meanV_eq (h : FVec Ideal S50000x128 .f32) : r_meanV h = Cert.Gcn.meanV h := by
  funext k
  obtain ⟨q, rfl⟩ : ∃ q : Fin 128, k = ix1 q := ⟨k 0, eq_ix1 k⟩
  unfold r_meanV
  rw [hdivf_apply, colsum_apply, scalar_apply]
  rfl

/-- The guard of the variance's quotient: the number of nodes less the converted zero is positive. -/
theorem var_guard :
    cmpf .ogt (subf (constant (F := Ideal) S_ .f32 0x47435000#32) (sitofp .f32 (constantI S_ 32 0#32)))
      (constant (F := Ideal) S_ .f32 0x00000000#32) ix0 = 1#1 := by
  show Ideal.cmp .ogt (Ideal.ofBits .f32 0x47435000#32 - (((0#32 : BitVec 32).toInt : ℝ) : EReal))
      (Ideal.ofBits .f32 0x00000000#32) = 1#1
  have h0 : (((0#32 : BitVec 32).toInt : ℝ) : EReal) = 0 := by
    have : (0#32 : BitVec 32).toInt = 0 := by decide
    rw [this]; simp
  rw [h0, sub_zero, Cert.Consts.ofBits_50000, Cert.Consts.ofBits_zero]
  unfold Ideal.cmp
  have hpos : (0 : EReal) < ((50000 : ℝ) : EReal) := by exact_mod_cast (by norm_num : (0 : ℝ) < 50000)
  simp [hpos]

/-- The divisor of the variance's quotient: the number of nodes less the converted zero is the number of nodes. -/
theorem var_divisor :
    subf (constant (F := Ideal) S_ .f32 0x47435000#32) (sitofp .f32 (constantI S_ 32 0#32)) ix0
      = Cert.Gcn.nF := by
  show Ideal.ofBits .f32 0x47435000#32 - (((0#32 : BitVec 32).toInt : ℝ) : EReal) = _
  have h0 : (((0#32 : BitVec 32).toInt : ℝ) : EReal) = 0 := by
    have : (0#32 : BitVec 32).toInt = 0 := by decide
    rw [this]; simp
  rw [h0, sub_zero]

/-- The column variances are the specification's. -/
theorem r_varV_eq (h : FVec Ideal S50000x128 .f32) : r_varV h = Cert.Gcn.varV h := by
  funext k
  obtain ⟨q, rfl⟩ : ∃ q : Fin 128, k = ix1 q := ⟨k 0, eq_ix1 k⟩
  unfold r_varV
  beta_reduce
  rw [select_apply, scalar_apply, var_guard, select_one]
  rw [hdivf_apply, colsum_apply, scalar_apply, var_divisor]
  unfold Cert.Gcn.varV
  refine congrArg (fun s => Ideal.div s Cert.Gcn.nF) (Finset.sum_congr rfl fun p _ => ?_)
  have hm : broadcastInDim S50000x128 ![0, 1] bcast_S1x128_S50000x128_0_1
        (Host.divf
          (broadcastInDim S1x128 ![1] bcast_S128_S1x128_1
            (Host.reduceAdd h (constant (F := Ideal) S_ .f32 0x00000000#32) reducesTo_S50000x128_S128_d0 h_S_))
          (broadcastInDim S1x128 ![] bcast_S_S1x128 (constant (F := Ideal) S_ .f32 0x47435000#32))) (ix2 p q)
      = Cert.Gcn.meanV h (ix1 q) := by
    rw [row_down_apply, hdivf_apply, vec_row_apply, scalar_apply]
    show Ideal.div (Host.reduceAdd h (constant (F := Ideal) S_ .f32 0x00000000#32) reducesTo_S50000x128_S128_d0 h_S_ (ix1 q)) _ = _
    rw [colsum_apply]
    rfl
  rw [mulf_apply, subf_apply, hm]

/-- The normalisation, scaled and shifted, is the specification's. -/
theorem r_bnPre_eq (h : FVec Ideal S50000x128 .f32) (mu v gamma beta : FVec Ideal S128 .f32) :
    r_bnPre h mu v gamma beta = Cert.Gcn.bnPre h mu v gamma beta := by
  funext i
  obtain ⟨p, q, rfl⟩ : ∃ (p : Fin 50000) (q : Fin 128), i = ix2 p q := ⟨i 0, i 1, eq_ix2 i⟩
  unfold r_bnPre
  rw [addf_apply, mulf_apply, mulf_apply, subf_apply, vec_down_apply, vec_down_apply, vec_down_apply, vec_down_apply]
  rw [hrsqrt_apply, addf_apply, scalar_apply]
  rfl

/-- The clamp at zero is the maximum with the zero word. -/
theorem r_relu_eq (h : FVec Ideal S50000x128 .f32) : r_relu h = fun i => max (h i) Cert.Gcn.zero := by
  funext i
  unfold r_relu
  rw [maximumf_apply, scalar_apply]
  rfl

end Cert.ReferenceIdeal.Stages

end
-- ==== Proof.RefStages.lean ====
/-
  The reference's network is the specification's, stage by stage: the edge words as a column, the wrap of a
  negative word, the degree count, the degree factor and the neighbourhood sum are the specification's by the
  program-independent readings of the host operations; the linear map, the column mean and variance, the
  normalisation and the clamp by their reads at an index. Composed in the reference's order they give its two
  layers, the second with the first's output added before the clamp.
-/
import proofs.«180731_j65910568124789_1_alg».proof.Proof.RefStagesDefs
import proofs.«180731_j65910568124789_1_alg».proof.Proof.RefStagesA
import proofs.«180731_j65910568124789_1_alg».proof.Proof.Spec
import proofs.«180731_j65910568124789_1_alg».proof.Proof.HostStages

noncomputable section

namespace Cert.ReferenceIdeal.Stages

open Idealize.ShloMosaic Idealize.ShloMosaic.ValueIdx
open Cert.ReferenceIdeal
open Cert.ReferenceIdeal.Facts₀ Cert.ReferenceIdeal.Facts

variable [Cert.ReferenceIdeal.Facts]

/-! ## The sparse stages -/

/-- The edge words broadcast to a column are the column of start indices. -/
theorem r_col_eq (v : IVec S800000 32) : r_col v = Cert.Gcn.col v :=
  Cert.Gcn.Host.col_stage bcast_S800000_S800000x1_0 v

/-- Compare with zero, add the node count, select: the wrap of a negative word. -/
theorem r_wrap_eq (v : IVec S800000 32) : r_wrap v = Cert.Gcn.wrap v :=
  Cert.Gcn.Host.wrap_stage bcast_S_S800000 v

/-- Ones summed onto zeros at the edge words: the degree count. -/
theorem r_deg_eq (v : IVec S800000 32) : r_deg v = Cert.Gcn.deg v :=
  Cert.Gcn.Host.deg_stage scatter_S50000_S800000x1_S800000_n_0_0_1_wf scatter_S50000_S800000x1_S800000_n_0_0_1 rfl
    bcast_S_S50000 bcast_S800000_S800000x1_0 bcast_S_S800000 v

/-- The degree factor `max(1, deg) ^ (-1/2)`. -/
theorem r_dinv_eq (v : IVec S800000 32) : r_dinv v = Cert.Gcn.dinv v :=
  Cert.Gcn.Host.dinv_stage bcast_S_S50000 v (r_deg v) (r_deg_eq v)

/-- The neighbourhood sum. -/
theorem r_agg_eq (h : FVec Ideal S50000x128 .f32) (src dst : IVec S800000 32) (dout din : FVec Ideal S50000 .f32) :
    r_agg h src dst dout din = Cert.Gcn.aggr h src dst dout din := by
  unfold r_agg r_col
  rw [r_wrap_eq]
  exact Cert.Gcn.Host.aggr_stage gather_S50000x128_S800000x1_S800000x128_1_0_n_n_0_1_1128_wf
    gather_S50000x128_S800000x1_S800000x128_1_0_n_n_0_1_1128 rfl
    scatter_S50000x128_S800000x1_S800000x128_1_0_0_1_wf scatter_S50000x128_S800000x1_S800000x128_1_0_0_1 rfl
    bcast_S_S50000x128 bcast_S800000_S800000x1_0 bcast_S50000x1_S50000x128_0_1 bcast_S50000_S50000x1_0
    h src dst dout din

/-! ## The two layers after the neighbourhood sum -/

/-- The first layer: the clamp of the normalised linear map. -/
theorem layer1_eq (m : FVec Ideal S50000x128 .f32) (W : FVec Ideal S128x128 .f32) (b g be : FVec Ideal S128 .f32) :
    r_relu (r_bnPre (r_lin m W b) (r_meanV (r_lin m W b)) (r_varV (r_lin m W b)) g be)
      = Cert.Gcn.refLayer1 m W b g be := by
  rw [r_lin_eq, r_meanV_eq, r_varV_eq, r_bnPre_eq, r_relu_eq]
  rfl

/-- The second layer: the residual added before the clamp. -/
theorem layer2_eq (m : FVec Ideal S50000x128 .f32) (W : FVec Ideal S128x128 .f32) (b g be : FVec Ideal S128 .f32)
    (resid : FVec Ideal S50000x128 .f32) :
    r_relu (addf (r_bnPre (r_lin m W b) (r_meanV (r_lin m W b)) (r_varV (r_lin m W b)) g be) resid)
      = Cert.Gcn.refLayer2 m W b g be resid := by
  rw [r_lin_eq, r_meanV_eq, r_varV_eq, r_bnPre_eq, r_relu_eq]
  rfl

/-! ## The network -/

/-- THE REFERENCE'S NETWORK IS THE SPECIFICATION'S, in the reference's arrangement. -/
theorem RefVal_eq_refNet (x : FVec Ideal S50000x128 .f32) (src dst : IVec S800000 32)
    (W1 : FVec Ideal S128x128 .f32) (b1 g1 be1 : FVec Ideal S128 .f32)
    (W2 : FVec Ideal S128x128 .f32) (b2 g2 be2 : FVec Ideal S128 .f32) :
    RefVal x src dst W1 b1 g1 be1 W2 b2 g2 be2 = Cert.Gcn.refNet x src dst W1 b1 g1 be1 W2 b2 g2 be2 := by
  unfold RefVal Cert.Gcn.refNet
  rw [r_dinv_eq src, r_dinv_eq dst, r_agg_eq x src dst, layer1_eq, r_agg_eq, layer2_eq]

end Cert.ReferenceIdeal.Stages

end
-- ==== Proof.lean ====
/-
  A two-layer graph convolution, fused on the accelerator, computes what its array-language reference computes.

  Both programs scale each node's feature row by its out-degree factor, sum over the edges into a node the row of
  the edge's source, scale by the in-degree factor, apply a linear map with a bias, normalise every column by its
  mean and variance over the nodes, scale, shift, add a residual and clamp at zero — twice. The kernel's program
  does the linear map and the two column sums in one pass over ten blocks of 5000 rows, accumulating the sums
  across the blocks, and forms the variance as E[h²] − (E h)²; the reference takes E[(h − E h)²] of the whole array.
  The two agree on finite inputs, and only there: expanding the square needs every entry finite, and the divisor of
  every mean is the number of rows. Finiteness of every intermediate follows from that of the inputs, because a
  degree factor is (a count floored at one)^(−1/2), an aggregation is a finite sum of products, and a variance of
  reals plus the positive stabiliser is positive, so its reciprocal square root is a real. The integer inputs (the
  edge lists) are unconstrained: both programs read them through the same clamped gather and the same scatter that
  drops words outside the node range.

  The frames of the two kernel programs are the generated ones; the reference's frame is its run with the result
  dropped; the idealization rewrote nothing, so the sanctioned-idealization conjunct is trivial.
-/
import proofs.«180731_j65910568124789_1_alg».proof.Defs
import proofs.«180731_j65910568124789_1_alg».proof.Proof.Gen.Kernel
import proofs.«180731_j65910568124789_1_alg».proof.Proof.Gen.Kernel.Frame
import proofs.«180731_j65910568124789_1_alg».proof.Proof.Gen.KernelIdeal
import proofs.«180731_j65910568124789_1_alg».proof.Proof.Gen.KernelIdeal.Frame
import proofs.«180731_j65910568124789_1_alg».proof.Proof.Gen.ReferenceIdeal
import proofs.«180731_j65910568124789_1_alg».proof.Proof.Gen.Pre_finite_inputs
import proofs.«180731_j65910568124789_1_alg».proof.Proof.Spec
import proofs.«180731_j65910568124789_1_alg».proof.Proof.Bridge
import proofs.«180731_j65910568124789_1_alg».proof.Proof.PreReal
import proofs.«180731_j65910568124789_1_alg».proof.Proof.KRun
import proofs.«180731_j65910568124789_1_alg».proof.Proof.KChain
import proofs.«180731_j65910568124789_1_alg».proof.Proof.RefRun
import proofs.«180731_j65910568124789_1_alg».proof.Proof.RefStages
import Idealize.ShloMosaic.Adequacy
import Idealize.ShloMosaic.Init

-- membership in rectangles of the programs' full extents recurses once per coordinate of the long axes
set_option maxRecDepth 16384

noncomputable section

namespace Cert.Proof

open Idealize.ShloMosaic Idealize.SL.Sem

/-- the word-level kernel program runs and leaves its arguments as launched -/
theorem frame_kernel : Cert.frame_Kernel := fun m ρ _ => Cert.Kernel.Gen.frame m ρ

/-- so does its idealization -/
theorem frame_kernelIdeal : Cert.frame_KernelIdeal := fun m ρ _ => Cert.KernelIdeal.Gen.frame m ρ

/-- the reference's frame is its run with the result dropped -/
theorem frame_referenceIdeal : Cert.frame_ReferenceIdeal := fun m ρ _ =>
  (θ_run (Cert.ReferenceIdeal.defs (F := Ideal)) _ _).mono (fun _ h c => (h c).2) (Cert.ReferenceIdeal.RefRun.run m ρ)

/-- the idealization rewrote no operation -/
theorem preserves : Cert.preserves_Kernel_KernelIdeal := trivial

/-- from memories agreeing on the arguments, finite on the float ones, both programs end at the network's value -/
theorem algebraic : Cert.algebraic_KernelIdeal_ReferenceIdeal := by
  intro m ρ m' ρ' hpre hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun _ h c => ⟨(h c).1.trans (Cert.KernelIdeal.KChain.result_eq m ρ c), (h c).2⟩)
      (Cert.KernelIdeal.KRun.run_value m ρ)
  · refine (θ_run (Cert.ReferenceIdeal.defs (F := Ideal)) _ _).mono (fun _ h c => ⟨(h c).1.trans ?_, (h c).2⟩)
      (Cert.ReferenceIdeal.RefRun.run m' ρ')
    obtain ⟨a0, a1, a2, a3, a4, a5, a6, a7, a8, a9, a10⟩ := hagree c
    obtain ⟨r0, r3, r4, r5, r6, r7, r8, _, _⟩ := Cert.PreReal.real_of_pre m hpre c
    rw [a0, a1, a2, a3, a4, a5, a6, a7, a8, a9, a10, Cert.ReferenceIdeal.Stages.RefVal_eq_refNet]
    exact Cert.Gcn.refNet_eq_net _ _ _ _ _ _ _ _ _ _ _ r0 r3 r4 r5 r6 r7 r8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
